-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v211)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v211) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S128x512 : Shape := ⟨2, ![128, 512]⟩
abbrev S128 : Shape := ⟨1, ![128]⟩
abbrev S128x128 : Shape := ⟨2, ![128, 128]⟩
abbrev S3x128 : Shape := ⟨2, ![3, 128]⟩
abbrev S3 : Shape := ⟨1, ![3]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg15 : FVec F S3 .f32) (main_v63 : IVec S_ 1) (main_v67 : IVec S_ 1) : IVec S_ 1 :=
  let main_v68 : IVec S_ 1 := andi main_v63 main_v67
  let main_v69 : FVec F S3 .f32 := Host.absf main_arg15
  let main_cst_26 : FVec F S_ .f32 := constant S_ .f32 0x7F800000#32
  let main_v70 : FVec F S3 .f32 := broadcastInDim S3 ![] bcast_S_S3 main_cst_26
  let main_v71 : IVec S3 1 := cmpf .olt main_v69 main_v70
  let main_c_27 : IVec S_ 1 := constantI S_ 1 1#1
  let main_v72 : IVec S_ 1 := (fun x v => Host.reduce IntOp.andi x v reducesTo_S3_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S3x128 .f32) (main_arg15 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S3x128 .f32 := Host.absf main_arg14
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg15 main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S3x128 .f32) (main_arg15 : FVec F S3 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S3x128 .f32) (main_arg15 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x512 .f32) (main_arg1 : IVec S2x3200000 32) (main_arg2 : FVec F S128x512 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S3x128 .f32) (main_arg15 : FVec F S3 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x512 : Shape := ⟨2, ![100000, 512]⟩
abbrev S2x3200000 : Shape := ⟨2, ![2, 3200000]⟩
abbrev S128x512 : Shape := ⟨2, ![128, 512]⟩
abbrev S128 : Shape := ⟨1, ![128]⟩
abbrev S128x128 : Shape := ⟨2, ![128, 128]⟩
abbrev S3x128 : Shape := ⟨2, ![3, 128]⟩
abbrev S3 : Shape := ⟨1, ![3]⟩
abbrev S512x128 : Shape := ⟨2, ![512, 128]⟩
abbrev S128x3 : Shape := ⟨2, ![128, 3]⟩
abbrev S1x128 : Shape := ⟨2, ![1, 128]⟩
abbrev S1x3 : Shape := ⟨2, ![1, 3]⟩
abbrev S100000x3 : Shape := ⟨2, ![100000, 3]⟩
abbrev S2000x512 : Shape := ⟨2, ![2000, 512]⟩
abbrev S2000x3 : Shape := ⟨2, ![2000, 3]⟩
abbrev S2000x128 : Shape := ⟨2, ![2000, 128]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x3 : Shape := ⟨2, ![3300000, 3]⟩
abbrev S100000x1 : Shape := ⟨2, ![100000, 1]⟩

abbrev nBuf : Space → Nat
  | .hbm => 316
  | .vmem => 18
  | .smem => 0
  | _ => 0

abbrev hbmTy0_0 (i : Nat) : BufTy := match i % 128 with
  | 0 => ⟨S100000x512, .f32⟩
  | 1 => ⟨S2x3200000, .i32⟩
  | 2 => ⟨S128x512, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S3x128, .f32⟩
  | 15 => ⟨S3, .f32⟩
  | 16 => ⟨S512x128, .f32⟩
  | 17 => ⟨S128x128, .f32⟩
  | 18 => ⟨S128x3, .f32⟩
  | 19 => ⟨S1x128, .f32⟩
  | 20 => ⟨S1x128, .f32⟩
  | 21 => ⟨S1x128, .f32⟩
  | 22 => ⟨S1x128, .f32⟩
  | 23 => ⟨S1x128, .f32⟩
  | 24 => ⟨S1x128, .f32⟩
  | 25 => ⟨S1x128, .f32⟩
  | 26 => ⟨S1x128, .f32⟩
  | 27 => ⟨S1x128, .f32⟩
  | 28 => ⟨S1x128, .f32⟩
  | 29 => ⟨S1x3, .f32⟩
  | 30 => ⟨S100000x3, .f32⟩
  | 31 => ⟨S100000, .i32⟩
  | 32 => ⟨S1x3200000, .i32⟩
  | 33 => ⟨S3200000, .i32⟩
  | 34 => ⟨S3300000, .i32⟩
  | 35 => ⟨S1x3200000, .i32⟩
  | 36 => ⟨S3200000, .i32⟩
  | 37 => ⟨S3300000, .i32⟩
  | 38 => ⟨S_, .f32⟩
  | 39 => ⟨S3300000, .f32⟩
  | 40 => ⟨S_, .f32⟩
  | 41 => ⟨S100000, .f32⟩
  | 42 => ⟨S3300000x1, .i32⟩
  | 43 => ⟨S100000, .f32⟩
  | 44 => ⟨S_, .f32⟩
  | 45 => ⟨S100000, .f32⟩
  | 46 => ⟨S100000, .i1⟩
  | 47 => ⟨S100000, .f32⟩
  | 48 => ⟨S_, .f32⟩
  | 49 => ⟨S_, .f32⟩
  | 50 => ⟨S100000, .f32⟩
  | 51 => ⟨S100000, .f32⟩
  | 52 => ⟨S_, .i32⟩
  | 53 => ⟨S3300000, .i32⟩
  | 54 => ⟨S3300000, .i1⟩
  | 55 => ⟨S_, .i32⟩
  | 56 => ⟨S3300000, .i32⟩
  | 57 => ⟨S3300000, .i32⟩
  | 58 => ⟨S3300000, .i32⟩
  | 59 => ⟨S3300000x1, .i32⟩
  | 60 => ⟨S3300000, .f32⟩
  | 61 => ⟨S_, .i32⟩
  | 62 => ⟨S3300000, .i32⟩
  | 63 => ⟨S3300000, .i1⟩
  | 64 => ⟨S_, .i32⟩
  | 65 => ⟨S3300000, .i32⟩
  | 66 => ⟨S3300000, .i32⟩
  | 67 => ⟨S3300000, .i32⟩
  | 68 => ⟨S3300000x1, .i32⟩
  | 69 => ⟨S3300000, .f32⟩
  | 70 => ⟨S3300000, .f32⟩
  | 71 => ⟨S_, .i32⟩
  | 72 => ⟨S3300000, .i32⟩
  | 73 => ⟨S3300000, .i1⟩
  | 74 => ⟨S_, .i32⟩
  | 75 => ⟨S3300000, .i32⟩
  | 76 => ⟨S3300000, .i32⟩
  | 77 => ⟨S3300000, .i32⟩
  | 78 => ⟨S3300000x1, .i32⟩
  | 79 => ⟨S3300000x3, .f32⟩
  | 80 => ⟨S3300000x1, .f32⟩
  | 81 => ⟨S3300000x3, .f32⟩
  | 82 => ⟨S3300000x3, .f32⟩
  | 83 => ⟨S_, .f32⟩
  | 84 => ⟨S100000x3, .f32⟩
  | 85 => ⟨S3300000x1, .i32⟩
  | 86 => ⟨S100000x3, .f32⟩
  | 87 => ⟨S_, .f32⟩
  | 88 => ⟨S100000x3, .f32⟩
  | 89 => ⟨S100000x3, .f32⟩
  | 90 => ⟨S_, .f32⟩
  | 91 => ⟨S100000x3, .f32⟩
  | 92 => ⟨S100000x3, .f32⟩
  | 93 => ⟨S100000x3, .f32⟩
  | 94 => ⟨S_, .i32⟩
  | 95 => ⟨S3300000, .i32⟩
  | 96 => ⟨S3300000, .i1⟩
  | 97 => ⟨S_, .i32⟩
  | 98 => ⟨S3300000, .i32⟩
  | 99 => ⟨S3300000, .i32⟩
  | 100 => ⟨S3300000, .i32⟩
  | 101 => ⟨S3300000x1, .i32⟩
  | 102 => ⟨S3300000x3, .f32⟩
  | 103 => ⟨S3300000x1, .f32⟩
  | 104 => ⟨S3300000x3, .f32⟩
  | 105 => ⟨S3300000x3, .f32⟩
  | 106 => ⟨S_, .f32⟩
  | 107 => ⟨S100000x3, .f32⟩
  | 108 => ⟨S3300000x1, .i32⟩
  | 109 => ⟨S100000x3, .f32⟩
  | 110 => ⟨S_, .f32⟩
  | 111 => ⟨S100000x3, .f32⟩
  | 112 => ⟨S100000x3, .f32⟩
  | 113 => ⟨S_, .f32⟩
  | 114 => ⟨S100000x3, .f32⟩
  | 115 => ⟨S100000x3, .f32⟩
  | 116 => ⟨S100000x3, .f32⟩
  | 117 => ⟨S_, .i32⟩
  | 118 => ⟨S3300000, .i32⟩
  | 119 => ⟨S3300000, .i1⟩
  | 120 => ⟨S_, .i32⟩
  | 121 => ⟨S3300000, .i32⟩
  | 122 => ⟨S3300000, .i32⟩
  | 123 => ⟨S3300000, .i32⟩
  | 124 => ⟨S3300000x1, .i32⟩
  | 125 => ⟨S3300000x3, .f32⟩
  | 126 => ⟨S3300000x1, .f32⟩
  | 127 => ⟨S3300000x3, .f32⟩
  | _ => ⟨S100000x512, .f32⟩

abbrev hbmTy0_1 (i : Nat) : BufTy := match i % 128 with
  | 0 => ⟨S3300000x3, .f32⟩
  | 1 => ⟨S_, .f32⟩
  | 2 => ⟨S100000x3, .f32⟩
  | 3 => ⟨S3300000x1, .i32⟩
  | 4 => ⟨S100000x3, .f32⟩
  | 5 => ⟨S_, .f32⟩
  | 6 => ⟨S100000x3, .f32⟩
  | 7 => ⟨S100000x3, .f32⟩
  | 8 => ⟨S_, .f32⟩
  | 9 => ⟨S100000x3, .f32⟩
  | 10 => ⟨S100000x3, .f32⟩
  | 11 => ⟨S100000x3, .f32⟩
  | 12 => ⟨S_, .i32⟩
  | 13 => ⟨S3300000, .i32⟩
  | 14 => ⟨S3300000, .i1⟩
  | 15 => ⟨S_, .i32⟩
  | 16 => ⟨S3300000, .i32⟩
  | 17 => ⟨S3300000, .i32⟩
  | 18 => ⟨S3300000, .i32⟩
  | 19 => ⟨S3300000x1, .i32⟩
  | 20 => ⟨S3300000x3, .f32⟩
  | 21 => ⟨S3300000x1, .f32⟩
  | 22 => ⟨S3300000x3, .f32⟩
  | 23 => ⟨S3300000x3, .f32⟩
  | 24 => ⟨S_, .f32⟩
  | 25 => ⟨S100000x3, .f32⟩
  | 26 => ⟨S3300000x1, .i32⟩
  | 27 => ⟨S100000x3, .f32⟩
  | 28 => ⟨S_, .f32⟩
  | 29 => ⟨S100000x3, .f32⟩
  | 30 => ⟨S100000x3, .f32⟩
  | 31 => ⟨S_, .f32⟩
  | 32 => ⟨S100000x3, .f32⟩
  | 33 => ⟨S100000x3, .f32⟩
  | 34 => ⟨S100000x3, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000x3, .f32⟩
  | 44 => ⟨S3300000x1, .f32⟩
  | 45 => ⟨S3300000x3, .f32⟩
  | 46 => ⟨S3300000x3, .f32⟩
  | 47 => ⟨S_, .f32⟩
  | 48 => ⟨S100000x3, .f32⟩
  | 49 => ⟨S3300000x1, .i32⟩
  | 50 => ⟨S100000x3, .f32⟩
  | 51 => ⟨S_, .f32⟩
  | 52 => ⟨S100000x3, .f32⟩
  | 53 => ⟨S100000x3, .f32⟩
  | 54 => ⟨S_, .f32⟩
  | 55 => ⟨S100000x3, .f32⟩
  | 56 => ⟨S100000x3, .f32⟩
  | 57 => ⟨S100000x3, .f32⟩
  | 58 => ⟨S_, .i32⟩
  | 59 => ⟨S3300000, .i32⟩
  | 60 => ⟨S3300000, .i1⟩
  | 61 => ⟨S_, .i32⟩
  | 62 => ⟨S3300000, .i32⟩
  | 63 => ⟨S3300000, .i32⟩
  | 64 => ⟨S3300000, .i32⟩
  | 65 => ⟨S3300000x1, .i32⟩
  | 66 => ⟨S3300000x3, .f32⟩
  | 67 => ⟨S3300000x1, .f32⟩
  | 68 => ⟨S3300000x3, .f32⟩
  | 69 => ⟨S3300000x3, .f32⟩
  | 70 => ⟨S_, .f32⟩
  | 71 => ⟨S100000x3, .f32⟩
  | 72 => ⟨S3300000x1, .i32⟩
  | 73 => ⟨S100000x3, .f32⟩
  | 74 => ⟨S_, .f32⟩
  | 75 => ⟨S100000x3, .f32⟩
  | 76 => ⟨S100000x3, .f32⟩
  | 77 => ⟨S_, .f32⟩
  | 78 => ⟨S100000x3, .f32⟩
  | 79 => ⟨S100000x3, .f32⟩
  | 80 => ⟨S100000x3, .f32⟩
  | 81 => ⟨S_, .i32⟩
  | 82 => ⟨S3300000, .i32⟩
  | 83 => ⟨S3300000, .i1⟩
  | 84 => ⟨S_, .i32⟩
  | 85 => ⟨S3300000, .i32⟩
  | 86 => ⟨S3300000, .i32⟩
  | 87 => ⟨S3300000, .i32⟩
  | 88 => ⟨S3300000x1, .i32⟩
  | 89 => ⟨S3300000x3, .f32⟩
  | 90 => ⟨S3300000x1, .f32⟩
  | 91 => ⟨S3300000x3, .f32⟩
  | 92 => ⟨S3300000x3, .f32⟩
  | 93 => ⟨S_, .f32⟩
  | 94 => ⟨S100000x3, .f32⟩
  | 95 => ⟨S3300000x1, .i32⟩
  | 96 => ⟨S100000x3, .f32⟩
  | 97 => ⟨S_, .f32⟩
  | 98 => ⟨S100000x3, .f32⟩
  | 99 => ⟨S100000x3, .f32⟩
  | 100 => ⟨S_, .f32⟩
  | 101 => ⟨S100000x3, .f32⟩
  | 102 => ⟨S100000x3, .f32⟩
  | 103 => ⟨S100000x3, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000x3, .f32⟩
  | 113 => ⟨S3300000x1, .f32⟩
  | 114 => ⟨S3300000x3, .f32⟩
  | 115 => ⟨S3300000x3, .f32⟩
  | 116 => ⟨S_, .f32⟩
  | 117 => ⟨S100000x3, .f32⟩
  | 118 => ⟨S3300000x1, .i32⟩
  | 119 => ⟨S100000x3, .f32⟩
  | 120 => ⟨S_, .f32⟩
  | 121 => ⟨S100000x3, .f32⟩
  | 122 => ⟨S100000x3, .f32⟩
  | 123 => ⟨S_, .f32⟩
  | 124 => ⟨S100000x3, .f32⟩
  | 125 => ⟨S100000x3, .f32⟩
  | 126 => ⟨S100000x3, .f32⟩
  | 127 => ⟨S_, .i32⟩
  | _ => ⟨S100000x512, .f32⟩

abbrev hbmTy0_2 (i : Nat) : BufTy := match i % 128 with
  | 0 => ⟨S3300000, .i32⟩
  | 1 => ⟨S3300000, .i1⟩
  | 2 => ⟨S_, .i32⟩
  | 3 => ⟨S3300000, .i32⟩
  | 4 => ⟨S3300000, .i32⟩
  | 5 => ⟨S3300000, .i32⟩
  | 6 => ⟨S3300000x1, .i32⟩
  | 7 => ⟨S3300000x3, .f32⟩
  | 8 => ⟨S3300000x1, .f32⟩
  | 9 => ⟨S3300000x3, .f32⟩
  | 10 => ⟨S3300000x3, .f32⟩
  | 11 => ⟨S_, .f32⟩
  | 12 => ⟨S100000x3, .f32⟩
  | 13 => ⟨S3300000x1, .i32⟩
  | 14 => ⟨S100000x3, .f32⟩
  | 15 => ⟨S_, .f32⟩
  | 16 => ⟨S100000x3, .f32⟩
  | 17 => ⟨S100000x3, .f32⟩
  | 18 => ⟨S_, .f32⟩
  | 19 => ⟨S100000x3, .f32⟩
  | 20 => ⟨S100000x3, .f32⟩
  | 21 => ⟨S100000x3, .f32⟩
  | 22 => ⟨S_, .i32⟩
  | 23 => ⟨S3300000, .i32⟩
  | 24 => ⟨S3300000, .i1⟩
  | 25 => ⟨S_, .i32⟩
  | 26 => ⟨S3300000, .i32⟩
  | 27 => ⟨S3300000, .i32⟩
  | 28 => ⟨S3300000, .i32⟩
  | 29 => ⟨S3300000x1, .i32⟩
  | 30 => ⟨S3300000x3, .f32⟩
  | 31 => ⟨S3300000x1, .f32⟩
  | 32 => ⟨S3300000x3, .f32⟩
  | 33 => ⟨S3300000x3, .f32⟩
  | 34 => ⟨S_, .f32⟩
  | 35 => ⟨S100000x3, .f32⟩
  | 36 => ⟨S3300000x1, .i32⟩
  | 37 => ⟨S100000x3, .f32⟩
  | 38 => ⟨S_, .f32⟩
  | 39 => ⟨S100000x3, .f32⟩
  | 40 => ⟨S100000x3, .f32⟩
  | 41 => ⟨S_, .f32⟩
  | 42 => ⟨S100000x3, .f32⟩
  | 43 => ⟨S100000x3, .f32⟩
  | 44 => ⟨S100000x3, .f32⟩
  | 45 => ⟨S_, .f32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x3, .f32⟩
  | 52 => ⟨S100000x3, .f32⟩
  | 53 => ⟨S100000x3, .f32⟩
  | 54 => ⟨S_, .f32⟩
  | 55 => ⟨S100000, .f32⟩
  | 56 => ⟨S100000x1, .f32⟩
  | 57 => ⟨S100000x1, .f32⟩
  | 58 => ⟨S100000x3, .f32⟩
  | 59 => ⟨S100000x3, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x3, .f32⟩
  | .local _ .vmem, ⟨15, _⟩ => ⟨S1x3, .f32⟩
  | .local _ .vmem, ⟨16, _⟩ => ⟨S2000x3, .f32⟩
  | .local _ .vmem, ⟨17, _⟩ => ⟨S2000x3, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst : Ref sig .tc := ⟨.hbm, 38, rfl⟩
abbrev main_v8 : Ref sig .tc := ⟨.hbm, 39, rfl⟩
abbrev main_cst_0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_1 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst_2 : Ref sig .tc := ⟨.hbm, 48, rfl⟩
abbrev main_call1_v0 : Ref sig .tc := ⟨.hbm, 49, rfl⟩
abbrev main_call1_v1 : Ref sig .tc := ⟨.hbm, 50, rfl⟩
abbrev main_v15 : Ref sig .tc := ⟨.hbm, 51, rfl⟩
abbrev main_c : Ref sig .tc := ⟨.hbm, 52, rfl⟩
abbrev main_v16 : Ref sig .tc := ⟨.hbm, 53, rfl⟩
abbrev main_v17 : Ref sig .tc := ⟨.hbm, 54, rfl⟩
abbrev main_c_3 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_c_4 : Ref sig .tc := ⟨.hbm, 61, rfl⟩
abbrev main_v23 : Ref sig .tc := ⟨.hbm, 62, rfl⟩
abbrev main_v24 : Ref sig .tc := ⟨.hbm, 63, rfl⟩
abbrev main_c_5 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_c_6 : Ref sig .tc := ⟨.hbm, 71, rfl⟩
abbrev main_v31 : Ref sig .tc := ⟨.hbm, 72, rfl⟩
abbrev main_v32 : Ref sig .tc := ⟨.hbm, 73, rfl⟩
abbrev main_c_7 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_cst_8 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_9 : Ref sig .tc := ⟨.hbm, 87, rfl⟩
abbrev main_v44 : Ref sig .tc := ⟨.hbm, 88, rfl⟩
abbrev main_v45 : Ref sig .tc := ⟨.hbm, 89, rfl⟩
abbrev main_cst_10 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_c_11 : Ref sig .tc := ⟨.hbm, 94, rfl⟩
abbrev main_v49 : Ref sig .tc := ⟨.hbm, 95, rfl⟩
abbrev main_v50 : Ref sig .tc := ⟨.hbm, 96, rfl⟩
abbrev main_c_12 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_13 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_cst_14 : Ref sig .tc := ⟨.hbm, 110, rfl⟩
abbrev main_v62 : Ref sig .tc := ⟨.hbm, 111, rfl⟩
abbrev main_v63 : Ref sig .tc := ⟨.hbm, 112, rfl⟩
abbrev main_cst_15 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_c_16 : Ref sig .tc := ⟨.hbm, 117, rfl⟩
abbrev main_v67 : Ref sig .tc := ⟨.hbm, 118, rfl⟩
abbrev main_v68 : Ref sig .tc := ⟨.hbm, 119, rfl⟩
abbrev main_c_17 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_18 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_19 : Ref sig .tc := ⟨.hbm, 133, rfl⟩
abbrev main_v80 : Ref sig .tc := ⟨.hbm, 134, rfl⟩
abbrev main_v81 : Ref sig .tc := ⟨.hbm, 135, rfl⟩
abbrev main_cst_20 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_c_21 : Ref sig .tc := ⟨.hbm, 140, rfl⟩
abbrev main_v85 : Ref sig .tc := ⟨.hbm, 141, rfl⟩
abbrev main_v86 : Ref sig .tc := ⟨.hbm, 142, rfl⟩
abbrev main_c_22 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_23 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_24 : Ref sig .tc := ⟨.hbm, 156, rfl⟩
abbrev main_v98 : Ref sig .tc := ⟨.hbm, 157, rfl⟩
abbrev main_v99 : Ref sig .tc := ⟨.hbm, 158, rfl⟩
abbrev main_cst_25 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_c_26 : Ref sig .tc := ⟨.hbm, 163, rfl⟩
abbrev main_v103 : Ref sig .tc := ⟨.hbm, 164, rfl⟩
abbrev main_v104 : Ref sig .tc := ⟨.hbm, 165, rfl⟩
abbrev main_c_27 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_cst_28 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_cst_29 : Ref sig .tc := ⟨.hbm, 179, rfl⟩
abbrev main_v116 : Ref sig .tc := ⟨.hbm, 180, rfl⟩
abbrev main_v117 : Ref sig .tc := ⟨.hbm, 181, rfl⟩
abbrev main_cst_30 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_c_31 : Ref sig .tc := ⟨.hbm, 186, rfl⟩
abbrev main_v121 : Ref sig .tc := ⟨.hbm, 187, rfl⟩
abbrev main_v122 : Ref sig .tc := ⟨.hbm, 188, rfl⟩
abbrev main_c_32 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_cst_33 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_cst_34 : Ref sig .tc := ⟨.hbm, 202, rfl⟩
abbrev main_v134 : Ref sig .tc := ⟨.hbm, 203, rfl⟩
abbrev main_v135 : Ref sig .tc := ⟨.hbm, 204, rfl⟩
abbrev main_cst_35 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_c_36 : Ref sig .tc := ⟨.hbm, 209, rfl⟩
abbrev main_v139 : Ref sig .tc := ⟨.hbm, 210, rfl⟩
abbrev main_v140 : Ref sig .tc := ⟨.hbm, 211, rfl⟩
abbrev main_c_37 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_cst_38 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_cst_39 : Ref sig .tc := ⟨.hbm, 225, rfl⟩
abbrev main_v152 : Ref sig .tc := ⟨.hbm, 226, rfl⟩
abbrev main_v153 : Ref sig .tc := ⟨.hbm, 227, rfl⟩
abbrev main_cst_40 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_c_41 : Ref sig .tc := ⟨.hbm, 232, rfl⟩
abbrev main_v157 : Ref sig .tc := ⟨.hbm, 233, rfl⟩
abbrev main_v158 : Ref sig .tc := ⟨.hbm, 234, rfl⟩
abbrev main_c_42 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_cst_43 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_cst_44 : Ref sig .tc := ⟨.hbm, 248, rfl⟩
abbrev main_v170 : Ref sig .tc := ⟨.hbm, 249, rfl⟩
abbrev main_v171 : Ref sig .tc := ⟨.hbm, 250, rfl⟩
abbrev main_cst_45 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_c_46 : Ref sig .tc := ⟨.hbm, 255, rfl⟩
abbrev main_v175 : Ref sig .tc := ⟨.hbm, 256, rfl⟩
abbrev main_v176 : Ref sig .tc := ⟨.hbm, 257, rfl⟩
abbrev main_c_47 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_cst_48 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_cst_49 : Ref sig .tc := ⟨.hbm, 271, rfl⟩
abbrev main_v188 : Ref sig .tc := ⟨.hbm, 272, rfl⟩
abbrev main_v189 : Ref sig .tc := ⟨.hbm, 273, rfl⟩
abbrev main_cst_50 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_c_51 : Ref sig .tc := ⟨.hbm, 278, rfl⟩
abbrev main_v193 : Ref sig .tc := ⟨.hbm, 279, rfl⟩
abbrev main_v194 : Ref sig .tc := ⟨.hbm, 280, rfl⟩
abbrev main_c_52 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_cst_53 : Ref sig .tc := ⟨.hbm, 290, rfl⟩
abbrev main_v203 : Ref sig .tc := ⟨.hbm, 291, rfl⟩
abbrev main_v204 : Ref sig .tc := ⟨.hbm, 292, rfl⟩
abbrev main_v205 : Ref sig .tc := ⟨.hbm, 293, rfl⟩
abbrev main_cst_54 : Ref sig .tc := ⟨.hbm, 294, rfl⟩
abbrev main_v206 : Ref sig .tc := ⟨.hbm, 295, rfl⟩
abbrev main_v207 : Ref sig .tc := ⟨.hbm, 296, rfl⟩
abbrev main_cst_55 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_call2_cst : Ref sig .tc := ⟨.hbm, 301, rfl⟩
abbrev main_call2_v0 : Ref sig .tc := ⟨.hbm, 302, rfl⟩
abbrev main_call2_cst_0 : Ref sig .tc := ⟨.hbm, 303, rfl⟩
abbrev main_call2_v1 : Ref sig .tc := ⟨.hbm, 304, rfl⟩
abbrev main_call2_v2 : Ref sig .tc := ⟨.hbm, 305, rfl⟩
abbrev main_call2_v3 : Ref sig .tc := ⟨.hbm, 306, rfl⟩
abbrev main_call2_v4 : Ref sig .tc := ⟨.hbm, 307, rfl⟩
abbrev main_call2_v5 : Ref sig .tc := ⟨.hbm, 308, rfl⟩
abbrev main_call2_v6 : Ref sig .tc := ⟨.hbm, 309, rfl⟩
abbrev main_call2_cst_1 : Ref sig .tc := ⟨.hbm, 310, rfl⟩
abbrev main_call2_v7 : Ref sig .tc := ⟨.hbm, 311, rfl⟩
abbrev main_call2_v8 : Ref sig .tc := ⟨.hbm, 312, rfl⟩
abbrev main_call2_v9 : Ref sig .tc := ⟨.hbm, 313, rfl⟩
abbrev main_call2_v10 : Ref sig .tc := ⟨.hbm, 314, rfl⟩
abbrev main_v211 : Ref sig .tc := ⟨.hbm, 315, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x3 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x3 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2000x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S128x512_S512x128_1_0 : S128x512.Transposes [1, 0] S512x128
  transposes_S128x128_S128x128_1_0 : S128x128.Transposes [1, 0] S128x128
  transposes_S3x128_S128x3_1_0 : S3x128.Transposes [1, 0] S128x3
  shapeCasts_S128_S1x128 : S128.ShapeCasts S1x128
  shapeCasts_S3_S1x3 : S3.ShapeCasts S1x3
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  reducesTo_S100000x3_S100000_d1 : S100000x3.ReducesTo [1] S100000
  h_S_ : 0 < S_.numel
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  dot_S2000x512_S512x128_S2000x128_1_0_0_1_n_n_wf : DotDims.WF S2000x512 S512x128 S2000x128 [1] [0] [0] [1] [] []
  dot_S2000x128_S128x128_S2000x128_1_0_0_1_n_n_wf : DotDims.WF S2000x128 S128x128 S2000x128 [1] [0] [0] [1] [] []
  dot_S2000x128_S128x3_S2000x3_1_0_0_1_n_n_wf : DotDims.WF S2000x128 S128x3 S2000x3 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x3.size a ≤ S128x3.size a
  hwx0_13 : ∀ i : grid0.Coords, EltTy.bits .f32 = 32 ∨ (Rect.block (s := S128x3) S128x3.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x3.size a ≤ S1x3.size a
  hwx0_14 : ∀ i : grid0.Coords, EltTy.bits .f32 = 32 ∨ (Rect.block (s := S1x3) S1x3.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x3.size a ≤ S100000x3.size a
  hwx0_15 : ∀ i : grid0.Coords, EltTy.bits .f32 = 32 ∨ (Rect.block (s := S100000x3) S2000x3.size (cc0_transform_15 i) (hinb0_15 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v9) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v11) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v12) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v2) S128x3.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_call0_v13) S1x3.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0) S2000x3.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S128x512 : Shape := ⟨2, ![128, 512]⟩
abbrev S128 : Shape := ⟨1, ![128]⟩
abbrev S128x128 : Shape := ⟨2, ![128, 128]⟩
abbrev S3x128 : Shape := ⟨2, ![3, 128]⟩
abbrev S3 : Shape := ⟨1, ![3]⟩
abbrev S512x128 : Shape := ⟨2, ![512, 128]⟩
abbrev S100000x128 : Shape := ⟨2, ![100000, 128]⟩
abbrev S1x128 : Shape := ⟨2, ![1, 128]⟩
abbrev S_ : Shape := ⟨0, ![]⟩
abbrev S128x3 : Shape := ⟨2, ![128, 3]⟩
abbrev S100000x3 : Shape := ⟨2, ![100000, 3]⟩
abbrev S1x3 : Shape := ⟨2, ![1, 3]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S3300000x1 : Shape := ⟨2, ![3300000, 1]⟩
abbrev S3300000x3 : Shape := ⟨2, ![3300000, 3]⟩
abbrev S100000x1 : Shape := ⟨2, ![100000, 1]⟩

abbrev nBuf : Space → Nat
  | .hbm => 355
  | .vmem => 0
  | .smem => 0
  | _ => 0

abbrev hbmTy0_0 (i : Nat) : BufTy := match i % 128 with
  | 0 => ⟨S100000x512, .f32⟩
  | 1 => ⟨S2x3200000, .i32⟩
  | 2 => ⟨S128x512, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S3x128, .f32⟩
  | 15 => ⟨S3, .f32⟩
  | 16 => ⟨S512x128, .f32⟩
  | 17 => ⟨S100000x128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S128, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S128x128, .f32⟩
  | 41 => ⟨S100000x128, .f32⟩
  | 42 => ⟨S1x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S128, .f32⟩
  | 50 => ⟨S128, .f32⟩
  | 51 => ⟨S128, .f32⟩
  | 52 => ⟨S1x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S100000x128, .f32⟩
  | 65 => ⟨S128x3, .f32⟩
  | 66 => ⟨S100000x3, .f32⟩
  | 67 => ⟨S1x3, .f32⟩
  | 68 => ⟨S100000x3, .f32⟩
  | 69 => ⟨S100000x3, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x3, .f32⟩
  | 119 => ⟨S3300000x1, .f32⟩
  | 120 => ⟨S3300000x3, .f32⟩
  | 121 => ⟨S3300000x3, .f32⟩
  | 122 => ⟨S_, .f32⟩
  | 123 => ⟨S100000x3, .f32⟩
  | 124 => ⟨S3300000x1, .i32⟩
  | 125 => ⟨S100000x3, .f32⟩
  | 126 => ⟨S_, .f32⟩
  | 127 => ⟨S100000x3, .f32⟩
  | _ => ⟨S100000x512, .f32⟩

abbrev hbmTy0_1 (i : Nat) : BufTy := match i % 128 with
  | 0 => ⟨S100000x3, .f32⟩
  | 1 => ⟨S_, .f32⟩
  | 2 => ⟨S100000x3, .f32⟩
  | 3 => ⟨S100000x3, .f32⟩
  | 4 => ⟨S100000x3, .f32⟩
  | 5 => ⟨S_, .i32⟩
  | 6 => ⟨S3300000, .i32⟩
  | 7 => ⟨S3300000, .i1⟩
  | 8 => ⟨S_, .i32⟩
  | 9 => ⟨S3300000, .i32⟩
  | 10 => ⟨S3300000, .i32⟩
  | 11 => ⟨S3300000, .i32⟩
  | 12 => ⟨S3300000x1, .i32⟩
  | 13 => ⟨S3300000x3, .f32⟩
  | 14 => ⟨S3300000x1, .f32⟩
  | 15 => ⟨S3300000x3, .f32⟩
  | 16 => ⟨S3300000x3, .f32⟩
  | 17 => ⟨S_, .f32⟩
  | 18 => ⟨S100000x3, .f32⟩
  | 19 => ⟨S3300000x1, .i32⟩
  | 20 => ⟨S100000x3, .f32⟩
  | 21 => ⟨S_, .f32⟩
  | 22 => ⟨S100000x3, .f32⟩
  | 23 => ⟨S100000x3, .f32⟩
  | 24 => ⟨S_, .f32⟩
  | 25 => ⟨S100000x3, .f32⟩
  | 26 => ⟨S100000x3, .f32⟩
  | 27 => ⟨S100000x3, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000x3, .f32⟩
  | 37 => ⟨S3300000x1, .f32⟩
  | 38 => ⟨S3300000x3, .f32⟩
  | 39 => ⟨S3300000x3, .f32⟩
  | 40 => ⟨S_, .f32⟩
  | 41 => ⟨S100000x3, .f32⟩
  | 42 => ⟨S3300000x1, .i32⟩
  | 43 => ⟨S100000x3, .f32⟩
  | 44 => ⟨S_, .f32⟩
  | 45 => ⟨S100000x3, .f32⟩
  | 46 => ⟨S100000x3, .f32⟩
  | 47 => ⟨S_, .f32⟩
  | 48 => ⟨S100000x3, .f32⟩
  | 49 => ⟨S100000x3, .f32⟩
  | 50 => ⟨S100000x3, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x3, .f32⟩
  | 60 => ⟨S3300000x1, .f32⟩
  | 61 => ⟨S3300000x3, .f32⟩
  | 62 => ⟨S3300000x3, .f32⟩
  | 63 => ⟨S_, .f32⟩
  | 64 => ⟨S100000x3, .f32⟩
  | 65 => ⟨S3300000x1, .i32⟩
  | 66 => ⟨S100000x3, .f32⟩
  | 67 => ⟨S_, .f32⟩
  | 68 => ⟨S100000x3, .f32⟩
  | 69 => ⟨S100000x3, .f32⟩
  | 70 => ⟨S_, .f32⟩
  | 71 => ⟨S100000x3, .f32⟩
  | 72 => ⟨S100000x3, .f32⟩
  | 73 => ⟨S100000x3, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000x3, .f32⟩
  | 83 => ⟨S3300000x1, .f32⟩
  | 84 => ⟨S3300000x3, .f32⟩
  | 85 => ⟨S3300000x3, .f32⟩
  | 86 => ⟨S_, .f32⟩
  | 87 => ⟨S100000x3, .f32⟩
  | 88 => ⟨S3300000x1, .i32⟩
  | 89 => ⟨S100000x3, .f32⟩
  | 90 => ⟨S_, .f32⟩
  | 91 => ⟨S100000x3, .f32⟩
  | 92 => ⟨S100000x3, .f32⟩
  | 93 => ⟨S_, .f32⟩
  | 94 => ⟨S100000x3, .f32⟩
  | 95 => ⟨S100000x3, .f32⟩
  | 96 => ⟨S100000x3, .f32⟩
  | 97 => ⟨S_, .i32⟩
  | 98 => ⟨S3300000, .i32⟩
  | 99 => ⟨S3300000, .i1⟩
  | 100 => ⟨S_, .i32⟩
  | 101 => ⟨S3300000, .i32⟩
  | 102 => ⟨S3300000, .i32⟩
  | 103 => ⟨S3300000, .i32⟩
  | 104 => ⟨S3300000x1, .i32⟩
  | 105 => ⟨S3300000x3, .f32⟩
  | 106 => ⟨S3300000x1, .f32⟩
  | 107 => ⟨S3300000x3, .f32⟩
  | 108 => ⟨S3300000x3, .f32⟩
  | 109 => ⟨S_, .f32⟩
  | 110 => ⟨S100000x3, .f32⟩
  | 111 => ⟨S3300000x1, .i32⟩
  | 112 => ⟨S100000x3, .f32⟩
  | 113 => ⟨S_, .f32⟩
  | 114 => ⟨S100000x3, .f32⟩
  | 115 => ⟨S100000x3, .f32⟩
  | 116 => ⟨S_, .f32⟩
  | 117 => ⟨S100000x3, .f32⟩
  | 118 => ⟨S100000x3, .f32⟩
  | 119 => ⟨S100000x3, .f32⟩
  | 120 => ⟨S_, .i32⟩
  | 121 => ⟨S3300000, .i32⟩
  | 122 => ⟨S3300000, .i1⟩
  | 123 => ⟨S_, .i32⟩
  | 124 => ⟨S3300000, .i32⟩
  | 125 => ⟨S3300000, .i32⟩
  | 126 => ⟨S3300000, .i32⟩
  | 127 => ⟨S3300000x1, .i32⟩
  | _ => ⟨S100000x512, .f32⟩

abbrev hbmTy0_2 (i : Nat) : BufTy := match i % 128 with
  | 0 => ⟨S3300000x3, .f32⟩
  | 1 => ⟨S3300000x1, .f32⟩
  | 2 => ⟨S3300000x3, .f32⟩
  | 3 => ⟨S3300000x3, .f32⟩
  | 4 => ⟨S_, .f32⟩
  | 5 => ⟨S100000x3, .f32⟩
  | 6 => ⟨S3300000x1, .i32⟩
  | 7 => ⟨S100000x3, .f32⟩
  | 8 => ⟨S_, .f32⟩
  | 9 => ⟨S100000x3, .f32⟩
  | 10 => ⟨S100000x3, .f32⟩
  | 11 => ⟨S_, .f32⟩
  | 12 => ⟨S100000x3, .f32⟩
  | 13 => ⟨S100000x3, .f32⟩
  | 14 => ⟨S100000x3, .f32⟩
  | 15 => ⟨S_, .i32⟩
  | 16 => ⟨S3300000, .i32⟩
  | 17 => ⟨S3300000, .i1⟩
  | 18 => ⟨S_, .i32⟩
  | 19 => ⟨S3300000, .i32⟩
  | 20 => ⟨S3300000, .i32⟩
  | 21 => ⟨S3300000, .i32⟩
  | 22 => ⟨S3300000x1, .i32⟩
  | 23 => ⟨S3300000x3, .f32⟩
  | 24 => ⟨S3300000x1, .f32⟩
  | 25 => ⟨S3300000x3, .f32⟩
  | 26 => ⟨S3300000x3, .f32⟩
  | 27 => ⟨S_, .f32⟩
  | 28 => ⟨S100000x3, .f32⟩
  | 29 => ⟨S3300000x1, .i32⟩
  | 30 => ⟨S100000x3, .f32⟩
  | 31 => ⟨S_, .f32⟩
  | 32 => ⟨S100000x3, .f32⟩
  | 33 => ⟨S100000x3, .f32⟩
  | 34 => ⟨S_, .f32⟩
  | 35 => ⟨S100000x3, .f32⟩
  | 36 => ⟨S100000x3, .f32⟩
  | 37 => ⟨S100000x3, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000x3, .f32⟩
  | 47 => ⟨S3300000x1, .f32⟩
  | 48 => ⟨S3300000x3, .f32⟩
  | 49 => ⟨S3300000x3, .f32⟩
  | 50 => ⟨S_, .f32⟩
  | 51 => ⟨S100000x3, .f32⟩
  | 52 => ⟨S3300000x1, .i32⟩
  | 53 => ⟨S100000x3, .f32⟩
  | 54 => ⟨S_, .f32⟩
  | 55 => ⟨S100000x3, .f32⟩
  | 56 => ⟨S100000x3, .f32⟩
  | 57 => ⟨S_, .f32⟩
  | 58 => ⟨S100000x3, .f32⟩
  | 59 => ⟨S100000x3, .f32⟩
  | 60 => ⟨S100000x3, .f32⟩
  | 61 => ⟨S_, .i32⟩
  | 62 => ⟨S3300000, .i32⟩
  | 63 => ⟨S3300000, .i1⟩
  | 64 => ⟨S_, .i32⟩
  | 65 => ⟨S3300000, .i32⟩
  | 66 => ⟨S3300000, .i32⟩
  | 67 => ⟨S3300000, .i32⟩
  | 68 => ⟨S3300000x1, .i32⟩
  | 69 => ⟨S3300000x3, .f32⟩
  | 70 => ⟨S3300000x1, .f32⟩
  | 71 => ⟨S3300000x3, .f32⟩
  | 72 => ⟨S3300000x3, .f32⟩
  | 73 => ⟨S_, .f32⟩
  | 74 => ⟨S100000x3, .f32⟩
  | 75 => ⟨S3300000x1, .i32⟩
  | 76 => ⟨S100000x3, .f32⟩
  | 77 => ⟨S_, .f32⟩
  | 78 => ⟨S100000x3, .f32⟩
  | 79 => ⟨S100000x3, .f32⟩
  | 80 => ⟨S_, .f32⟩
  | 81 => ⟨S100000x3, .f32⟩
  | 82 => ⟨S100000x3, .f32⟩
  | 83 => ⟨S100000x3, .f32⟩
  | 84 => ⟨S_, .f32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x3, .f32⟩
  | 91 => ⟨S100000x3, .f32⟩
  | 92 => ⟨S100000x3, .f32⟩
  | 93 => ⟨S_, .f32⟩
  | 94 => ⟨S100000, .f32⟩
  | 95 => ⟨S100000x1, .f32⟩
  | 96 => ⟨S100000x1, .f32⟩
  | 97 => ⟨S100000x3, .f32⟩
  | 98 => ⟨S100000x3, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call1_cst : Ref sig .tc := ⟨.hbm, 61, rfl⟩
abbrev main_call1_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_1 : Ref sig .tc := ⟨.hbm, 77, rfl⟩
abbrev main_v55 : Ref sig .tc := ⟨.hbm, 78, rfl⟩
abbrev main_cst_2 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_3 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_4 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_c : Ref sig .tc := ⟨.hbm, 91, rfl⟩
abbrev main_v63 : Ref sig .tc := ⟨.hbm, 92, rfl⟩
abbrev main_v64 : Ref sig .tc := ⟨.hbm, 93, rfl⟩
abbrev main_c_5 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_6 : Ref sig .tc := ⟨.hbm, 100, rfl⟩
abbrev main_v70 : Ref sig .tc := ⟨.hbm, 101, rfl⟩
abbrev main_v71 : Ref sig .tc := ⟨.hbm, 102, rfl⟩
abbrev main_c_7 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_8 : Ref sig .tc := ⟨.hbm, 110, rfl⟩
abbrev main_v78 : Ref sig .tc := ⟨.hbm, 111, rfl⟩
abbrev main_v79 : Ref sig .tc := ⟨.hbm, 112, rfl⟩
abbrev main_c_9 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_10 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_11 : Ref sig .tc := ⟨.hbm, 126, rfl⟩
abbrev main_v91 : Ref sig .tc := ⟨.hbm, 127, rfl⟩
abbrev main_v92 : Ref sig .tc := ⟨.hbm, 128, rfl⟩
abbrev main_cst_12 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_13 : Ref sig .tc := ⟨.hbm, 133, rfl⟩
abbrev main_v96 : Ref sig .tc := ⟨.hbm, 134, rfl⟩
abbrev main_v97 : Ref sig .tc := ⟨.hbm, 135, rfl⟩
abbrev main_c_14 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_15 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_16 : Ref sig .tc := ⟨.hbm, 149, rfl⟩
abbrev main_v109 : Ref sig .tc := ⟨.hbm, 150, rfl⟩
abbrev main_v110 : Ref sig .tc := ⟨.hbm, 151, rfl⟩
abbrev main_cst_17 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_c_18 : Ref sig .tc := ⟨.hbm, 156, rfl⟩
abbrev main_v114 : Ref sig .tc := ⟨.hbm, 157, rfl⟩
abbrev main_v115 : Ref sig .tc := ⟨.hbm, 158, rfl⟩
abbrev main_c_19 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_20 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_21 : Ref sig .tc := ⟨.hbm, 172, rfl⟩
abbrev main_v127 : Ref sig .tc := ⟨.hbm, 173, rfl⟩
abbrev main_v128 : Ref sig .tc := ⟨.hbm, 174, rfl⟩
abbrev main_cst_22 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_c_23 : Ref sig .tc := ⟨.hbm, 179, rfl⟩
abbrev main_v132 : Ref sig .tc := ⟨.hbm, 180, rfl⟩
abbrev main_v133 : Ref sig .tc := ⟨.hbm, 181, rfl⟩
abbrev main_c_24 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_cst_25 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_cst_26 : Ref sig .tc := ⟨.hbm, 195, rfl⟩
abbrev main_v145 : Ref sig .tc := ⟨.hbm, 196, rfl⟩
abbrev main_v146 : Ref sig .tc := ⟨.hbm, 197, rfl⟩
abbrev main_cst_27 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_c_28 : Ref sig .tc := ⟨.hbm, 202, rfl⟩
abbrev main_v150 : Ref sig .tc := ⟨.hbm, 203, rfl⟩
abbrev main_v151 : Ref sig .tc := ⟨.hbm, 204, rfl⟩
abbrev main_c_29 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_cst_30 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_cst_31 : Ref sig .tc := ⟨.hbm, 218, rfl⟩
abbrev main_v163 : Ref sig .tc := ⟨.hbm, 219, rfl⟩
abbrev main_v164 : Ref sig .tc := ⟨.hbm, 220, rfl⟩
abbrev main_cst_32 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_c_33 : Ref sig .tc := ⟨.hbm, 225, rfl⟩
abbrev main_v168 : Ref sig .tc := ⟨.hbm, 226, rfl⟩
abbrev main_v169 : Ref sig .tc := ⟨.hbm, 227, rfl⟩
abbrev main_c_34 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_cst_35 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_cst_36 : Ref sig .tc := ⟨.hbm, 241, rfl⟩
abbrev main_v181 : Ref sig .tc := ⟨.hbm, 242, rfl⟩
abbrev main_v182 : Ref sig .tc := ⟨.hbm, 243, rfl⟩
abbrev main_cst_37 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_c_38 : Ref sig .tc := ⟨.hbm, 248, rfl⟩
abbrev main_v186 : Ref sig .tc := ⟨.hbm, 249, rfl⟩
abbrev main_v187 : Ref sig .tc := ⟨.hbm, 250, rfl⟩
abbrev main_c_39 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_cst_40 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_cst_41 : Ref sig .tc := ⟨.hbm, 264, rfl⟩
abbrev main_v199 : Ref sig .tc := ⟨.hbm, 265, rfl⟩
abbrev main_v200 : Ref sig .tc := ⟨.hbm, 266, rfl⟩
abbrev main_cst_42 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_c_43 : Ref sig .tc := ⟨.hbm, 271, rfl⟩
abbrev main_v204 : Ref sig .tc := ⟨.hbm, 272, rfl⟩
abbrev main_v205 : Ref sig .tc := ⟨.hbm, 273, rfl⟩
abbrev main_c_44 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_cst_45 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_cst_46 : Ref sig .tc := ⟨.hbm, 287, rfl⟩
abbrev main_v217 : Ref sig .tc := ⟨.hbm, 288, rfl⟩
abbrev main_v218 : Ref sig .tc := ⟨.hbm, 289, rfl⟩
abbrev main_cst_47 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_c_48 : Ref sig .tc := ⟨.hbm, 294, rfl⟩
abbrev main_v222 : Ref sig .tc := ⟨.hbm, 295, rfl⟩
abbrev main_v223 : Ref sig .tc := ⟨.hbm, 296, rfl⟩
abbrev main_c_49 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_cst_50 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_cst_51 : Ref sig .tc := ⟨.hbm, 310, rfl⟩
abbrev main_v235 : Ref sig .tc := ⟨.hbm, 311, rfl⟩
abbrev main_v236 : Ref sig .tc := ⟨.hbm, 312, rfl⟩
abbrev main_cst_52 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_c_53 : Ref sig .tc := ⟨.hbm, 317, rfl⟩
abbrev main_v240 : Ref sig .tc := ⟨.hbm, 318, rfl⟩
abbrev main_v241 : Ref sig .tc := ⟨.hbm, 319, rfl⟩
abbrev main_c_54 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_cst_55 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_cst_56 : Ref sig .tc := ⟨.hbm, 333, rfl⟩
abbrev main_v253 : Ref sig .tc := ⟨.hbm, 334, rfl⟩
abbrev main_v254 : Ref sig .tc := ⟨.hbm, 335, rfl⟩
abbrev main_cst_57 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_call3_cst : Ref sig .tc := ⟨.hbm, 340, rfl⟩
abbrev main_call3_v0 : Ref sig .tc := ⟨.hbm, 341, rfl⟩
abbrev main_call3_cst_0 : Ref sig .tc := ⟨.hbm, 342, rfl⟩
abbrev main_call3_v1 : Ref sig .tc := ⟨.hbm, 343, rfl⟩
abbrev main_call3_v2 : Ref sig .tc := ⟨.hbm, 344, rfl⟩
abbrev main_call3_v3 : Ref sig .tc := ⟨.hbm, 345, rfl⟩
abbrev main_call3_v4 : Ref sig .tc := ⟨.hbm, 346, rfl⟩
abbrev main_call3_v5 : Ref sig .tc := ⟨.hbm, 347, rfl⟩
abbrev main_call3_v6 : Ref sig .tc := ⟨.hbm, 348, rfl⟩
abbrev main_call3_cst_1 : Ref sig .tc := ⟨.hbm, 349, rfl⟩
abbrev main_call3_v7 : Ref sig .tc := ⟨.hbm, 350, rfl⟩
abbrev main_call3_v8 : Ref sig .tc := ⟨.hbm, 351, rfl⟩
abbrev main_call3_v9 : Ref sig .tc := ⟨.hbm, 352, rfl⟩
abbrev main_call3_v10 : Ref sig .tc := ⟨.hbm, 353, rfl⟩
abbrev main_v258 : Ref sig .tc := ⟨.hbm, 354, rfl⟩

abbrev nD : Nat := 1
abbrev τ : Topo := Topo.v7x

variable {F : FTy → Type} [FloatOps F]

class Facts₀ : Prop where
  transposes_S128x512_S512x128_1_0 : S128x512.Transposes [1, 0] S512x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  transposes_S128x128_S128x128_1_0 : S128x128.Transposes [1, 0] S128x128
  transposes_S3x128_S128x3_1_0 : S3x128.Transposes [1, 0] S128x3
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  reducesTo_S100000x3_S100000_d1 : S100000x3.ReducesTo [1] S100000
  h_S_ : 0 < S_.numel
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  dot_S100000x512_S512x128_S100000x128_1_0_0_1_n_n_wf : DotDims.WF S100000x512 S512x128 S100000x128 [1] [0] [0] [1] [] []
  dot_S100000x128_S128x128_S100000x128_1_0_0_1_n_n_wf : DotDims.WF S100000x128 S128x128 S100000x128 [1] [0] [0] [1] [] []
  dot_S100000x128_S128x3_S100000x3_1_0_0_1_n_n_wf : DotDims.WF S100000x128 S128x3 S100000x3 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf

class Facts : Prop extends Facts₀ where

variable [Facts]
-- ==== Proof.KernelFrame.lean ====
/-
  The frame of the kernel program as printed: it runs to the end, faults nowhere, and leaves its sixteen argument arrays as launched —
  together with what each window's array holds afterwards.

  The program is fourteen host re-layouts of the weights, one region that runs a three-layer perceptron over fifty
  blocks of 2000 rows (fifteen input windows: the rows' block, streamed, and fourteen weight blocks that stay resident;
  one output window written back at every point), and 285 host operations after it.  The body loads every input
  block whole, stores the output block whole, and keeps nothing between points, so after the body each input buffer
  still holds its block and the output buffer holds the perceptron's value of the input blocks.  The operations
  around the region each write only their own result buffer, none of which is an argument or a window's array.
-/
import proofs.«117862_j74251394613578_1_alg».proof.Proof.Gen.Kernel.Launch
import proofs.«117862_j74251394613578_1_alg».proof.Proof.Gen.Kernel.Skeleton
import proofs.«117862_j74251394613578_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

  Fourteen host operations lay the weights out (three transposes, eleven [n] → [1, n] reshapes); the region runs the
  perceptron block by block over fifty blocks of 2000 rows; 285 host operations follow it. -/

/-- A core's buffer contents when the region is entered: after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) := [hostOps1, hostOps1_1, hostOps1_2, hostOps1_3]

/-- The buffers the operations before the region write: each its own result. -/
abbrev headW : List (Ref sig .tc) := [main_call0_v0, main_call0_v1, main_call0_v2, main_call0_v3, main_call0_v4, main_call0_v5, main_call0_v6, main_call0_v7, main_call0_v8, main_call0_v9, main_call0_v10, main_call0_v11, main_call0_v12, main_call0_v13]
/-- The buffers the operations after the region write: each its own result, in program order. -/
abbrev tailW : List (Ref sig .tc) := [main_v1, main_v2, main_v3, main_v4, main_v5, main_v6, main_v7, main_cst, main_v8, main_cst_0, main_v9, main_v10, main_v11, main_cst_1, main_v12, main_v13, main_v14, main_cst_2, main_call1_v0, main_call1_v1, main_v15, main_c, main_v16, main_v17, main_c_3, main_v18, main_v19, main_v20, main_v21, main_v22, main_c_4, main_v23, main_v24, main_c_5, main_v25, main_v26, main_v27, main_v28, main_v29, main_v30, main_c_6, main_v31, main_v32, main_c_7, main_v33, main_v34, main_v35, main_v36, main_v37, main_v38, main_v39, main_v40, main_cst_8, main_v41, main_v42, main_v43, main_cst_9, main_v44, main_v45, main_cst_10, main_v46, main_v47, main_v48, main_c_11, main_v49, main_v50, main_c_12, main_v51, main_v52, main_v53, main_v54, main_v55, main_v56, main_v57, main_v58, main_cst_13, main_v59, main_v60, main_v61, main_cst_14, main_v62, main_v63, main_cst_15, main_v64, main_v65, main_v66, main_c_16, main_v67, main_v68, main_c_17, main_v69, main_v70, main_v71, main_v72, main_v73, main_v74, main_v75, main_v76, main_cst_18, main_v77, main_v78, main_v79, main_cst_19, main_v80, main_v81, main_cst_20, main_v82, main_v83, main_v84, main_c_21, main_v85, main_v86, main_c_22, main_v87, main_v88, main_v89, main_v90, main_v91, main_v92, main_v93, main_v94, main_cst_23, main_v95, main_v96, main_v97, main_cst_24, main_v98, main_v99, main_cst_25, main_v100, main_v101, main_v102, main_c_26, main_v103, main_v104, main_c_27, main_v105, main_v106, main_v107, main_v108, main_v109, main_v110, main_v111, main_v112, main_cst_28, main_v113, main_v114, main_v115, main_cst_29, main_v116, main_v117, main_cst_30, main_v118, main_v119, main_v120, main_c_31, main_v121, main_v122, main_c_32, main_v123, main_v124, main_v125, main_v126, main_v127, main_v128, main_v129, main_v130, main_cst_33, main_v131, main_v132, main_v133, main_cst_34, main_v134, main_v135, main_cst_35, main_v136, main_v137, main_v138, main_c_36, main_v139, main_v140, main_c_37, main_v141, main_v142, main_v143, main_v144, main_v145, main_v146, main_v147, main_v148, main_cst_38, main_v149, main_v150, main_v151, main_cst_39, main_v152, main_v153, main_cst_40, main_v154, main_v155, main_v156, main_c_41, main_v157, main_v158, main_c_42, main_v159, main_v160, main_v161, main_v162, main_v163, main_v164, main_v165, main_v166, main_cst_43, main_v167, main_v168, main_v169, main_cst_44, main_v170, main_v171, main_cst_45, main_v172, main_v173, main_v174, main_c_46, main_v175, main_v176, main_c_47, main_v177, main_v178, main_v179, main_v180, main_v181, main_v182, main_v183, main_v184, main_cst_48, main_v185, main_v186, main_v187, main_cst_49, main_v188, main_v189, main_cst_50, main_v190, main_v191, main_v192, main_c_51, main_v193, main_v194, main_c_52, main_v195, main_v196, main_v197, main_v198, main_v199, main_v200, main_v201, main_v202, main_cst_53, main_v203, main_v204, main_v205, main_cst_54, main_v206, main_v207, main_cst_55, main_v208, main_v209, main_v210, main_call2_cst, main_call2_v0, main_call2_cst_0, main_call2_v1, main_call2_v2, main_call2_v3, main_call2_v4, main_call2_v5, main_call2_v6, main_call2_cst_1, main_call2_v7, main_call2_v8, main_call2_v9, main_call2_v10, main_v211]

/-- An operation that writes one buffer of a list writes inside the list. -/
theorem writes_sub_of_mem {W : List (Ref sig .tc)} {op : HloOp τ sig (Elt F)} (y : Ref sig .tc)
    (hw : op.writes = {Proc.devRef .tc y}) (hy : y ∈ W) : op.writes ⊆ (W.map (Proc.devRef (τ := τ) .tc)).toFinset := by
  rw [hw, Finset.singleton_subset_iff]
  exact List.mem_toFinset.mpr (List.mem_map.mpr ⟨y, hy, rfl⟩)

set_option maxHeartbeats 40000000 in
theorem hostOps0_fresh : (hostOps0 : List (HloOp τ sig (Elt F))).Forall fun op => op.fresh = ∅ :=
  ⟨rfl, rfl, rfl, rfl, rfl, rfl, rfl, rfl, rfl, rfl, rfl, rfl, rfl, rfl⟩
set_option maxHeartbeats 40000000 in
theorem hostOps0_writes : (hostOps0 : List (HloOp τ sig (Elt F))).Forall fun op => op.writes ⊆ (headW.map (Proc.devRef (τ := τ) .tc)).toFinset :=
  ⟨writes_sub_of_mem main_call0_v0 rfl (by decide), writes_sub_of_mem main_call0_v1 rfl (by decide), writes_sub_of_mem main_call0_v2 rfl (by decide), writes_sub_of_mem main_call0_v3 rfl (by decide), writes_sub_of_mem main_call0_v4 rfl (by decide), writes_sub_of_mem main_call0_v5 rfl (by decide), writes_sub_of_mem main_call0_v6 rfl (by decide), writes_sub_of_mem main_call0_v7 rfl (by decide), writes_sub_of_mem main_call0_v8 rfl (by decide), writes_sub_of_mem main_call0_v9 rfl (by decide), writes_sub_of_mem main_call0_v10 rfl (by decide), writes_sub_of_mem main_call0_v11 rfl (by decide), writes_sub_of_mem main_call0_v12 rfl (by decide), writes_sub_of_mem main_call0_v13 rfl (by decide)⟩
set_option maxHeartbeats 40000000 in
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl⟩
set_option maxHeartbeats 40000000 in
theorem hostOps1_writes : (hostOps1 : List (HloOp τ sig (Elt F))).Forall fun op => op.writes ⊆ (tailW.map (Proc.devRef (τ := τ) .tc)).toFinset :=
  ⟨writes_sub_of_mem main_v1 rfl (by decide), writes_sub_of_mem main_v2 rfl (by decide), writes_sub_of_mem main_v3 rfl (by decide), writes_sub_of_mem main_v4 rfl (by decide), writes_sub_of_mem main_v5 rfl (by decide), writes_sub_of_mem main_v6 rfl (by decide), writes_sub_of_mem main_v7 rfl (by decide), writes_sub_of_mem main_cst rfl (by decide), writes_sub_of_mem main_v8 rfl (by decide), writes_sub_of_mem main_cst_0 rfl (by decide), writes_sub_of_mem main_v9 rfl (by decide), writes_sub_of_mem main_v10 rfl (by decide), writes_sub_of_mem main_v11 rfl (by decide), writes_sub_of_mem main_cst_1 rfl (by decide), writes_sub_of_mem main_v12 rfl (by decide), writes_sub_of_mem main_v13 rfl (by decide), writes_sub_of_mem main_v14 rfl (by decide), writes_sub_of_mem main_cst_2 rfl (by decide)⟩
set_option maxHeartbeats 40000000 in
theorem hostOps1_1_fresh : (hostOps1_1 : List (HloOp τ sig (Elt F))).Forall fun op => op.fresh = ∅ :=
  ⟨rfl, rfl, rfl⟩
set_option maxHeartbeats 40000000 in
theorem hostOps1_1_writes : (hostOps1_1 : List (HloOp τ sig (Elt F))).Forall fun op => op.writes ⊆ (tailW.map (Proc.devRef (τ := τ) .tc)).toFinset :=
  ⟨writes_sub_of_mem main_call1_v0 rfl (by decide), writes_sub_of_mem main_call1_v1 rfl (by decide), writes_sub_of_mem main_v15 rfl (by decide)⟩
set_option maxHeartbeats 40000000 in
theorem hostOps1_2_fresh : (hostOps1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxHeartbeats 40000000 in
theorem hostOps1_2_writes : (hostOps1_2 : List (HloOp τ sig (Elt F))).Forall fun op => op.writes ⊆ (tailW.map (Proc.devRef (τ := τ) .tc)).toFinset :=
  ⟨writes_sub_of_mem main_c rfl (by decide), writes_sub_of_mem main_v16 rfl (by decide), writes_sub_of_mem main_v17 rfl (by decide), writes_sub_of_mem main_c_3 rfl (by decide), writes_sub_of_mem main_v18 rfl (by decide), writes_sub_of_mem main_v19 rfl (by decide), writes_sub_of_mem main_v20 rfl (by decide), writes_sub_of_mem main_v21 rfl (by decide), writes_sub_of_mem main_v22 rfl (by decide), writes_sub_of_mem main_c_4 rfl (by decide), writes_sub_of_mem main_v23 rfl (by decide), writes_sub_of_mem main_v24 rfl (by decide), writes_sub_of_mem main_c_5 rfl (by decide), writes_sub_of_mem main_v25 rfl (by decide), writes_sub_of_mem main_v26 rfl (by decide), writes_sub_of_mem main_v27 rfl (by decide), writes_sub_of_mem main_v28 rfl (by decide), writes_sub_of_mem main_v29 rfl (by decide), writes_sub_of_mem main_v30 rfl (by decide), writes_sub_of_mem main_c_6 rfl (by decide), writes_sub_of_mem main_v31 rfl (by decide), writes_sub_of_mem main_v32 rfl (by decide), writes_sub_of_mem main_c_7 rfl (by decide), writes_sub_of_mem main_v33 rfl (by decide), writes_sub_of_mem main_v34 rfl (by decide), writes_sub_of_mem main_v35 rfl (by decide), writes_sub_of_mem main_v36 rfl (by decide), writes_sub_of_mem main_v37 rfl (by decide), writes_sub_of_mem main_v38 rfl (by decide), writes_sub_of_mem main_v39 rfl (by decide), writes_sub_of_mem main_v40 rfl (by decide), writes_sub_of_mem main_cst_8 rfl (by decide), writes_sub_of_mem main_v41 rfl (by decide), writes_sub_of_mem main_v42 rfl (by decide), writes_sub_of_mem main_v43 rfl (by decide), writes_sub_of_mem main_cst_9 rfl (by decide), writes_sub_of_mem main_v44 rfl (by decide), writes_sub_of_mem main_v45 rfl (by decide), writes_sub_of_mem main_cst_10 rfl (by decide), writes_sub_of_mem main_v46 rfl (by decide), writes_sub_of_mem main_v47 rfl (by decide), writes_sub_of_mem main_v48 rfl (by decide), writes_sub_of_mem main_c_11 rfl (by decide), writes_sub_of_mem main_v49 rfl (by decide), writes_sub_of_mem main_v50 rfl (by decide), writes_sub_of_mem main_c_12 rfl (by decide), writes_sub_of_mem main_v51 rfl (by decide), writes_sub_of_mem main_v52 rfl (by decide), writes_sub_of_mem main_v53 rfl (by decide), writes_sub_of_mem main_v54 rfl (by decide), writes_sub_of_mem main_v55 rfl (by decide), writes_sub_of_mem main_v56 rfl (by decide), writes_sub_of_mem main_v57 rfl (by decide), writes_sub_of_mem main_v58 rfl (by decide), writes_sub_of_mem main_cst_13 rfl (by decide), writes_sub_of_mem main_v59 rfl (by decide), writes_sub_of_mem main_v60 rfl (by decide), writes_sub_of_mem main_v61 rfl (by decide), writes_sub_of_mem main_cst_14 rfl (by decide), writes_sub_of_mem main_v62 rfl (by decide), writes_sub_of_mem main_v63 rfl (by decide), writes_sub_of_mem main_cst_15 rfl (by decide), writes_sub_of_mem main_v64 rfl (by decide), writes_sub_of_mem main_v65 rfl (by decide), writes_sub_of_mem main_v66 rfl (by decide), writes_sub_of_mem main_c_16 rfl (by decide), writes_sub_of_mem main_v67 rfl (by decide), writes_sub_of_mem main_v68 rfl (by decide), writes_sub_of_mem main_c_17 rfl (by decide), writes_sub_of_mem main_v69 rfl (by decide), writes_sub_of_mem main_v70 rfl (by decide), writes_sub_of_mem main_v71 rfl (by decide), writes_sub_of_mem main_v72 rfl (by decide), writes_sub_of_mem main_v73 rfl (by decide), writes_sub_of_mem main_v74 rfl (by decide), writes_sub_of_mem main_v75 rfl (by decide), writes_sub_of_mem main_v76 rfl (by decide), writes_sub_of_mem main_cst_18 rfl (by decide), writes_sub_of_mem main_v77 rfl (by decide), writes_sub_of_mem main_v78 rfl (by decide), writes_sub_of_mem main_v79 rfl (by decide), writes_sub_of_mem main_cst_19 rfl (by decide), writes_sub_of_mem main_v80 rfl (by decide), writes_sub_of_mem main_v81 rfl (by decide), writes_sub_of_mem main_cst_20 rfl (by decide), writes_sub_of_mem main_v82 rfl (by decide), writes_sub_of_mem main_v83 rfl (by decide), writes_sub_of_mem main_v84 rfl (by decide), writes_sub_of_mem main_c_21 rfl (by decide), writes_sub_of_mem main_v85 rfl (by decide), writes_sub_of_mem main_v86 rfl (by decide), writes_sub_of_mem main_c_22 rfl (by decide), writes_sub_of_mem main_v87 rfl (by decide), writes_sub_of_mem main_v88 rfl (by decide), writes_sub_of_mem main_v89 rfl (by decide), writes_sub_of_mem main_v90 rfl (by decide), writes_sub_of_mem main_v91 rfl (by decide), writes_sub_of_mem main_v92 rfl (by decide), writes_sub_of_mem main_v93 rfl (by decide), writes_sub_of_mem main_v94 rfl (by decide), writes_sub_of_mem main_cst_23 rfl (by decide), writes_sub_of_mem main_v95 rfl (by decide), writes_sub_of_mem main_v96 rfl (by decide), writes_sub_of_mem main_v97 rfl (by decide), writes_sub_of_mem main_cst_24 rfl (by decide), writes_sub_of_mem main_v98 rfl (by decide), writes_sub_of_mem main_v99 rfl (by decide), writes_sub_of_mem main_cst_25 rfl (by decide), writes_sub_of_mem main_v100 rfl (by decide), writes_sub_of_mem main_v101 rfl (by decide), writes_sub_of_mem main_v102 rfl (by decide), writes_sub_of_mem main_c_26 rfl (by decide), writes_sub_of_mem main_v103 rfl (by decide), writes_sub_of_mem main_v104 rfl (by decide), writes_sub_of_mem main_c_27 rfl (by decide), writes_sub_of_mem main_v105 rfl (by decide), writes_sub_of_mem main_v106 rfl (by decide), writes_sub_of_mem main_v107 rfl (by decide), writes_sub_of_mem main_v108 rfl (by decide), writes_sub_of_mem main_v109 rfl (by decide), writes_sub_of_mem main_v110 rfl (by decide), writes_sub_of_mem main_v111 rfl (by decide), writes_sub_of_mem main_v112 rfl (by decide), writes_sub_of_mem main_cst_28 rfl (by decide), writes_sub_of_mem main_v113 rfl (by decide), writes_sub_of_mem main_v114 rfl (by decide), writes_sub_of_mem main_v115 rfl (by decide), writes_sub_of_mem main_cst_29 rfl (by decide), writes_sub_of_mem main_v116 rfl (by decide), writes_sub_of_mem main_v117 rfl (by decide), writes_sub_of_mem main_cst_30 rfl (by decide), writes_sub_of_mem main_v118 rfl (by decide), writes_sub_of_mem main_v119 rfl (by decide), writes_sub_of_mem main_v120 rfl (by decide), writes_sub_of_mem main_c_31 rfl (by decide), writes_sub_of_mem main_v121 rfl (by decide), writes_sub_of_mem main_v122 rfl (by decide), writes_sub_of_mem main_c_32 rfl (by decide), writes_sub_of_mem main_v123 rfl (by decide), writes_sub_of_mem main_v124 rfl (by decide), writes_sub_of_mem main_v125 rfl (by decide), writes_sub_of_mem main_v126 rfl (by decide), writes_sub_of_mem main_v127 rfl (by decide), writes_sub_of_mem main_v128 rfl (by decide), writes_sub_of_mem main_v129 rfl (by decide), writes_sub_of_mem main_v130 rfl (by decide), writes_sub_of_mem main_cst_33 rfl (by decide), writes_sub_of_mem main_v131 rfl (by decide), writes_sub_of_mem main_v132 rfl (by decide), writes_sub_of_mem main_v133 rfl (by decide), writes_sub_of_mem main_cst_34 rfl (by decide), writes_sub_of_mem main_v134 rfl (by decide), writes_sub_of_mem main_v135 rfl (by decide), writes_sub_of_mem main_cst_35 rfl (by decide), writes_sub_of_mem main_v136 rfl (by decide), writes_sub_of_mem main_v137 rfl (by decide), writes_sub_of_mem main_v138 rfl (by decide), writes_sub_of_mem main_c_36 rfl (by decide), writes_sub_of_mem main_v139 rfl (by decide), writes_sub_of_mem main_v140 rfl (by decide), writes_sub_of_mem main_c_37 rfl (by decide), writes_sub_of_mem main_v141 rfl (by decide), writes_sub_of_mem main_v142 rfl (by decide), writes_sub_of_mem main_v143 rfl (by decide), writes_sub_of_mem main_v144 rfl (by decide), writes_sub_of_mem main_v145 rfl (by decide), writes_sub_of_mem main_v146 rfl (by decide), writes_sub_of_mem main_v147 rfl (by decide), writes_sub_of_mem main_v148 rfl (by decide), writes_sub_of_mem main_cst_38 rfl (by decide), writes_sub_of_mem main_v149 rfl (by decide), writes_sub_of_mem main_v150 rfl (by decide), writes_sub_of_mem main_v151 rfl (by decide), writes_sub_of_mem main_cst_39 rfl (by decide), writes_sub_of_mem main_v152 rfl (by decide), writes_sub_of_mem main_v153 rfl (by decide), writes_sub_of_mem main_cst_40 rfl (by decide), writes_sub_of_mem main_v154 rfl (by decide), writes_sub_of_mem main_v155 rfl (by decide), writes_sub_of_mem main_v156 rfl (by decide), writes_sub_of_mem main_c_41 rfl (by decide), writes_sub_of_mem main_v157 rfl (by decide), writes_sub_of_mem main_v158 rfl (by decide), writes_sub_of_mem main_c_42 rfl (by decide), writes_sub_of_mem main_v159 rfl (by decide), writes_sub_of_mem main_v160 rfl (by decide), writes_sub_of_mem main_v161 rfl (by decide), writes_sub_of_mem main_v162 rfl (by decide), writes_sub_of_mem main_v163 rfl (by decide), writes_sub_of_mem main_v164 rfl (by decide), writes_sub_of_mem main_v165 rfl (by decide), writes_sub_of_mem main_v166 rfl (by decide), writes_sub_of_mem main_cst_43 rfl (by decide), writes_sub_of_mem main_v167 rfl (by decide), writes_sub_of_mem main_v168 rfl (by decide), writes_sub_of_mem main_v169 rfl (by decide), writes_sub_of_mem main_cst_44 rfl (by decide), writes_sub_of_mem main_v170 rfl (by decide), writes_sub_of_mem main_v171 rfl (by decide), writes_sub_of_mem main_cst_45 rfl (by decide), writes_sub_of_mem main_v172 rfl (by decide), writes_sub_of_mem main_v173 rfl (by decide), writes_sub_of_mem main_v174 rfl (by decide), writes_sub_of_mem main_c_46 rfl (by decide), writes_sub_of_mem main_v175 rfl (by decide), writes_sub_of_mem main_v176 rfl (by decide), writes_sub_of_mem main_c_47 rfl (by decide), writes_sub_of_mem main_v177 rfl (by decide), writes_sub_of_mem main_v178 rfl (by decide), writes_sub_of_mem main_v179 rfl (by decide), writes_sub_of_mem main_v180 rfl (by decide), writes_sub_of_mem main_v181 rfl (by decide), writes_sub_of_mem main_v182 rfl (by decide), writes_sub_of_mem main_v183 rfl (by decide), writes_sub_of_mem main_v184 rfl (by decide), writes_sub_of_mem main_cst_48 rfl (by decide), writes_sub_of_mem main_v185 rfl (by decide), writes_sub_of_mem main_v186 rfl (by decide), writes_sub_of_mem main_v187 rfl (by decide), writes_sub_of_mem main_cst_49 rfl (by decide), writes_sub_of_mem main_v188 rfl (by decide), writes_sub_of_mem main_v189 rfl (by decide), writes_sub_of_mem main_cst_50 rfl (by decide), writes_sub_of_mem main_v190 rfl (by decide), writes_sub_of_mem main_v191 rfl (by decide), writes_sub_of_mem main_v192 rfl (by decide), writes_sub_of_mem main_c_51 rfl (by decide), writes_sub_of_mem main_v193 rfl (by decide), writes_sub_of_mem main_v194 rfl (by decide), writes_sub_of_mem main_c_52 rfl (by decide), writes_sub_of_mem main_v195 rfl (by decide), writes_sub_of_mem main_v196 rfl (by decide), writes_sub_of_mem main_v197 rfl (by decide), writes_sub_of_mem main_v198 rfl (by decide), writes_sub_of_mem main_v199 rfl (by decide), writes_sub_of_mem main_v200 rfl (by decide), writes_sub_of_mem main_v201 rfl (by decide), writes_sub_of_mem main_v202 rfl (by decide), writes_sub_of_mem main_cst_53 rfl (by decide), writes_sub_of_mem main_v203 rfl (by decide), writes_sub_of_mem main_v204 rfl (by decide), writes_sub_of_mem main_v205 rfl (by decide), writes_sub_of_mem main_cst_54 rfl (by decide), writes_sub_of_mem main_v206 rfl (by decide), writes_sub_of_mem main_v207 rfl (by decide), writes_sub_of_mem main_cst_55 rfl (by decide), writes_sub_of_mem main_v208 rfl (by decide), writes_sub_of_mem main_v209 rfl (by decide), writes_sub_of_mem main_v210 rfl (by decide)⟩
set_option maxHeartbeats 40000000 in
theorem hostOps1_3_fresh : (hostOps1_3 : List (HloOp τ sig (Elt F))).Forall fun op => op.fresh = ∅ :=
  ⟨rfl, rfl, rfl, rfl, rfl, rfl, rfl, rfl, rfl, rfl, rfl, rfl, rfl, rfl, rfl⟩
set_option maxHeartbeats 40000000 in
theorem hostOps1_3_writes : (hostOps1_3 : List (HloOp τ sig (Elt F))).Forall fun op => op.writes ⊆ (tailW.map (Proc.devRef (τ := τ) .tc)).toFinset :=
  ⟨writes_sub_of_mem main_call2_cst rfl (by decide), writes_sub_of_mem main_call2_v0 rfl (by decide), writes_sub_of_mem main_call2_cst_0 rfl (by decide), writes_sub_of_mem main_call2_v1 rfl (by decide), writes_sub_of_mem main_call2_v2 rfl (by decide), writes_sub_of_mem main_call2_v3 rfl (by decide), writes_sub_of_mem main_call2_v4 rfl (by decide), writes_sub_of_mem main_call2_v5 rfl (by decide), writes_sub_of_mem main_call2_v6 rfl (by decide), writes_sub_of_mem main_call2_cst_1 rfl (by decide), writes_sub_of_mem main_call2_v7 rfl (by decide), writes_sub_of_mem main_call2_v8 rfl (by decide), writes_sub_of_mem main_call2_v9 rfl (by decide), writes_sub_of_mem main_call2_v10 rfl (by decide), writes_sub_of_mem main_v211 rfl (by decide)⟩

/-- Membership in one of the four stretches. -/
theorem mem_tailOps {ops : List (HloOp τ sig (Elt F))} (h : ops ∈ (tailOps : List (List (HloOp τ sig (Elt F))))) :
    ops = hostOps1 ∨ ops = hostOps1_1 ∨ ops = hostOps1_2 ∨ ops = hostOps1_3 := by
  simpa only [tailOps, List.mem_cons, List.mem_nil_iff, or_false] using h

/-- Every operation after the region writes inside `tailW`. -/
theorem tail_writes : ∀ ops ∈ (tailOps : List (List (HloOp τ sig (Elt F)))), ∀ op ∈ ops,
    op.writes ⊆ (tailW.map (Proc.devRef (τ := τ) .tc)).toFinset := by
  intro ops hops op hop
  rcases mem_tailOps hops with rfl | rfl | rfl | rfl
  · exact (List.forall_iff_forall_mem.mp hostOps1_writes) op hop
  · exact (List.forall_iff_forall_mem.mp hostOps1_1_writes) op hop
  · exact (List.forall_iff_forall_mem.mp hostOps1_2_writes) op hop
  · exact (List.forall_iff_forall_mem.mp hostOps1_3_writes) op hop

theorem tail_writes_flat : ((tailOps : List (List (HloOp τ sig (Elt F)))).flatten).Forall fun op =>
    op.writes ⊆ (tailW.map (Proc.devRef (τ := τ) .tc)).toFinset := by
  rw [List.forall_iff_forall_mem]
  intro op hop
  obtain ⟨ops, hops, hop'⟩ := List.mem_flatten.mp hop
  exact tail_writes ops hops op hop'

/-- The program around its region: the operations before it, the region, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch unscoped references only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rcases mem_tailOps hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
/-- They allocate nothing. -/
theorem sfx_fresh : ∀ ops ∈ (tailOps : List (List (HloOp τ sig (Elt F)))), ∀ op ∈ ops, op.fresh = ∅ := by
  intro ops hops op hop
  rcases mem_tailOps hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
/-- No window's array is among the buffers they write. -/
theorem arr_not_tailW : ∀ w, Pipeline.arrRef spec0 w ∉ (tailW : List (Ref sig .tc)) := by decide
/-- So they write no window's array. -/
theorem sfx_keeps : ∀ ops ∈ (tailOps : List (List (HloOp τ sig (Elt F)))), ∀ op ∈ ops,
    ∀ w, Proc.devRef .tc (Pipeline.arrRef spec0 w) ∉ op.writes := by
  intro ops hops op hop w hw
  obtain ⟨y, hy, he⟩ := List.mem_map.mp (List.mem_toFinset.mp (tail_writes ops hops op hop hw))
  exact arr_not_tailW w (Proc.devRef_injective _ he ▸ hy)

/-- No operation before the region writes argument 0. -/
theorem V_main_arg0 (c : Dev nD) : V m c main_arg0 = m ((c : Thread nD τ).loc main_arg0) :=
  StableHlo.after_of_writes_sub (W := headW) _ _ (by simp only [List.flatten_cons, List.flatten_nil, List.append_nil]; exact hostOps0_writes) (by decide)

/-- No operation before the region writes argument 1. -/
theorem V_main_arg1 (c : Dev nD) : V m c main_arg1 = m ((c : Thread nD τ).loc main_arg1) :=
  StableHlo.after_of_writes_sub (W := headW) _ _ (by simp only [List.flatten_cons, List.flatten_nil, List.append_nil]; exact hostOps0_writes) (by decide)
/-- Nor does any after it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_writes_sub (W := tailW) _ _ tail_writes_flat (by decide),
    Pipeline.withArrays_of_ne _ c (V0 m c) _ main_arg1 (by exact (by decide : ∀ w, Pipeline.arrRef spec0 w ≠ main_arg1))]
  exact V_main_arg1 m c

/-- No operation before the region writes argument 2. -/
theorem V_main_arg2 (c : Dev nD) : V m c main_arg2 = m ((c : Thread nD τ).loc main_arg2) :=
  StableHlo.after_of_writes_sub (W := headW) _ _ (by simp only [List.flatten_cons, List.flatten_nil, List.append_nil]; exact hostOps0_writes) (by decide)
/-- Nor does any after it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_writes_sub (W := tailW) _ _ tail_writes_flat (by decide),
    Pipeline.withArrays_of_ne _ c (V0 m c) _ main_arg2 (by exact (by decide : ∀ w, Pipeline.arrRef spec0 w ≠ main_arg2))]
  exact V_main_arg2 m c

/-- No operation before the region writes argument 3. -/
theorem V_main_arg3 (c : Dev nD) : V m c main_arg3 = m ((c : Thread nD τ).loc main_arg3) :=
  StableHlo.after_of_writes_sub (W := headW) _ _ (by simp only [List.flatten_cons, List.flatten_nil, List.append_nil]; exact hostOps0_writes) (by decide)
/-- Nor does any after it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_writes_sub (W := tailW) _ _ tail_writes_flat (by decide),
    Pipeline.withArrays_of_ne _ c (V0 m c) _ main_arg3 (by exact (by decide : ∀ w, Pipeline.arrRef spec0 w ≠ main_arg3))]
  exact V_main_arg3 m c

/-- No operation before the region writes argument 4. -/
theorem V_main_arg4 (c : Dev nD) : V m c main_arg4 = m ((c : Thread nD τ).loc main_arg4) :=
  StableHlo.after_of_writes_sub (W := headW) _ _ (by simp only [List.flatten_cons, List.flatten_nil, List.append_nil]; exact hostOps0_writes) (by decide)
/-- Nor does any after it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_writes_sub (W := tailW) _ _ tail_writes_flat (by decide),
    Pipeline.withArrays_of_ne _ c (V0 m c) _ main_arg4 (by exact (by decide : ∀ w, Pipeline.arrRef spec0 w ≠ main_arg4))]
  exact V_main_arg4 m c

/-- No operation before the region writes argument 5. -/
theorem V_main_arg5 (c : Dev nD) : V m c main_arg5 = m ((c : Thread nD τ).loc main_arg5) :=
  StableHlo.after_of_writes_sub (W := headW) _ _ (by simp only [List.flatten_cons, List.flatten_nil, List.append_nil]; exact hostOps0_writes) (by decide)
/-- Nor does any after it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_writes_sub (W := tailW) _ _ tail_writes_flat (by decide),
    Pipeline.withArrays_of_ne _ c (V0 m c) _ main_arg5 (by exact (by decide : ∀ w, Pipeline.arrRef spec0 w ≠ main_arg5))]
  exact V_main_arg5 m c

/-- No operation before the region writes argument 6. -/
theorem V_main_arg6 (c : Dev nD) : V m c main_arg6 = m ((c : Thread nD τ).loc main_arg6) :=
  StableHlo.after_of_writes_sub (W := headW) _ _ (by simp only [List.flatten_cons, List.flatten_nil, List.append_nil]; exact hostOps0_writes) (by decide)
/-- Nor does any after it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_writes_sub (W := tailW) _ _ tail_writes_flat (by decide),
    Pipeline.withArrays_of_ne _ c (V0 m c) _ main_arg6 (by exact (by decide : ∀ w, Pipeline.arrRef spec0 w ≠ main_arg6))]
  exact V_main_arg6 m c

/-- No operation before the region writes argument 7. -/
theorem V_main_arg7 (c : Dev nD) : V m c main_arg7 = m ((c : Thread nD τ).loc main_arg7) :=
  StableHlo.after_of_writes_sub (W := headW) _ _ (by simp only [List.flatten_cons, List.flatten_nil, List.append_nil]; exact hostOps0_writes) (by decide)
/-- Nor does any after it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) := by
  unfold Pipeline.afterTail₀
  rw [StableHlo.after_of_writes_sub (W := tailW) _ _ tail_writes_flat (by decide),
    Pipeline.withArrays_of_ne _ c (V0 m c) _ main_arg7 (by exact (by decide : ∀ w, Pipeline.arrRef spec0 w ≠ main_arg7))]
  exact V_main_arg7 m c

/-- No operation before the region writes argument 8. -/
theorem V_main_arg8 (c : Dev nD) : V m c main_arg8 = m ((c : Thread nD τ).loc main_arg8) :=
  StableHlo.after_of_writes_sub (W := headW) _ _ (by simp only [List.flatten_cons, List.flatten_nil, List.append_nil]; exact hostOps0_writes) (by decide)
/-- Nor does any after it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) := by
  unfold Pipeline.afterTail₀
  rw [StableHlo.after_of_writes_sub (W := tailW) _ _ tail_writes_flat (by decide),
    Pipeline.withArrays_of_ne _ c (V0 m c) _ main_arg8 (by exact (by decide : ∀ w, Pipeline.arrRef spec0 w ≠ main_arg8))]
  exact V_main_arg8 m c

/-- No operation before the region writes argument 9. -/
theorem V_main_arg9 (c : Dev nD) : V m c main_arg9 = m ((c : Thread nD τ).loc main_arg9) :=
  StableHlo.after_of_writes_sub (W := headW) _ _ (by simp only [List.flatten_cons, List.flatten_nil, List.append_nil]; exact hostOps0_writes) (by decide)
/-- Nor does any after it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) tailOps c main_arg9 = m ((c : Thread nD τ).loc main_arg9) := by
  unfold Pipeline.afterTail₀
  rw [StableHlo.after_of_writes_sub (W := tailW) _ _ tail_writes_flat (by decide),
    Pipeline.withArrays_of_ne _ c (V0 m c) _ main_arg9 (by exact (by decide : ∀ w, Pipeline.arrRef spec0 w ≠ main_arg9))]
  exact V_main_arg9 m c

/-- No operation before the region writes argument 10. -/
theorem V_main_arg10 (c : Dev nD) : V m c main_arg10 = m ((c : Thread nD τ).loc main_arg10) :=
  StableHlo.after_of_writes_sub (W := headW) _ _ (by simp only [List.flatten_cons, List.flatten_nil, List.append_nil]; exact hostOps0_writes) (by decide)
/-- Nor does any after it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) tailOps c main_arg10 = m ((c : Thread nD τ).loc main_arg10) := by
  unfold Pipeline.afterTail₀
  rw [StableHlo.after_of_writes_sub (W := tailW) _ _ tail_writes_flat (by decide),
    Pipeline.withArrays_of_ne _ c (V0 m c) _ main_arg10 (by exact (by decide : ∀ w, Pipeline.arrRef spec0 w ≠ main_arg10))]
  exact V_main_arg10 m c

/-- No operation before the region writes argument 11. -/
theorem V_main_arg11 (c : Dev nD) : V m c main_arg11 = m ((c : Thread nD τ).loc main_arg11) :=
  StableHlo.after_of_writes_sub (W := headW) _ _ (by simp only [List.flatten_cons, List.flatten_nil, List.append_nil]; exact hostOps0_writes) (by decide)
/-- Nor does any after it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) tailOps c main_arg11 = m ((c : Thread nD τ).loc main_arg11) := by
  unfold Pipeline.afterTail₀
  rw [StableHlo.after_of_writes_sub (W := tailW) _ _ tail_writes_flat (by decide),
    Pipeline.withArrays_of_ne _ c (V0 m c) _ main_arg11 (by exact (by decide : ∀ w, Pipeline.arrRef spec0 w ≠ main_arg11))]
  exact V_main_arg11 m c

/-- No operation before the region writes argument 12. -/
theorem V_main_arg12 (c : Dev nD) : V m c main_arg12 = m ((c : Thread nD τ).loc main_arg12) :=
  StableHlo.after_of_writes_sub (W := headW) _ _ (by simp only [List.flatten_cons, List.flatten_nil, List.append_nil]; exact hostOps0_writes) (by decide)
/-- Nor does any after it: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) tailOps c main_arg12 = m ((c : Thread nD τ).loc main_arg12) := by
  unfold Pipeline.afterTail₀
  rw [StableHlo.after_of_writes_sub (W := tailW) _ _ tail_writes_flat (by decide),
    Pipeline.withArrays_of_ne _ c (V0 m c) _ main_arg12 (by exact (by decide : ∀ w, Pipeline.arrRef spec0 w ≠ main_arg12))]
  exact V_main_arg12 m c

/-- No operation before the region writes argument 13. -/
theorem V_main_arg13 (c : Dev nD) : V m c main_arg13 = m ((c : Thread nD τ).loc main_arg13) :=
  StableHlo.after_of_writes_sub (W := headW) _ _ (by simp only [List.flatten_cons, List.flatten_nil, List.append_nil]; exact hostOps0_writes) (by decide)
/-- Nor does any after it: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) tailOps c main_arg13 = m ((c : Thread nD τ).loc main_arg13) := by
  unfold Pipeline.afterTail₀
  rw [StableHlo.after_of_writes_sub (W := tailW) _ _ tail_writes_flat (by decide),
    Pipeline.withArrays_of_ne _ c (V0 m c) _ main_arg13 (by exact (by decide : ∀ w, Pipeline.arrRef spec0 w ≠ main_arg13))]
  exact V_main_arg13 m c

/-- No operation before the region writes argument 14. -/
theorem V_main_arg14 (c : Dev nD) : V m c main_arg14 = m ((c : Thread nD τ).loc main_arg14) :=
  StableHlo.after_of_writes_sub (W := headW) _ _ (by simp only [List.flatten_cons, List.flatten_nil, List.append_nil]; exact hostOps0_writes) (by decide)
/-- Nor does any after it: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) tailOps c main_arg14 = m ((c : Thread nD τ).loc main_arg14) := by
  unfold Pipeline.afterTail₀
  rw [StableHlo.after_of_writes_sub (W := tailW) _ _ tail_writes_flat (by decide),
    Pipeline.withArrays_of_ne _ c (V0 m c) _ main_arg14 (by exact (by decide : ∀ w, Pipeline.arrRef spec0 w ≠ main_arg14))]
  exact V_main_arg14 m c

/-- No operation before the region writes argument 15. -/
theorem V_main_arg15 (c : Dev nD) : V m c main_arg15 = m ((c : Thread nD τ).loc main_arg15) :=
  StableHlo.after_of_writes_sub (W := headW) _ _ (by simp only [List.flatten_cons, List.flatten_nil, List.append_nil]; exact hostOps0_writes) (by decide)
/-- Nor does any after it: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) tailOps c main_arg15 = m ((c : Thread nD τ).loc main_arg15) := by
  unfold Pipeline.afterTail₀
  rw [StableHlo.after_of_writes_sub (W := tailW) _ _ tail_writes_flat (by decide),
    Pipeline.withArrays_of_ne _ c (V0 m c) _ main_arg15 (by exact (by decide : ∀ w, Pipeline.arrRef spec0 w ≠ main_arg15))]
  exact V_main_arg15 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's staging buffer holds its block at every point, fetched there or not. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's staging buffer holds its block at every point, fetched there or not. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's staging buffer holds its block at every point, fetched there or not. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's staging buffer holds its block at every point, fetched there or not. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store go through the whole buffer -/

abbrev rX : Rect S2000x512 := Rect.unit (s := S2000x512) ![0, 0] S2000x512.size inb_S2000x512_S2000x512_0_0
abbrev rW1 : Rect S512x128 := Rect.unit (s := S512x128) ![0, 0] S512x128.size inb_S512x128_S512x128_0_0
abbrev rV : Rect S1x128 := Rect.unit (s := S1x128) ![0, 0] S1x128.size inb_S1x128_S1x128_0_0
abbrev rW2 : Rect S128x128 := Rect.unit (s := S128x128) ![0, 0] S128x128.size inb_S128x128_S128x128_0_0
abbrev rW3 : Rect S128x3 := Rect.unit (s := S128x3) ![0, 0] S128x3.size inb_S128x3_S128x3_0_0
abbrev rB3 : Rect S1x3 := Rect.unit (s := S1x3) ![0, 0] S1x3.size inb_S1x3_S1x3_0_0
abbrev rO : Rect S2000x3 := Rect.unit (s := S2000x3) ![0, 0] S2000x3.size inb_S2000x3_S2000x3_0_0

/-- What the body leaves in the output block's buffer, from the fifteen input blocks: its one store, of the
    perceptron's result for the block's rows, laid over the whole buffer. -/
def outBlock (x0 : Vec F S2000x512 .f32) (x1 : Vec F S512x128 .f32) (x2 : Vec F S1x128 .f32) (x3 : Vec F S1x128 .f32) (x4 : Vec F S1x128 .f32) (x5 : Vec F S1x128 .f32) (x6 : Vec F S1x128 .f32) (x7 : Vec F S128x128 .f32) (x8 : Vec F S1x128 .f32) (x9 : Vec F S1x128 .f32) (x10 : Vec F S1x128 .f32) (x11 : Vec F S1x128 .f32) (x12 : Vec F S1x128 .f32) (x13 : Vec F S128x3 .f32) (x14 : Vec F S1x3 .f32) : Vec F S2000x3 .f32 :=
  View.canon [⟨rO, k0_pay1 (k0_pay2 (View.ld x0 rX) (View.ld x1 rW1) (View.ld x2 rV) (View.ld x5 rV) (View.ld x6 rV) (View.ld x3 rV) (View.ld x4 rV)) (k0_pay3 (View.ld x0 rX) (View.ld x1 rW1) (View.ld x2 rV) (View.ld x5 rV) (View.ld x6 rV) (View.ld x3 rV) (View.ld x4 rV) (View.ld x7 rW2)) (View.ld x8 rV) (View.ld x11 rV) (View.ld x12 rV) (View.ld x9 rV) (View.ld x10 rV) (View.ld x13 rW3) (View.ld x14 rB3)⟩]

/-- The one store covers the buffer. -/
theorem outCover (p0 : Vec F S2000x3 .f32) (y : S2000x3.Idx) :
    ∃ pc ∈ ([⟨rO, p0⟩] : List (View.Piece (Elt F) S2000x3 .f32)), y ∈ pc.1.set :=
  View.cover_of_tiled [⟨rO, p0⟩] S2000x3.size (by rfl) y

/-! ## The body's triple -/

set_option maxHeartbeats 4000000 in
/-- The kernel body on whole staging buffers — the inputs' at read contents `xK`, the output's at anything — runs to the
    continuation holding the inputs' as they were and the output's at `outBlock` of them. -/
theorem sound_kernel (c : Dev nD) (E : Set ℕ) (i : grid0.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x3 .f32) (harg14 : arg14.IsWhole) (arg15 : Memref sig .tc .vmem S1x3 .f32) (harg15 : arg15.IsWhole) (arg16 : Memref sig .tc .vmem S2000x3 .f32) (harg16 : arg16.IsWhole)
    (x0 : Vec F S2000x512 .f32) (x1 : Vec F S512x128 .f32) (x2 : Vec F S1x128 .f32) (x3 : Vec F S1x128 .f32) (x4 : Vec F S1x128 .f32) (x5 : Vec F S1x128 .f32) (x6 : Vec F S1x128 .f32) (x7 : Vec F S128x128 .f32) (x8 : Vec F S1x128 .f32) (x9 : Vec F S1x128 .f32) (x10 : Vec F S1x128 .f32) (x11 : Vec F S1x128 .f32) (x12 : Vec F S1x128 .f32) (x13 : Vec F S128x3 .f32) (x14 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (outBlock x0 x1 x2 x3 x4 x5 x6 x7 x8 x9 x10 x11 x12 x13 x14)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (outCover _)

/-! ## The pipeline's proof data -/

/-- The proof data of the pipeline on core `c`: the arrays as the region finds them; after the body at point `t` each
    input's buffer at its block and the output's at `outBlock` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 4000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each window's array at what the
    proof data computes and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The first argument is a window's array the body only reads: it ends as the region found it, which is as launched. -/
theorem arr0_kept (c : Dev nD) : (dats m 0 c).arrAt 0 cfg0.N = m ((c : Thread nD τ).loc main_arg0) :=
  ((dats m 0 c).arrAt_in 0 rfl _).trans ((A_eq m c 0).trans (V_main_arg0 m c))

/-- The program runs to the end, faults nowhere and leaves its sixteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (arr0_kept m c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c)⟩) (run_main m ρ)

end Cert.Kernel.Hand

end
-- ==== Proof.KernelIdealFrame.lean ====
/-
  The frame of the idealized kernel program: it runs to the end, faults nowhere, and leaves its sixteen argument arrays as launched —
  together with what each window's array holds afterwards.

  The program is fourteen host re-layouts of the weights, one region that runs a three-layer perceptron over fifty
  blocks of 2000 rows (fifteen input windows: the rows' block, streamed, and fourteen weight blocks that stay resident;
  one output window written back at every point), and 285 host operations after it.  The body loads every input
  block whole, stores the output block whole, and keeps nothing between points, so after the body each input buffer
  still holds its block and the output buffer holds the perceptron's value of the input blocks.  The operations
  around the region each write only their own result buffer, none of which is an argument or a window's array.
-/
import proofs.«117862_j74251394613578_1_alg».proof.Proof.Gen.KernelIdeal.Launch
import proofs.«117862_j74251394613578_1_alg».proof.Proof.Gen.KernelIdeal.Skeleton
import proofs.«117862_j74251394613578_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

  Fourteen host operations lay the weights out (three transposes, eleven [n] → [1, n] reshapes); the region runs the
  perceptron block by block over fifty blocks of 2000 rows; 285 host operations follow it. -/

/-- A core's buffer contents when the region is entered: after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) := [hostOps1, hostOps1_1, hostOps1_2, hostOps1_3]

/-- The buffers the operations before the region write: each its own result. -/
abbrev headW : List (Ref sig .tc) := [main_call0_v0, main_call0_v1, main_call0_v2, main_call0_v3, main_call0_v4, main_call0_v5, main_call0_v6, main_call0_v7, main_call0_v8, main_call0_v9, main_call0_v10, main_call0_v11, main_call0_v12, main_call0_v13]
/-- The buffers the operations after the region write: each its own result, in program order. -/
abbrev tailW : List (Ref sig .tc) := [main_v1, main_v2, main_v3, main_v4, main_v5, main_v6, main_v7, main_cst, main_v8, main_cst_0, main_v9, main_v10, main_v11, main_cst_1, main_v12, main_v13, main_v14, main_cst_2, main_call1_v0, main_call1_v1, main_v15, main_c, main_v16, main_v17, main_c_3, main_v18, main_v19, main_v20, main_v21, main_v22, main_c_4, main_v23, main_v24, main_c_5, main_v25, main_v26, main_v27, main_v28, main_v29, main_v30, main_c_6, main_v31, main_v32, main_c_7, main_v33, main_v34, main_v35, main_v36, main_v37, main_v38, main_v39, main_v40, main_cst_8, main_v41, main_v42, main_v43, main_cst_9, main_v44, main_v45, main_cst_10, main_v46, main_v47, main_v48, main_c_11, main_v49, main_v50, main_c_12, main_v51, main_v52, main_v53, main_v54, main_v55, main_v56, main_v57, main_v58, main_cst_13, main_v59, main_v60, main_v61, main_cst_14, main_v62, main_v63, main_cst_15, main_v64, main_v65, main_v66, main_c_16, main_v67, main_v68, main_c_17, main_v69, main_v70, main_v71, main_v72, main_v73, main_v74, main_v75, main_v76, main_cst_18, main_v77, main_v78, main_v79, main_cst_19, main_v80, main_v81, main_cst_20, main_v82, main_v83, main_v84, main_c_21, main_v85, main_v86, main_c_22, main_v87, main_v88, main_v89, main_v90, main_v91, main_v92, main_v93, main_v94, main_cst_23, main_v95, main_v96, main_v97, main_cst_24, main_v98, main_v99, main_cst_25, main_v100, main_v101, main_v102, main_c_26, main_v103, main_v104, main_c_27, main_v105, main_v106, main_v107, main_v108, main_v109, main_v110, main_v111, main_v112, main_cst_28, main_v113, main_v114, main_v115, main_cst_29, main_v116, main_v117, main_cst_30, main_v118, main_v119, main_v120, main_c_31, main_v121, main_v122, main_c_32, main_v123, main_v124, main_v125, main_v126, main_v127, main_v128, main_v129, main_v130, main_cst_33, main_v131, main_v132, main_v133, main_cst_34, main_v134, main_v135, main_cst_35, main_v136, main_v137, main_v138, main_c_36, main_v139, main_v140, main_c_37, main_v141, main_v142, main_v143, main_v144, main_v145, main_v146, main_v147, main_v148, main_cst_38, main_v149, main_v150, main_v151, main_cst_39, main_v152, main_v153, main_cst_40, main_v154, main_v155, main_v156, main_c_41, main_v157, main_v158, main_c_42, main_v159, main_v160, main_v161, main_v162, main_v163, main_v164, main_v165, main_v166, main_cst_43, main_v167, main_v168, main_v169, main_cst_44, main_v170, main_v171, main_cst_45, main_v172, main_v173, main_v174, main_c_46, main_v175, main_v176, main_c_47, main_v177, main_v178, main_v179, main_v180, main_v181, main_v182, main_v183, main_v184, main_cst_48, main_v185, main_v186, main_v187, main_cst_49, main_v188, main_v189, main_cst_50, main_v190, main_v191, main_v192, main_c_51, main_v193, main_v194, main_c_52, main_v195, main_v196, main_v197, main_v198, main_v199, main_v200, main_v201, main_v202, main_cst_53, main_v203, main_v204, main_v205, main_cst_54, main_v206, main_v207, main_cst_55, main_v208, main_v209, main_v210, main_call2_cst, main_call2_v0, main_call2_cst_0, main_call2_v1, main_call2_v2, main_call2_v3, main_call2_v4, main_call2_v5, main_call2_v6, main_call2_cst_1, main_call2_v7, main_call2_v8, main_call2_v9, main_call2_v10, main_v211]

/-- An operation that writes one buffer of a list writes inside the list. -/
theorem writes_sub_of_mem {W : List (Ref sig .tc)} {op : HloOp τ sig (Elt F)} (y : Ref sig .tc)
    (hw : op.writes = {Proc.devRef .tc y}) (hy : y ∈ W) : op.writes ⊆ (W.map (Proc.devRef (τ := τ) .tc)).toFinset := by
  rw [hw, Finset.singleton_subset_iff]
  exact List.mem_toFinset.mpr (List.mem_map.mpr ⟨y, hy, rfl⟩)

set_option maxHeartbeats 40000000 in
theorem hostOps0_fresh : (hostOps0 : List (HloOp τ sig (Elt F))).Forall fun op => op.fresh = ∅ :=
  ⟨rfl, rfl, rfl, rfl, rfl, rfl, rfl, rfl, rfl, rfl, rfl, rfl, rfl, rfl⟩
set_option maxHeartbeats 40000000 in
theorem hostOps0_writes : (hostOps0 : List (HloOp τ sig (Elt F))).Forall fun op => op.writes ⊆ (headW.map (Proc.devRef (τ := τ) .tc)).toFinset :=
  ⟨writes_sub_of_mem main_call0_v0 rfl (by decide), writes_sub_of_mem main_call0_v1 rfl (by decide), writes_sub_of_mem main_call0_v2 rfl (by decide), writes_sub_of_mem main_call0_v3 rfl (by decide), writes_sub_of_mem main_call0_v4 rfl (by decide), writes_sub_of_mem main_call0_v5 rfl (by decide), writes_sub_of_mem main_call0_v6 rfl (by decide), writes_sub_of_mem main_call0_v7 rfl (by decide), writes_sub_of_mem main_call0_v8 rfl (by decide), writes_sub_of_mem main_call0_v9 rfl (by decide), writes_sub_of_mem main_call0_v10 rfl (by decide), writes_sub_of_mem main_call0_v11 rfl (by decide), writes_sub_of_mem main_call0_v12 rfl (by decide), writes_sub_of_mem main_call0_v13 rfl (by decide)⟩
set_option maxHeartbeats 40000000 in
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl⟩
set_option maxHeartbeats 40000000 in
theorem hostOps1_writes : (hostOps1 : List (HloOp τ sig (Elt F))).Forall fun op => op.writes ⊆ (tailW.map (Proc.devRef (τ := τ) .tc)).toFinset :=
  ⟨writes_sub_of_mem main_v1 rfl (by decide), writes_sub_of_mem main_v2 rfl (by decide), writes_sub_of_mem main_v3 rfl (by decide), writes_sub_of_mem main_v4 rfl (by decide), writes_sub_of_mem main_v5 rfl (by decide), writes_sub_of_mem main_v6 rfl (by decide), writes_sub_of_mem main_v7 rfl (by decide), writes_sub_of_mem main_cst rfl (by decide), writes_sub_of_mem main_v8 rfl (by decide), writes_sub_of_mem main_cst_0 rfl (by decide), writes_sub_of_mem main_v9 rfl (by decide), writes_sub_of_mem main_v10 rfl (by decide), writes_sub_of_mem main_v11 rfl (by decide), writes_sub_of_mem main_cst_1 rfl (by decide), writes_sub_of_mem main_v12 rfl (by decide), writes_sub_of_mem main_v13 rfl (by decide), writes_sub_of_mem main_v14 rfl (by decide), writes_sub_of_mem main_cst_2 rfl (by decide)⟩
set_option maxHeartbeats 40000000 in
theorem hostOps1_1_fresh : (hostOps1_1 : List (HloOp τ sig (Elt F))).Forall fun op => op.fresh = ∅ :=
  ⟨rfl, rfl, rfl⟩
set_option maxHeartbeats 40000000 in
theorem hostOps1_1_writes : (hostOps1_1 : List (HloOp τ sig (Elt F))).Forall fun op => op.writes ⊆ (tailW.map (Proc.devRef (τ := τ) .tc)).toFinset :=
  ⟨writes_sub_of_mem main_call1_v0 rfl (by decide), writes_sub_of_mem main_call1_v1 rfl (by decide), writes_sub_of_mem main_v15 rfl (by decide)⟩
set_option maxHeartbeats 40000000 in
theorem hostOps1_2_fresh : (hostOps1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxHeartbeats 40000000 in
theorem hostOps1_2_writes : (hostOps1_2 : List (HloOp τ sig (Elt F))).Forall fun op => op.writes ⊆ (tailW.map (Proc.devRef (τ := τ) .tc)).toFinset :=
  ⟨writes_sub_of_mem main_c rfl (by decide), writes_sub_of_mem main_v16 rfl (by decide), writes_sub_of_mem main_v17 rfl (by decide), writes_sub_of_mem main_c_3 rfl (by decide), writes_sub_of_mem main_v18 rfl (by decide), writes_sub_of_mem main_v19 rfl (by decide), writes_sub_of_mem main_v20 rfl (by decide), writes_sub_of_mem main_v21 rfl (by decide), writes_sub_of_mem main_v22 rfl (by decide), writes_sub_of_mem main_c_4 rfl (by decide), writes_sub_of_mem main_v23 rfl (by decide), writes_sub_of_mem main_v24 rfl (by decide), writes_sub_of_mem main_c_5 rfl (by decide), writes_sub_of_mem main_v25 rfl (by decide), writes_sub_of_mem main_v26 rfl (by decide), writes_sub_of_mem main_v27 rfl (by decide), writes_sub_of_mem main_v28 rfl (by decide), writes_sub_of_mem main_v29 rfl (by decide), writes_sub_of_mem main_v30 rfl (by decide), writes_sub_of_mem main_c_6 rfl (by decide), writes_sub_of_mem main_v31 rfl (by decide), writes_sub_of_mem main_v32 rfl (by decide), writes_sub_of_mem main_c_7 rfl (by decide), writes_sub_of_mem main_v33 rfl (by decide), writes_sub_of_mem main_v34 rfl (by decide), writes_sub_of_mem main_v35 rfl (by decide), writes_sub_of_mem main_v36 rfl (by decide), writes_sub_of_mem main_v37 rfl (by decide), writes_sub_of_mem main_v38 rfl (by decide), writes_sub_of_mem main_v39 rfl (by decide), writes_sub_of_mem main_v40 rfl (by decide), writes_sub_of_mem main_cst_8 rfl (by decide), writes_sub_of_mem main_v41 rfl (by decide), writes_sub_of_mem main_v42 rfl (by decide), writes_sub_of_mem main_v43 rfl (by decide), writes_sub_of_mem main_cst_9 rfl (by decide), writes_sub_of_mem main_v44 rfl (by decide), writes_sub_of_mem main_v45 rfl (by decide), writes_sub_of_mem main_cst_10 rfl (by decide), writes_sub_of_mem main_v46 rfl (by decide), writes_sub_of_mem main_v47 rfl (by decide), writes_sub_of_mem main_v48 rfl (by decide), writes_sub_of_mem main_c_11 rfl (by decide), writes_sub_of_mem main_v49 rfl (by decide), writes_sub_of_mem main_v50 rfl (by decide), writes_sub_of_mem main_c_12 rfl (by decide), writes_sub_of_mem main_v51 rfl (by decide), writes_sub_of_mem main_v52 rfl (by decide), writes_sub_of_mem main_v53 rfl (by decide), writes_sub_of_mem main_v54 rfl (by decide), writes_sub_of_mem main_v55 rfl (by decide), writes_sub_of_mem main_v56 rfl (by decide), writes_sub_of_mem main_v57 rfl (by decide), writes_sub_of_mem main_v58 rfl (by decide), writes_sub_of_mem main_cst_13 rfl (by decide), writes_sub_of_mem main_v59 rfl (by decide), writes_sub_of_mem main_v60 rfl (by decide), writes_sub_of_mem main_v61 rfl (by decide), writes_sub_of_mem main_cst_14 rfl (by decide), writes_sub_of_mem main_v62 rfl (by decide), writes_sub_of_mem main_v63 rfl (by decide), writes_sub_of_mem main_cst_15 rfl (by decide), writes_sub_of_mem main_v64 rfl (by decide), writes_sub_of_mem main_v65 rfl (by decide), writes_sub_of_mem main_v66 rfl (by decide), writes_sub_of_mem main_c_16 rfl (by decide), writes_sub_of_mem main_v67 rfl (by decide), writes_sub_of_mem main_v68 rfl (by decide), writes_sub_of_mem main_c_17 rfl (by decide), writes_sub_of_mem main_v69 rfl (by decide), writes_sub_of_mem main_v70 rfl (by decide), writes_sub_of_mem main_v71 rfl (by decide), writes_sub_of_mem main_v72 rfl (by decide), writes_sub_of_mem main_v73 rfl (by decide), writes_sub_of_mem main_v74 rfl (by decide), writes_sub_of_mem main_v75 rfl (by decide), writes_sub_of_mem main_v76 rfl (by decide), writes_sub_of_mem main_cst_18 rfl (by decide), writes_sub_of_mem main_v77 rfl (by decide), writes_sub_of_mem main_v78 rfl (by decide), writes_sub_of_mem main_v79 rfl (by decide), writes_sub_of_mem main_cst_19 rfl (by decide), writes_sub_of_mem main_v80 rfl (by decide), writes_sub_of_mem main_v81 rfl (by decide), writes_sub_of_mem main_cst_20 rfl (by decide), writes_sub_of_mem main_v82 rfl (by decide), writes_sub_of_mem main_v83 rfl (by decide), writes_sub_of_mem main_v84 rfl (by decide), writes_sub_of_mem main_c_21 rfl (by decide), writes_sub_of_mem main_v85 rfl (by decide), writes_sub_of_mem main_v86 rfl (by decide), writes_sub_of_mem main_c_22 rfl (by decide), writes_sub_of_mem main_v87 rfl (by decide), writes_sub_of_mem main_v88 rfl (by decide), writes_sub_of_mem main_v89 rfl (by decide), writes_sub_of_mem main_v90 rfl (by decide), writes_sub_of_mem main_v91 rfl (by decide), writes_sub_of_mem main_v92 rfl (by decide), writes_sub_of_mem main_v93 rfl (by decide), writes_sub_of_mem main_v94 rfl (by decide), writes_sub_of_mem main_cst_23 rfl (by decide), writes_sub_of_mem main_v95 rfl (by decide), writes_sub_of_mem main_v96 rfl (by decide), writes_sub_of_mem main_v97 rfl (by decide), writes_sub_of_mem main_cst_24 rfl (by decide), writes_sub_of_mem main_v98 rfl (by decide), writes_sub_of_mem main_v99 rfl (by decide), writes_sub_of_mem main_cst_25 rfl (by decide), writes_sub_of_mem main_v100 rfl (by decide), writes_sub_of_mem main_v101 rfl (by decide), writes_sub_of_mem main_v102 rfl (by decide), writes_sub_of_mem main_c_26 rfl (by decide), writes_sub_of_mem main_v103 rfl (by decide), writes_sub_of_mem main_v104 rfl (by decide), writes_sub_of_mem main_c_27 rfl (by decide), writes_sub_of_mem main_v105 rfl (by decide), writes_sub_of_mem main_v106 rfl (by decide), writes_sub_of_mem main_v107 rfl (by decide), writes_sub_of_mem main_v108 rfl (by decide), writes_sub_of_mem main_v109 rfl (by decide), writes_sub_of_mem main_v110 rfl (by decide), writes_sub_of_mem main_v111 rfl (by decide), writes_sub_of_mem main_v112 rfl (by decide), writes_sub_of_mem main_cst_28 rfl (by decide), writes_sub_of_mem main_v113 rfl (by decide), writes_sub_of_mem main_v114 rfl (by decide), writes_sub_of_mem main_v115 rfl (by decide), writes_sub_of_mem main_cst_29 rfl (by decide), writes_sub_of_mem main_v116 rfl (by decide), writes_sub_of_mem main_v117 rfl (by decide), writes_sub_of_mem main_cst_30 rfl (by decide), writes_sub_of_mem main_v118 rfl (by decide), writes_sub_of_mem main_v119 rfl (by decide), writes_sub_of_mem main_v120 rfl (by decide), writes_sub_of_mem main_c_31 rfl (by decide), writes_sub_of_mem main_v121 rfl (by decide), writes_sub_of_mem main_v122 rfl (by decide), writes_sub_of_mem main_c_32 rfl (by decide), writes_sub_of_mem main_v123 rfl (by decide), writes_sub_of_mem main_v124 rfl (by decide), writes_sub_of_mem main_v125 rfl (by decide), writes_sub_of_mem main_v126 rfl (by decide), writes_sub_of_mem main_v127 rfl (by decide), writes_sub_of_mem main_v128 rfl (by decide), writes_sub_of_mem main_v129 rfl (by decide), writes_sub_of_mem main_v130 rfl (by decide), writes_sub_of_mem main_cst_33 rfl (by decide), writes_sub_of_mem main_v131 rfl (by decide), writes_sub_of_mem main_v132 rfl (by decide), writes_sub_of_mem main_v133 rfl (by decide), writes_sub_of_mem main_cst_34 rfl (by decide), writes_sub_of_mem main_v134 rfl (by decide), writes_sub_of_mem main_v135 rfl (by decide), writes_sub_of_mem main_cst_35 rfl (by decide), writes_sub_of_mem main_v136 rfl (by decide), writes_sub_of_mem main_v137 rfl (by decide), writes_sub_of_mem main_v138 rfl (by decide), writes_sub_of_mem main_c_36 rfl (by decide), writes_sub_of_mem main_v139 rfl (by decide), writes_sub_of_mem main_v140 rfl (by decide), writes_sub_of_mem main_c_37 rfl (by decide), writes_sub_of_mem main_v141 rfl (by decide), writes_sub_of_mem main_v142 rfl (by decide), writes_sub_of_mem main_v143 rfl (by decide), writes_sub_of_mem main_v144 rfl (by decide), writes_sub_of_mem main_v145 rfl (by decide), writes_sub_of_mem main_v146 rfl (by decide), writes_sub_of_mem main_v147 rfl (by decide), writes_sub_of_mem main_v148 rfl (by decide), writes_sub_of_mem main_cst_38 rfl (by decide), writes_sub_of_mem main_v149 rfl (by decide), writes_sub_of_mem main_v150 rfl (by decide), writes_sub_of_mem main_v151 rfl (by decide), writes_sub_of_mem main_cst_39 rfl (by decide), writes_sub_of_mem main_v152 rfl (by decide), writes_sub_of_mem main_v153 rfl (by decide), writes_sub_of_mem main_cst_40 rfl (by decide), writes_sub_of_mem main_v154 rfl (by decide), writes_sub_of_mem main_v155 rfl (by decide), writes_sub_of_mem main_v156 rfl (by decide), writes_sub_of_mem main_c_41 rfl (by decide), writes_sub_of_mem main_v157 rfl (by decide), writes_sub_of_mem main_v158 rfl (by decide), writes_sub_of_mem main_c_42 rfl (by decide), writes_sub_of_mem main_v159 rfl (by decide), writes_sub_of_mem main_v160 rfl (by decide), writes_sub_of_mem main_v161 rfl (by decide), writes_sub_of_mem main_v162 rfl (by decide), writes_sub_of_mem main_v163 rfl (by decide), writes_sub_of_mem main_v164 rfl (by decide), writes_sub_of_mem main_v165 rfl (by decide), writes_sub_of_mem main_v166 rfl (by decide), writes_sub_of_mem main_cst_43 rfl (by decide), writes_sub_of_mem main_v167 rfl (by decide), writes_sub_of_mem main_v168 rfl (by decide), writes_sub_of_mem main_v169 rfl (by decide), writes_sub_of_mem main_cst_44 rfl (by decide), writes_sub_of_mem main_v170 rfl (by decide), writes_sub_of_mem main_v171 rfl (by decide), writes_sub_of_mem main_cst_45 rfl (by decide), writes_sub_of_mem main_v172 rfl (by decide), writes_sub_of_mem main_v173 rfl (by decide), writes_sub_of_mem main_v174 rfl (by decide), writes_sub_of_mem main_c_46 rfl (by decide), writes_sub_of_mem main_v175 rfl (by decide), writes_sub_of_mem main_v176 rfl (by decide), writes_sub_of_mem main_c_47 rfl (by decide), writes_sub_of_mem main_v177 rfl (by decide), writes_sub_of_mem main_v178 rfl (by decide), writes_sub_of_mem main_v179 rfl (by decide), writes_sub_of_mem main_v180 rfl (by decide), writes_sub_of_mem main_v181 rfl (by decide), writes_sub_of_mem main_v182 rfl (by decide), writes_sub_of_mem main_v183 rfl (by decide), writes_sub_of_mem main_v184 rfl (by decide), writes_sub_of_mem main_cst_48 rfl (by decide), writes_sub_of_mem main_v185 rfl (by decide), writes_sub_of_mem main_v186 rfl (by decide), writes_sub_of_mem main_v187 rfl (by decide), writes_sub_of_mem main_cst_49 rfl (by decide), writes_sub_of_mem main_v188 rfl (by decide), writes_sub_of_mem main_v189 rfl (by decide), writes_sub_of_mem main_cst_50 rfl (by decide), writes_sub_of_mem main_v190 rfl (by decide), writes_sub_of_mem main_v191 rfl (by decide), writes_sub_of_mem main_v192 rfl (by decide), writes_sub_of_mem main_c_51 rfl (by decide), writes_sub_of_mem main_v193 rfl (by decide), writes_sub_of_mem main_v194 rfl (by decide), writes_sub_of_mem main_c_52 rfl (by decide), writes_sub_of_mem main_v195 rfl (by decide), writes_sub_of_mem main_v196 rfl (by decide), writes_sub_of_mem main_v197 rfl (by decide), writes_sub_of_mem main_v198 rfl (by decide), writes_sub_of_mem main_v199 rfl (by decide), writes_sub_of_mem main_v200 rfl (by decide), writes_sub_of_mem main_v201 rfl (by decide), writes_sub_of_mem main_v202 rfl (by decide), writes_sub_of_mem main_cst_53 rfl (by decide), writes_sub_of_mem main_v203 rfl (by decide), writes_sub_of_mem main_v204 rfl (by decide), writes_sub_of_mem main_v205 rfl (by decide), writes_sub_of_mem main_cst_54 rfl (by decide), writes_sub_of_mem main_v206 rfl (by decide), writes_sub_of_mem main_v207 rfl (by decide), writes_sub_of_mem main_cst_55 rfl (by decide), writes_sub_of_mem main_v208 rfl (by decide), writes_sub_of_mem main_v209 rfl (by decide), writes_sub_of_mem main_v210 rfl (by decide)⟩
set_option maxHeartbeats 40000000 in
theorem hostOps1_3_fresh : (hostOps1_3 : List (HloOp τ sig (Elt F))).Forall fun op => op.fresh = ∅ :=
  ⟨rfl, rfl, rfl, rfl, rfl, rfl, rfl, rfl, rfl, rfl, rfl, rfl, rfl, rfl, rfl⟩
set_option maxHeartbeats 40000000 in
theorem hostOps1_3_writes : (hostOps1_3 : List (HloOp τ sig (Elt F))).Forall fun op => op.writes ⊆ (tailW.map (Proc.devRef (τ := τ) .tc)).toFinset :=
  ⟨writes_sub_of_mem main_call2_cst rfl (by decide), writes_sub_of_mem main_call2_v0 rfl (by decide), writes_sub_of_mem main_call2_cst_0 rfl (by decide), writes_sub_of_mem main_call2_v1 rfl (by decide), writes_sub_of_mem main_call2_v2 rfl (by decide), writes_sub_of_mem main_call2_v3 rfl (by decide), writes_sub_of_mem main_call2_v4 rfl (by decide), writes_sub_of_mem main_call2_v5 rfl (by decide), writes_sub_of_mem main_call2_v6 rfl (by decide), writes_sub_of_mem main_call2_cst_1 rfl (by decide), writes_sub_of_mem main_call2_v7 rfl (by decide), writes_sub_of_mem main_call2_v8 rfl (by decide), writes_sub_of_mem main_call2_v9 rfl (by decide), writes_sub_of_mem main_call2_v10 rfl (by decide), writes_sub_of_mem main_v211 rfl (by decide)⟩

/-- Membership in one of the four stretches. -/
theorem mem_tailOps {ops : List (HloOp τ sig (Elt F))} (h : ops ∈ (tailOps : List (List (HloOp τ sig (Elt F))))) :
    ops = hostOps1 ∨ ops = hostOps1_1 ∨ ops = hostOps1_2 ∨ ops = hostOps1_3 := by
  simpa only [tailOps, List.mem_cons, List.mem_nil_iff, or_false] using h

/-- Every operation after the region writes inside `tailW`. -/
theorem tail_writes : ∀ ops ∈ (tailOps : List (List (HloOp τ sig (Elt F)))), ∀ op ∈ ops,
    op.writes ⊆ (tailW.map (Proc.devRef (τ := τ) .tc)).toFinset := by
  intro ops hops op hop
  rcases mem_tailOps hops with rfl | rfl | rfl | rfl
  · exact (List.forall_iff_forall_mem.mp hostOps1_writes) op hop
  · exact (List.forall_iff_forall_mem.mp hostOps1_1_writes) op hop
  · exact (List.forall_iff_forall_mem.mp hostOps1_2_writes) op hop
  · exact (List.forall_iff_forall_mem.mp hostOps1_3_writes) op hop

theorem tail_writes_flat : ((tailOps : List (List (HloOp τ sig (Elt F)))).flatten).Forall fun op =>
    op.writes ⊆ (tailW.map (Proc.devRef (τ := τ) .tc)).toFinset := by
  rw [List.forall_iff_forall_mem]
  intro op hop
  obtain ⟨ops, hops, hop'⟩ := List.mem_flatten.mp hop
  exact tail_writes ops hops op hop'

/-- The program around its region: the operations before it, the region, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch unscoped references only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rcases mem_tailOps hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
/-- They allocate nothing. -/
theorem sfx_fresh : ∀ ops ∈ (tailOps : List (List (HloOp τ sig (Elt F)))), ∀ op ∈ ops, op.fresh = ∅ := by
  intro ops hops op hop
  rcases mem_tailOps hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
/-- No window's array is among the buffers they write. -/
theorem arr_not_tailW : ∀ w, Pipeline.arrRef spec0 w ∉ (tailW : List (Ref sig .tc)) := by decide
/-- So they write no window's array. -/
theorem sfx_keeps : ∀ ops ∈ (tailOps : List (List (HloOp τ sig (Elt F)))), ∀ op ∈ ops,
    ∀ w, Proc.devRef .tc (Pipeline.arrRef spec0 w) ∉ op.writes := by
  intro ops hops op hop w hw
  obtain ⟨y, hy, he⟩ := List.mem_map.mp (List.mem_toFinset.mp (tail_writes ops hops op hop hw))
  exact arr_not_tailW w (Proc.devRef_injective _ he ▸ hy)

/-- No operation before the region writes argument 0. -/
theorem V_main_arg0 (c : Dev nD) : V m c main_arg0 = m ((c : Thread nD τ).loc main_arg0) :=
  StableHlo.after_of_writes_sub (W := headW) _ _ (by simp only [List.flatten_cons, List.flatten_nil, List.append_nil]; exact hostOps0_writes) (by decide)

/-- No operation before the region writes argument 1. -/
theorem V_main_arg1 (c : Dev nD) : V m c main_arg1 = m ((c : Thread nD τ).loc main_arg1) :=
  StableHlo.after_of_writes_sub (W := headW) _ _ (by simp only [List.flatten_cons, List.flatten_nil, List.append_nil]; exact hostOps0_writes) (by decide)
/-- Nor does any after it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_writes_sub (W := tailW) _ _ tail_writes_flat (by decide),
    Pipeline.withArrays_of_ne _ c (V0 m c) _ main_arg1 (by exact (by decide : ∀ w, Pipeline.arrRef spec0 w ≠ main_arg1))]
  exact V_main_arg1 m c

/-- No operation before the region writes argument 2. -/
theorem V_main_arg2 (c : Dev nD) : V m c main_arg2 = m ((c : Thread nD τ).loc main_arg2) :=
  StableHlo.after_of_writes_sub (W := headW) _ _ (by simp only [List.flatten_cons, List.flatten_nil, List.append_nil]; exact hostOps0_writes) (by decide)
/-- Nor does any after it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_writes_sub (W := tailW) _ _ tail_writes_flat (by decide),
    Pipeline.withArrays_of_ne _ c (V0 m c) _ main_arg2 (by exact (by decide : ∀ w, Pipeline.arrRef spec0 w ≠ main_arg2))]
  exact V_main_arg2 m c

/-- No operation before the region writes argument 3. -/
theorem V_main_arg3 (c : Dev nD) : V m c main_arg3 = m ((c : Thread nD τ).loc main_arg3) :=
  StableHlo.after_of_writes_sub (W := headW) _ _ (by simp only [List.flatten_cons, List.flatten_nil, List.append_nil]; exact hostOps0_writes) (by decide)
/-- Nor does any after it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_writes_sub (W := tailW) _ _ tail_writes_flat (by decide),
    Pipeline.withArrays_of_ne _ c (V0 m c) _ main_arg3 (by exact (by decide : ∀ w, Pipeline.arrRef spec0 w ≠ main_arg3))]
  exact V_main_arg3 m c

/-- No operation before the region writes argument 4. -/
theorem V_main_arg4 (c : Dev nD) : V m c main_arg4 = m ((c : Thread nD τ).loc main_arg4) :=
  StableHlo.after_of_writes_sub (W := headW) _ _ (by simp only [List.flatten_cons, List.flatten_nil, List.append_nil]; exact hostOps0_writes) (by decide)
/-- Nor does any after it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_writes_sub (W := tailW) _ _ tail_writes_flat (by decide),
    Pipeline.withArrays_of_ne _ c (V0 m c) _ main_arg4 (by exact (by decide : ∀ w, Pipeline.arrRef spec0 w ≠ main_arg4))]
  exact V_main_arg4 m c

/-- No operation before the region writes argument 5. -/
theorem V_main_arg5 (c : Dev nD) : V m c main_arg5 = m ((c : Thread nD τ).loc main_arg5) :=
  StableHlo.after_of_writes_sub (W := headW) _ _ (by simp only [List.flatten_cons, List.flatten_nil, List.append_nil]; exact hostOps0_writes) (by decide)
/-- Nor does any after it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_writes_sub (W := tailW) _ _ tail_writes_flat (by decide),
    Pipeline.withArrays_of_ne _ c (V0 m c) _ main_arg5 (by exact (by decide : ∀ w, Pipeline.arrRef spec0 w ≠ main_arg5))]
  exact V_main_arg5 m c

/-- No operation before the region writes argument 6. -/
theorem V_main_arg6 (c : Dev nD) : V m c main_arg6 = m ((c : Thread nD τ).loc main_arg6) :=
  StableHlo.after_of_writes_sub (W := headW) _ _ (by simp only [List.flatten_cons, List.flatten_nil, List.append_nil]; exact hostOps0_writes) (by decide)
/-- Nor does any after it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_writes_sub (W := tailW) _ _ tail_writes_flat (by decide),
    Pipeline.withArrays_of_ne _ c (V0 m c) _ main_arg6 (by exact (by decide : ∀ w, Pipeline.arrRef spec0 w ≠ main_arg6))]
  exact V_main_arg6 m c

/-- No operation before the region writes argument 7. -/
theorem V_main_arg7 (c : Dev nD) : V m c main_arg7 = m ((c : Thread nD τ).loc main_arg7) :=
  StableHlo.after_of_writes_sub (W := headW) _ _ (by simp only [List.flatten_cons, List.flatten_nil, List.append_nil]; exact hostOps0_writes) (by decide)
/-- Nor does any after it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) := by
  unfold Pipeline.afterTail₀
  rw [StableHlo.after_of_writes_sub (W := tailW) _ _ tail_writes_flat (by decide),
    Pipeline.withArrays_of_ne _ c (V0 m c) _ main_arg7 (by exact (by decide : ∀ w, Pipeline.arrRef spec0 w ≠ main_arg7))]
  exact V_main_arg7 m c

/-- No operation before the region writes argument 8. -/
theorem V_main_arg8 (c : Dev nD) : V m c main_arg8 = m ((c : Thread nD τ).loc main_arg8) :=
  StableHlo.after_of_writes_sub (W := headW) _ _ (by simp only [List.flatten_cons, List.flatten_nil, List.append_nil]; exact hostOps0_writes) (by decide)
/-- Nor does any after it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) := by
  unfold Pipeline.afterTail₀
  rw [StableHlo.after_of_writes_sub (W := tailW) _ _ tail_writes_flat (by decide),
    Pipeline.withArrays_of_ne _ c (V0 m c) _ main_arg8 (by exact (by decide : ∀ w, Pipeline.arrRef spec0 w ≠ main_arg8))]
  exact V_main_arg8 m c

/-- No operation before the region writes argument 9. -/
theorem V_main_arg9 (c : Dev nD) : V m c main_arg9 = m ((c : Thread nD τ).loc main_arg9) :=
  StableHlo.after_of_writes_sub (W := headW) _ _ (by simp only [List.flatten_cons, List.flatten_nil, List.append_nil]; exact hostOps0_writes) (by decide)
/-- Nor does any after it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) tailOps c main_arg9 = m ((c : Thread nD τ).loc main_arg9) := by
  unfold Pipeline.afterTail₀
  rw [StableHlo.after_of_writes_sub (W := tailW) _ _ tail_writes_flat (by decide),
    Pipeline.withArrays_of_ne _ c (V0 m c) _ main_arg9 (by exact (by decide : ∀ w, Pipeline.arrRef spec0 w ≠ main_arg9))]
  exact V_main_arg9 m c

/-- No operation before the region writes argument 10. -/
theorem V_main_arg10 (c : Dev nD) : V m c main_arg10 = m ((c : Thread nD τ).loc main_arg10) :=
  StableHlo.after_of_writes_sub (W := headW) _ _ (by simp only [List.flatten_cons, List.flatten_nil, List.append_nil]; exact hostOps0_writes) (by decide)
/-- Nor does any after it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) tailOps c main_arg10 = m ((c : Thread nD τ).loc main_arg10) := by
  unfold Pipeline.afterTail₀
  rw [StableHlo.after_of_writes_sub (W := tailW) _ _ tail_writes_flat (by decide),
    Pipeline.withArrays_of_ne _ c (V0 m c) _ main_arg10 (by exact (by decide : ∀ w, Pipeline.arrRef spec0 w ≠ main_arg10))]
  exact V_main_arg10 m c

/-- No operation before the region writes argument 11. -/
theorem V_main_arg11 (c : Dev nD) : V m c main_arg11 = m ((c : Thread nD τ).loc main_arg11) :=
  StableHlo.after_of_writes_sub (W := headW) _ _ (by simp only [List.flatten_cons, List.flatten_nil, List.append_nil]; exact hostOps0_writes) (by decide)
/-- Nor does any after it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) tailOps c main_arg11 = m ((c : Thread nD τ).loc main_arg11) := by
  unfold Pipeline.afterTail₀
  rw [StableHlo.after_of_writes_sub (W := tailW) _ _ tail_writes_flat (by decide),
    Pipeline.withArrays_of_ne _ c (V0 m c) _ main_arg11 (by exact (by decide : ∀ w, Pipeline.arrRef spec0 w ≠ main_arg11))]
  exact V_main_arg11 m c

/-- No operation before the region writes argument 12. -/
theorem V_main_arg12 (c : Dev nD) : V m c main_arg12 = m ((c : Thread nD τ).loc main_arg12) :=
  StableHlo.after_of_writes_sub (W := headW) _ _ (by simp only [List.flatten_cons, List.flatten_nil, List.append_nil]; exact hostOps0_writes) (by decide)
/-- Nor does any after it: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) tailOps c main_arg12 = m ((c : Thread nD τ).loc main_arg12) := by
  unfold Pipeline.afterTail₀
  rw [StableHlo.after_of_writes_sub (W := tailW) _ _ tail_writes_flat (by decide),
    Pipeline.withArrays_of_ne _ c (V0 m c) _ main_arg12 (by exact (by decide : ∀ w, Pipeline.arrRef spec0 w ≠ main_arg12))]
  exact V_main_arg12 m c

/-- No operation before the region writes argument 13. -/
theorem V_main_arg13 (c : Dev nD) : V m c main_arg13 = m ((c : Thread nD τ).loc main_arg13) :=
  StableHlo.after_of_writes_sub (W := headW) _ _ (by simp only [List.flatten_cons, List.flatten_nil, List.append_nil]; exact hostOps0_writes) (by decide)
/-- Nor does any after it: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) tailOps c main_arg13 = m ((c : Thread nD τ).loc main_arg13) := by
  unfold Pipeline.afterTail₀
  rw [StableHlo.after_of_writes_sub (W := tailW) _ _ tail_writes_flat (by decide),
    Pipeline.withArrays_of_ne _ c (V0 m c) _ main_arg13 (by exact (by decide : ∀ w, Pipeline.arrRef spec0 w ≠ main_arg13))]
  exact V_main_arg13 m c

/-- No operation before the region writes argument 14. -/
theorem V_main_arg14 (c : Dev nD) : V m c main_arg14 = m ((c : Thread nD τ).loc main_arg14) :=
  StableHlo.after_of_writes_sub (W := headW) _ _ (by simp only [List.flatten_cons, List.flatten_nil, List.append_nil]; exact hostOps0_writes) (by decide)
/-- Nor does any after it: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) tailOps c main_arg14 = m ((c : Thread nD τ).loc main_arg14) := by
  unfold Pipeline.afterTail₀
  rw [StableHlo.after_of_writes_sub (W := tailW) _ _ tail_writes_flat (by decide),
    Pipeline.withArrays_of_ne _ c (V0 m c) _ main_arg14 (by exact (by decide : ∀ w, Pipeline.arrRef spec0 w ≠ main_arg14))]
  exact V_main_arg14 m c

/-- No operation before the region writes argument 15. -/
theorem V_main_arg15 (c : Dev nD) : V m c main_arg15 = m ((c : Thread nD τ).loc main_arg15) :=
  StableHlo.after_of_writes_sub (W := headW) _ _ (by simp only [List.flatten_cons, List.flatten_nil, List.append_nil]; exact hostOps0_writes) (by decide)
/-- Nor does any after it: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) tailOps c main_arg15 = m ((c : Thread nD τ).loc main_arg15) := by
  unfold Pipeline.afterTail₀
  rw [StableHlo.after_of_writes_sub (W := tailW) _ _ tail_writes_flat (by decide),
    Pipeline.withArrays_of_ne _ c (V0 m c) _ main_arg15 (by exact (by decide : ∀ w, Pipeline.arrRef spec0 w ≠ main_arg15))]
  exact V_main_arg15 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's staging buffer holds its block at every point, fetched there or not. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's staging buffer holds its block at every point, fetched there or not. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's staging buffer holds its block at every point, fetched there or not. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's staging buffer holds its block at every point, fetched there or not. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store go through the whole buffer -/

abbrev rX : Rect S2000x512 := Rect.unit (s := S2000x512) ![0, 0] S2000x512.size inb_S2000x512_S2000x512_0_0
abbrev rW1 : Rect S512x128 := Rect.unit (s := S512x128) ![0, 0] S512x128.size inb_S512x128_S512x128_0_0
abbrev rV : Rect S1x128 := Rect.unit (s := S1x128) ![0, 0] S1x128.size inb_S1x128_S1x128_0_0
abbrev rW2 : Rect S128x128 := Rect.unit (s := S128x128) ![0, 0] S128x128.size inb_S128x128_S128x128_0_0
abbrev rW3 : Rect S128x3 := Rect.unit (s := S128x3) ![0, 0] S128x3.size inb_S128x3_S128x3_0_0
abbrev rB3 : Rect S1x3 := Rect.unit (s := S1x3) ![0, 0] S1x3.size inb_S1x3_S1x3_0_0
abbrev rO : Rect S2000x3 := Rect.unit (s := S2000x3) ![0, 0] S2000x3.size inb_S2000x3_S2000x3_0_0

/-- What the body leaves in the output block's buffer, from the fifteen input blocks: its one store, of the
    perceptron's result for the block's rows, laid over the whole buffer. -/
def outBlock (x0 : Vec F S2000x512 .f32) (x1 : Vec F S512x128 .f32) (x2 : Vec F S1x128 .f32) (x3 : Vec F S1x128 .f32) (x4 : Vec F S1x128 .f32) (x5 : Vec F S1x128 .f32) (x6 : Vec F S1x128 .f32) (x7 : Vec F S128x128 .f32) (x8 : Vec F S1x128 .f32) (x9 : Vec F S1x128 .f32) (x10 : Vec F S1x128 .f32) (x11 : Vec F S1x128 .f32) (x12 : Vec F S1x128 .f32) (x13 : Vec F S128x3 .f32) (x14 : Vec F S1x3 .f32) : Vec F S2000x3 .f32 :=
  View.canon [⟨rO, k0_pay1 (k0_pay2 (View.ld x0 rX) (View.ld x1 rW1) (View.ld x2 rV) (View.ld x5 rV) (View.ld x6 rV) (View.ld x3 rV) (View.ld x4 rV)) (k0_pay3 (View.ld x0 rX) (View.ld x1 rW1) (View.ld x2 rV) (View.ld x5 rV) (View.ld x6 rV) (View.ld x3 rV) (View.ld x4 rV) (View.ld x7 rW2)) (View.ld x8 rV) (View.ld x11 rV) (View.ld x12 rV) (View.ld x9 rV) (View.ld x10 rV) (View.ld x13 rW3) (View.ld x14 rB3)⟩]

/-- The one store covers the buffer. -/
theorem outCover (p0 : Vec F S2000x3 .f32) (y : S2000x3.Idx) :
    ∃ pc ∈ ([⟨rO, p0⟩] : List (View.Piece (Elt F) S2000x3 .f32)), y ∈ pc.1.set :=
  View.cover_of_tiled [⟨rO, p0⟩] S2000x3.size (by rfl) y

/-! ## The body's triple -/

set_option maxHeartbeats 4000000 in
/-- The kernel body on whole staging buffers — the inputs' at read contents `xK`, the output's at anything — runs to the
    continuation holding the inputs' as they were and the output's at `outBlock` of them. -/
theorem sound_kernel (c : Dev nD) (E : Set ℕ) (i : grid0.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x3 .f32) (harg14 : arg14.IsWhole) (arg15 : Memref sig .tc .vmem S1x3 .f32) (harg15 : arg15.IsWhole) (arg16 : Memref sig .tc .vmem S2000x3 .f32) (harg16 : arg16.IsWhole)
    (x0 : Vec F S2000x512 .f32) (x1 : Vec F S512x128 .f32) (x2 : Vec F S1x128 .f32) (x3 : Vec F S1x128 .f32) (x4 : Vec F S1x128 .f32) (x5 : Vec F S1x128 .f32) (x6 : Vec F S1x128 .f32) (x7 : Vec F S128x128 .f32) (x8 : Vec F S1x128 .f32) (x9 : Vec F S1x128 .f32) (x10 : Vec F S1x128 .f32) (x11 : Vec F S1x128 .f32) (x12 : Vec F S1x128 .f32) (x13 : Vec F S128x3 .f32) (x14 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (outBlock x0 x1 x2 x3 x4 x5 x6 x7 x8 x9 x10 x11 x12 x13 x14)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (outCover _)

/-! ## The pipeline's proof data -/

/-- The proof data of the pipeline on core `c`: the arrays as the region finds them; after the body at point `t` each
    input's buffer at its block and the output's at `outBlock` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 4000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each window's array at what the
    proof data computes and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The first argument is a window's array the body only reads: it ends as the region found it, which is as launched. -/
theorem arr0_kept (c : Dev nD) : (dats m 0 c).arrAt 0 cfg0.N = m ((c : Thread nD τ).loc main_arg0) :=
  ((dats m 0 c).arrAt_in 0 rfl _).trans ((A_eq m c 0).trans (V_main_arg0 m c))

/-- The program runs to the end, faults nowhere and leaves its sixteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (arr0_kept m c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c)⟩) (run_main m ρ)

end Cert.KernelIdeal.Hand

end
-- ==== Proof.RefRun.lean ====
/-
  The reference program as a straight line of host operations, and its run.

  The reference's entry function is a sequence of 339 host operations, each writing one buffer of its own from the
  contents of earlier buffers: the first 54 compute the [100000, 3] activations of the perceptron stage, the other 285
  the propagation over the edges and the final normalisation.  Run from any memory with zero counters, every weakly
  fair execution terminates, and each buffer then holds the fold of the operations' results over the launch contents.
  Since no operation writes an argument's buffer (the written buffers are the 339 result buffers, all distinct from the
  sixteen arguments), each argument is unchanged by the run.  The returned buffer is stated at the fold itself; nothing
  here opens an operation's function.
-/
import proofs.«117862_j74251394613578_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

/-! ## Two lines run one after the other -/

/-- The contents after two lines in turn are the second line's fold over the first's. -/
theorem after_append {τ₀ : Topo} {sig₀ : RefSig} {Val : EltTy → Type} (l₁ l₂ : List (HloOp τ₀ sig₀ Val))
    (V : Valuation τ₀ sig₀ Val) : after (l₁ ++ l₂) V = after l₂ (after l₁ V) := by
  induction l₁ generalizing V with
  | nil => rfl
  | cons op l ih => exact ih (op.result V)

/-- A property of every entry of two lists holds of every entry of their concatenation. -/
theorem forall_append {α : Type*} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

variable {F : FTy → Type} [FloatOps F]

/-- An operation that writes exactly the buffer `y`, a member of the list `W`, writes inside `W`. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff]
  exact List.mem_toFinset.mpr (List.mem_map.mpr ⟨y, hy, rfl⟩)

/-! ## The operations, in program order -/

set_option maxHeartbeats 40000000 in
/-- The first 54 operations: the perceptron stage, up to the [100000, 3] activations. -/
abbrev mlpOps : List (HloOp τ sig (Elt F)) :=
  [ unary main_arg2 main_v0 ((transpose S512x128 [1, 0] · transposes_S128x512_S512x128_1_0) : (⟨S128x512, .f32⟩ : BufTy).Contents (Elt F) → (⟨S512x128, .f32⟩ : BufTy).Contents (Elt F)),
    binary main_arg0 main_v0 main_v1 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S100000x128 ![0, 1] bcast_S1x128_S100000x128_0_1 : (⟨S1x128, .f32⟩ : BufTy).Contents (Elt F) → (⟨S100000x128, .f32⟩ : BufTy).Contents (Elt F)),
    binary main_v1 main_v3 main_v4 (addf : (⟨S100000x128, .f32⟩ : BufTy).Contents (Elt F) → (⟨S100000x128, .f32⟩ : BufTy).Contents (Elt F) → (⟨S100000x128, .f32⟩ : BufTy).Contents (Elt F)),
    unary main_arg6 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v4 main_v6 main_v7 (subf : (⟨S100000x128, .f32⟩ : BufTy).Contents (Elt F) → (⟨S100000x128, .f32⟩ : BufTy).Contents (Elt F) → (⟨S100000x128, .f32⟩ : BufTy).Contents (Elt F)),
    nullary main_cst (constant S_ .f32 0x3727C5AC#32),
    unary main_cst main_v8 (broadcastInDim S128 ![] bcast_S_S128 : (⟨S_, .f32⟩ : BufTy).Contents (Elt F) → (⟨S128, .f32⟩ : BufTy).Contents (Elt F)),
    binary main_arg7 main_v8 main_v9 (addf : (⟨S128, .f32⟩ : BufTy).Contents (Elt F) → (⟨S128, .f32⟩ : BufTy).Contents (Elt F) → (⟨S128, .f32⟩ : BufTy).Contents (Elt F)),
    unary main_v9 main_v10 (Host.rsqrt : (⟨S128, .f32⟩ : BufTy).Contents (Elt F) → (⟨S128, .f32⟩ : BufTy).Contents (Elt F)),
    unary main_v10 main_v11 (broadcastInDim S1x128 ![1] bcast_S128_S1x128_1 : (⟨S128, .f32⟩ : BufTy).Contents (Elt F) → (⟨S1x128, .f32⟩ : BufTy).Contents (Elt F)),
    unary main_v11 main_v12 (broadcastInDim S100000x128 ![0, 1] bcast_S1x128_S100000x128_0_1 : (⟨S1x128, .f32⟩ : BufTy).Contents (Elt F) → (⟨S100000x128, .f32⟩ : BufTy).Contents (Elt F)),
    binary main_v7 main_v12 main_v13 (mulf : (⟨S100000x128, .f32⟩ : BufTy).Contents (Elt F) → (⟨S100000x128, .f32⟩ : BufTy).Contents (Elt F) → (⟨S100000x128, .f32⟩ : BufTy).Contents (Elt F)),
    unary main_arg4 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v13 main_v15 main_v16 (mulf : (⟨S100000x128, .f32⟩ : BufTy).Contents (Elt F) → (⟨S100000x128, .f32⟩ : BufTy).Contents (Elt F) → (⟨S100000x128, .f32⟩ : BufTy).Contents (Elt F)),
    unary main_arg5 main_v17 (broadcastInDim S1x128 ![1] bcast_S128_S1x128_1 : (⟨S128, .f32⟩ : BufTy).Contents (Elt F) → (⟨S1x128, .f32⟩ : BufTy).Contents (Elt F)),
    unary main_v17 main_v18 (broadcastInDim S100000x128 ![0, 1] bcast_S1x128_S100000x128_0_1 : (⟨S1x128, .f32⟩ : BufTy).Contents (Elt F) → (⟨S100000x128, .f32⟩ : BufTy).Contents (Elt F)),
    binary main_v16 main_v18 main_v19 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v19) (TRef.of (T := ⟨S100000x128, .f32⟩) main_call0_v0) (TRef.of (T := ⟨S100000x128, .f32⟩) main_v20) maximumf,
    unary main_arg8 main_v21 ((transpose S128x128 [1, 0] · transposes_S128x128_S128x128_1_0) : (⟨S128x128, .f32⟩ : BufTy).Contents (Elt F) → (⟨S128x128, .f32⟩ : BufTy).Contents (Elt F)),
    binary main_v20 main_v21 main_v22 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v23 (broadcastInDim S1x128 ![1] bcast_S128_S1x128_1 : (⟨S128, .f32⟩ : BufTy).Contents (Elt F) → (⟨S1x128, .f32⟩ : BufTy).Contents (Elt F)),
    unary main_v23 main_v24 (broadcastInDim S100000x128 ![0, 1] bcast_S1x128_S100000x128_0_1 : (⟨S1x128, .f32⟩ : BufTy).Contents (Elt F) → (⟨S100000x128, .f32⟩ : BufTy).Contents (Elt F)),
    binary main_v22 main_v24 main_v25 (addf : (⟨S100000x128, .f32⟩ : BufTy).Contents (Elt F) → (⟨S100000x128, .f32⟩ : BufTy).Contents (Elt F) → (⟨S100000x128, .f32⟩ : BufTy).Contents (Elt F)),
    unary main_arg12 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v25 main_v27 main_v28 (subf : (⟨S100000x128, .f32⟩ : BufTy).Contents (Elt F) → (⟨S100000x128, .f32⟩ : BufTy).Contents (Elt F) → (⟨S100000x128, .f32⟩ : BufTy).Contents (Elt F)),
    nullary main_cst_0 (constant S_ .f32 0x3727C5AC#32),
    unary main_cst_0 main_v29 (broadcastInDim S128 ![] bcast_S_S128 : (⟨S_, .f32⟩ : BufTy).Contents (Elt F) → (⟨S128, .f32⟩ : BufTy).Contents (Elt F)),
    binary main_arg13 main_v29 main_v30 (addf : (⟨S128, .f32⟩ : BufTy).Contents (Elt F) → (⟨S128, .f32⟩ : BufTy).Contents (Elt F) → (⟨S128, .f32⟩ : BufTy).Contents (Elt F)),
    unary main_v30 main_v31 (Host.rsqrt : (⟨S128, .f32⟩ : BufTy).Contents (Elt F) → (⟨S128, .f32⟩ : BufTy).Contents (Elt F)),
    unary main_v31 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v28 main_v33 main_v34 (mulf : (⟨S100000x128, .f32⟩ : BufTy).Contents (Elt F) → (⟨S100000x128, .f32⟩ : BufTy).Contents (Elt F) → (⟨S100000x128, .f32⟩ : BufTy).Contents (Elt F)),
    unary main_arg10 main_v35 (broadcastInDim S1x128 ![1] bcast_S128_S1x128_1 : (⟨S128, .f32⟩ : BufTy).Contents (Elt F) → (⟨S1x128, .f32⟩ : BufTy).Contents (Elt F)),
    unary main_v35 main_v36 (broadcastInDim S100000x128 ![0, 1] bcast_S1x128_S100000x128_0_1 : (⟨S1x128, .f32⟩ : BufTy).Contents (Elt F) → (⟨S100000x128, .f32⟩ : BufTy).Contents (Elt F)),
    binary main_v34 main_v36 main_v37 (mulf : (⟨S100000x128, .f32⟩ : BufTy).Contents (Elt F) → (⟨S100000x128, .f32⟩ : BufTy).Contents (Elt F) → (⟨S100000x128, .f32⟩ : BufTy).Contents (Elt F)),
    unary main_arg11 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v37 main_v39 main_v40 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v40) (TRef.of (T := ⟨S100000x128, .f32⟩) main_call1_v0) (TRef.of (T := ⟨S100000x128, .f32⟩) main_v41) maximumf,
    binary main_v20 main_v41 main_v42 (addf : (⟨S100000x128, .f32⟩ : BufTy).Contents (Elt F) → (⟨S100000x128, .f32⟩ : BufTy).Contents (Elt F) → (⟨S100000x128, .f32⟩ : BufTy).Contents (Elt F)),
    unary main_arg14 main_v43 ((transpose S128x3 [1, 0] · transposes_S3x128_S128x3_1_0) : (⟨S3x128, .f32⟩ : BufTy).Contents (Elt F) → (⟨S128x3, .f32⟩ : BufTy).Contents (Elt F)),
    binary main_v42 main_v43 main_v44 ((fun l r => Host.dotGeneral dot_S100000x128_S128x3_S100000x3_1_0_0_1_n_n none l r) : (⟨S100000x128, .f32⟩ : BufTy).Contents (Elt F) → (⟨S128x3, .f32⟩ : BufTy).Contents (Elt F) → (⟨S100000x3, .f32⟩ : BufTy).Contents (Elt F)),
    unary main_arg15 main_v45 (broadcastInDim S1x3 ![1] bcast_S3_S1x3_1 : (⟨S3, .f32⟩ : BufTy).Contents (Elt F) → (⟨S1x3, .f32⟩ : BufTy).Contents (Elt F)),
    unary main_v45 main_v46 (broadcastInDim S100000x3 ![0, 1] bcast_S1x3_S100000x3_0_1 : (⟨S1x3, .f32⟩ : BufTy).Contents (Elt F) → (⟨S100000x3, .f32⟩ : BufTy).Contents (Elt F)),
    binary main_v44 main_v46 main_v47 (addf : (⟨S100000x3, .f32⟩ : BufTy).Contents (Elt F) → (⟨S100000x3, .f32⟩ : BufTy).Contents (Elt F) → (⟨S100000x3, .f32⟩ : BufTy).Contents (Elt F)) ]

set_option maxHeartbeats 40000000 in
/-- The other 285 operations: the propagation over the edges and the final normalisation (a called function's
    operations stand in its call's place). -/
abbrev tailOps : List (HloOp τ sig (Elt F)) :=
  [ nullary main_v48 (iotaInDim S100000 32 0),
    unary main_arg1 main_v49 ((extractStridedSlice S1x3200000 ![0, 0] · slices_S2x3200000_S1x3200000_0_0) : (⟨S2x3200000, .i32⟩ : BufTy).Contents (Elt F) → (⟨S1x3200000, .i32⟩ : BufTy).Contents (Elt F)),
    reshape main_v49 main_v50 rfl shapeCasts_S1x3200000_S3200000,
    binary main_v50 main_v48 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v52 ((extractStridedSlice S1x3200000 ![1, 0] · slices_S2x3200000_S1x3200000_1_0) : (⟨S2x3200000, .i32⟩ : BufTy).Contents (Elt F) → (⟨S1x3200000, .i32⟩ : BufTy).Contents (Elt F)),
    reshape main_v52 main_v53 rfl shapeCasts_S1x3200000_S3200000,
    binary main_v53 main_v48 main_v54 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_1 (constant S_ .f32 0x3F800000#32),
    unary main_cst_1 main_v55 (broadcastInDim S3300000 ![] bcast_S_S3300000 : (⟨S_, .f32⟩ : BufTy).Contents (Elt F) → (⟨S3300000, .f32⟩ : BufTy).Contents (Elt F)),
    nullary main_cst_2 (constant S_ .f32 0x00000000#32),
    unary main_cst_2 main_v56 (broadcastInDim S100000 ![] bcast_S_S100000 : (⟨S_, .f32⟩ : BufTy).Contents (Elt F) → (⟨S100000, .f32⟩ : BufTy).Contents (Elt F)),
    unary main_v54 main_v57 (broadcastInDim S3300000x1 ![0] bcast_S3300000_S3300000x1_0 : (⟨S3300000, .i32⟩ : BufTy).Contents (Elt F) → (⟨S3300000x1, .i32⟩ : BufTy).Contents (Elt F)),
    ternary main_v56 main_v57 main_v55 main_v58 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_3 (constant S_ .f32 0x00000000#32),
    unary main_cst_3 main_v59 (broadcastInDim S100000 ![] bcast_S_S100000 : (⟨S_, .f32⟩ : BufTy).Contents (Elt F) → (⟨S100000, .f32⟩ : BufTy).Contents (Elt F)),
    binary main_v58 main_v59 main_v60 (cmpf .ogt : (⟨S100000, .f32⟩ : BufTy).Contents (Elt F) → (⟨S100000, .f32⟩ : BufTy).Contents (Elt F) → (⟨S100000, .i1⟩ : BufTy).Contents (Elt F)),
    unary main_v58 main_v61 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v60) (TRef.of (T := ⟨S100000, .f32⟩) main_v61) (TRef.of (T := ⟨S100000, .f32⟩) main_call2_v1) (TRef.of (T := ⟨S100000, .f32⟩) main_v62) select,
    nullary main_c (constantI S_ 32 0#32),
    unary main_c main_v63 (broadcastInDim S3300000 ![] bcast_S_S3300000 : (⟨S_, .i32⟩ : BufTy).Contents (Elt F) → (⟨S3300000, .i32⟩ : BufTy).Contents (Elt F)),
    binary main_v51 main_v63 main_v64 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v65 (broadcastInDim S3300000 ![] bcast_S_S3300000 : (⟨S_, .i32⟩ : BufTy).Contents (Elt F) → (⟨S3300000, .i32⟩ : BufTy).Contents (Elt F)),
    binary main_v51 main_v65 main_v66 (addi : (⟨S3300000, .i32⟩ : BufTy).Contents (Elt F) → (⟨S3300000, .i32⟩ : BufTy).Contents (Elt F) → (⟨S3300000, .i32⟩ : BufTy).Contents (Elt F)),
    ternary main_v64 main_v66 main_v51 main_v67 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v67 main_v68 (broadcastInDim S3300000x1 ![0] bcast_S3300000_S3300000x1_0 : (⟨S3300000, .i32⟩ : BufTy).Contents (Elt F) → (⟨S3300000x1, .i32⟩ : BufTy).Contents (Elt F)),
    binary main_v62 main_v68 main_v69 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_6 (constantI S_ 32 0#32),
    unary main_c_6 main_v70 (broadcastInDim S3300000 ![] bcast_S_S3300000 : (⟨S_, .i32⟩ : BufTy).Contents (Elt F) → (⟨S3300000, .i32⟩ : BufTy).Contents (Elt F)),
    binary main_v54 main_v70 main_v71 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v72 (broadcastInDim S3300000 ![] bcast_S_S3300000 : (⟨S_, .i32⟩ : BufTy).Contents (Elt F) → (⟨S3300000, .i32⟩ : BufTy).Contents (Elt F)),
    binary main_v54 main_v72 main_v73 (addi : (⟨S3300000, .i32⟩ : BufTy).Contents (Elt F) → (⟨S3300000, .i32⟩ : BufTy).Contents (Elt F) → (⟨S3300000, .i32⟩ : BufTy).Contents (Elt F)),
    ternary main_v71 main_v73 main_v54 main_v74 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v74 main_v75 (broadcastInDim S3300000x1 ![0] bcast_S3300000_S3300000x1_0 : (⟨S3300000, .i32⟩ : BufTy).Contents (Elt F) → (⟨S3300000x1, .i32⟩ : BufTy).Contents (Elt F)),
    binary main_v62 main_v75 main_v76 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v69 main_v76 main_v77 (mulf : (⟨S3300000, .f32⟩ : BufTy).Contents (Elt F) → (⟨S3300000, .f32⟩ : BufTy).Contents (Elt F) → (⟨S3300000, .f32⟩ : BufTy).Contents (Elt F)),
    nullary main_c_8 (constantI S_ 32 0#32),
    unary main_c_8 main_v78 (broadcastInDim S3300000 ![] bcast_S_S3300000 : (⟨S_, .i32⟩ : BufTy).Contents (Elt F) → (⟨S3300000, .i32⟩ : BufTy).Contents (Elt F)),
    binary main_v51 main_v78 main_v79 (cmpi .slt : (⟨S3300000, .i32⟩ : BufTy).Contents (Elt F) → (⟨S3300000, .i32⟩ : BufTy).Contents (Elt F) → (⟨S3300000, .i1⟩ : BufTy).Contents (Elt F)),
    nullary main_c_9 (constantI S_ 32 100000#32),
    unary main_c_9 main_v80 (broadcastInDim S3300000 ![] bcast_S_S3300000 : (⟨S_, .i32⟩ : BufTy).Contents (Elt F) → (⟨S3300000, .i32⟩ : BufTy).Contents (Elt F)),
    binary main_v51 main_v80 main_v81 (addi : (⟨S3300000, .i32⟩ : BufTy).Contents (Elt F) → (⟨S3300000, .i32⟩ : BufTy).Contents (Elt F) → (⟨S3300000, .i32⟩ : BufTy).Contents (Elt F)),
    ternary main_v79 main_v81 main_v51 main_v82 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v82 main_v83 (broadcastInDim S3300000x1 ![0] bcast_S3300000_S3300000x1_0 : (⟨S3300000, .i32⟩ : BufTy).Contents (Elt F) → (⟨S3300000x1, .i32⟩ : BufTy).Contents (Elt F)),
    binary main_v47 main_v83 main_v84 ((fun x i => Host.gather gather_S100000x3_S3300000x1_S3300000x3_1_0_n_n_0_1_13 x i) : (⟨S100000x3, .f32⟩ : BufTy).Contents (Elt F) → (⟨S3300000x1, .i32⟩ : BufTy).Contents (Elt F) → (⟨S3300000x3, .f32⟩ : BufTy).Contents (Elt F)),
    unary main_v77 main_v85 (broadcastInDim S3300000x1 ![0] bcast_S3300000_S3300000x1_0 : (⟨S3300000, .f32⟩ : BufTy).Contents (Elt F) → (⟨S3300000x1, .f32⟩ : BufTy).Contents (Elt F)),
    unary main_v85 main_v86 (broadcastInDim S3300000x3 ![0, 1] bcast_S3300000x1_S3300000x3_0_1 : (⟨S3300000x1, .f32⟩ : BufTy).Contents (Elt F) → (⟨S3300000x3, .f32⟩ : BufTy).Contents (Elt F)),
    binary main_v84 main_v86 main_v87 (mulf : (⟨S3300000x3, .f32⟩ : BufTy).Contents (Elt F) → (⟨S3300000x3, .f32⟩ : BufTy).Contents (Elt F) → (⟨S3300000x3, .f32⟩ : BufTy).Contents (Elt F)),
    nullary main_cst_10 (constant S_ .f32 0x00000000#32),
    unary main_cst_10 main_v88 (broadcastInDim S100000x3 ![] bcast_S_S100000x3 : (⟨S_, .f32⟩ : BufTy).Contents (Elt F) → (⟨S100000x3, .f32⟩ : BufTy).Contents (Elt F)),
    unary main_v54 main_v89 (broadcastInDim S3300000x1 ![0] bcast_S3300000_S3300000x1_0 : (⟨S3300000, .i32⟩ : BufTy).Contents (Elt F) → (⟨S3300000x1, .i32⟩ : BufTy).Contents (Elt F)),
    ternary main_v88 main_v89 main_v87 main_v90 ((fun x i u => Host.scatterAdd scatter_S100000x3_S3300000x1_S3300000x3_1_0_0_1 x i u) : (⟨S100000x3, .f32⟩ : BufTy).Contents (Elt F) → (⟨S3300000x1, .i32⟩ : BufTy).Contents (Elt F) → (⟨S3300000x3, .f32⟩ : BufTy).Contents (Elt F) → (⟨S100000x3, .f32⟩ : BufTy).Contents (Elt F)),
    nullary main_cst_11 (constant S_ .f32 0x3F666666#32),
    unary main_cst_11 main_v91 (broadcastInDim S100000x3 ![] bcast_S_S100000x3 : (⟨S_, .f32⟩ : BufTy).Contents (Elt F) → (⟨S100000x3, .f32⟩ : BufTy).Contents (Elt F)),
    binary main_v91 main_v90 main_v92 (mulf : (⟨S100000x3, .f32⟩ : BufTy).Contents (Elt F) → (⟨S100000x3, .f32⟩ : BufTy).Contents (Elt F) → (⟨S100000x3, .f32⟩ : BufTy).Contents (Elt F)),
    nullary main_cst_12 (constant S_ .f32 0x3DCCCCCD#32),
    unary main_cst_12 main_v93 (broadcastInDim S100000x3 ![] bcast_S_S100000x3 : (⟨S_, .f32⟩ : BufTy).Contents (Elt F) → (⟨S100000x3, .f32⟩ : BufTy).Contents (Elt F)),
    binary main_v93 main_v47 main_v94 (mulf : (⟨S100000x3, .f32⟩ : BufTy).Contents (Elt F) → (⟨S100000x3, .f32⟩ : BufTy).Contents (Elt F) → (⟨S100000x3, .f32⟩ : BufTy).Contents (Elt F)),
    binary main_v92 main_v94 main_v95 (addf : (⟨S100000x3, .f32⟩ : BufTy).Contents (Elt F) → (⟨S100000x3, .f32⟩ : BufTy).Contents (Elt F) → (⟨S100000x3, .f32⟩ : BufTy).Contents (Elt F)),
    nullary main_c_13 (constantI S_ 32 0#32),
    unary main_c_13 main_v96 (broadcastInDim S3300000 ![] bcast_S_S3300000 : (⟨S_, .i32⟩ : BufTy).Contents (Elt F) → (⟨S3300000, .i32⟩ : BufTy).Contents (Elt F)),
    binary main_v51 main_v96 main_v97 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v98 (broadcastInDim S3300000 ![] bcast_S_S3300000 : (⟨S_, .i32⟩ : BufTy).Contents (Elt F) → (⟨S3300000, .i32⟩ : BufTy).Contents (Elt F)),
    binary main_v51 main_v98 main_v99 (addi : (⟨S3300000, .i32⟩ : BufTy).Contents (Elt F) → (⟨S3300000, .i32⟩ : BufTy).Contents (Elt F) → (⟨S3300000, .i32⟩ : BufTy).Contents (Elt F)),
    ternary main_v97 main_v99 main_v51 main_v100 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v100 main_v101 (broadcastInDim S3300000x1 ![0] bcast_S3300000_S3300000x1_0 : (⟨S3300000, .i32⟩ : BufTy).Contents (Elt F) → (⟨S3300000x1, .i32⟩ : BufTy).Contents (Elt F)),
    binary main_v95 main_v101 main_v102 ((fun x i => Host.gather gather_S100000x3_S3300000x1_S3300000x3_1_0_n_n_0_1_13 x i) : (⟨S100000x3, .f32⟩ : BufTy).Contents (Elt F) → (⟨S3300000x1, .i32⟩ : BufTy).Contents (Elt F) → (⟨S3300000x3, .f32⟩ : BufTy).Contents (Elt F)),
    unary main_v77 main_v103 (broadcastInDim S3300000x1 ![0] bcast_S3300000_S3300000x1_0 : (⟨S3300000, .f32⟩ : BufTy).Contents (Elt F) → (⟨S3300000x1, .f32⟩ : BufTy).Contents (Elt F)),
    unary main_v103 main_v104 (broadcastInDim S3300000x3 ![0, 1] bcast_S3300000x1_S3300000x3_0_1 : (⟨S3300000x1, .f32⟩ : BufTy).Contents (Elt F) → (⟨S3300000x3, .f32⟩ : BufTy).Contents (Elt F)),
    binary main_v102 main_v104 main_v105 (mulf : (⟨S3300000x3, .f32⟩ : BufTy).Contents (Elt F) → (⟨S3300000x3, .f32⟩ : BufTy).Contents (Elt F) → (⟨S3300000x3, .f32⟩ : BufTy).Contents (Elt F)),
    nullary main_cst_15 (constant S_ .f32 0x00000000#32),
    unary main_cst_15 main_v106 (broadcastInDim S100000x3 ![] bcast_S_S100000x3 : (⟨S_, .f32⟩ : BufTy).Contents (Elt F) → (⟨S100000x3, .f32⟩ : BufTy).Contents (Elt F)),
    unary main_v54 main_v107 (broadcastInDim S3300000x1 ![0] bcast_S3300000_S3300000x1_0 : (⟨S3300000, .i32⟩ : BufTy).Contents (Elt F) → (⟨S3300000x1, .i32⟩ : BufTy).Contents (Elt F)),
    ternary main_v106 main_v107 main_v105 main_v108 ((fun x i u => Host.scatterAdd scatter_S100000x3_S3300000x1_S3300000x3_1_0_0_1 x i u) : (⟨S100000x3, .f32⟩ : BufTy).Contents (Elt F) → (⟨S3300000x1, .i32⟩ : BufTy).Contents (Elt F) → (⟨S3300000x3, .f32⟩ : BufTy).Contents (Elt F) → (⟨S100000x3, .f32⟩ : BufTy).Contents (Elt F)),
    nullary main_cst_16 (constant S_ .f32 0x3F666666#32),
    unary main_cst_16 main_v109 (broadcastInDim S100000x3 ![] bcast_S_S100000x3 : (⟨S_, .f32⟩ : BufTy).Contents (Elt F) → (⟨S100000x3, .f32⟩ : BufTy).Contents (Elt F)),
    binary main_v109 main_v108 main_v110 (mulf : (⟨S100000x3, .f32⟩ : BufTy).Contents (Elt F) → (⟨S100000x3, .f32⟩ : BufTy).Contents (Elt F) → (⟨S100000x3, .f32⟩ : BufTy).Contents (Elt F)),
    nullary main_cst_17 (constant S_ .f32 0x3DCCCCCD#32),
    unary main_cst_17 main_v111 (broadcastInDim S100000x3 ![] bcast_S_S100000x3 : (⟨S_, .f32⟩ : BufTy).Contents (Elt F) → (⟨S100000x3, .f32⟩ : BufTy).Contents (Elt F)),
    binary main_v111 main_v47 main_v112 (mulf : (⟨S100000x3, .f32⟩ : BufTy).Contents (Elt F) → (⟨S100000x3, .f32⟩ : BufTy).Contents (Elt F) → (⟨S100000x3, .f32⟩ : BufTy).Contents (Elt F)),
    binary main_v110 main_v112 main_v113 (addf : (⟨S100000x3, .f32⟩ : BufTy).Contents (Elt F) → (⟨S100000x3, .f32⟩ : BufTy).Contents (Elt F) → (⟨S100000x3, .f32⟩ : BufTy).Contents (Elt F)),
    nullary main_c_18 (constantI S_ 32 0#32),
    unary main_c_18 main_v114 (broadcastInDim S3300000 ![] bcast_S_S3300000 : (⟨S_, .i32⟩ : BufTy).Contents (Elt F) → (⟨S3300000, .i32⟩ : BufTy).Contents (Elt F)),
    binary main_v51 main_v114 main_v115 (cmpi .slt : (⟨S3300000, .i32⟩ : BufTy).Contents (Elt F) → (⟨S3300000, .i32⟩ : BufTy).Contents (Elt F) → (⟨S3300000, .i1⟩ : BufTy).Contents (Elt F)),
    nullary main_c_19 (constantI S_ 32 100000#32),
    unary main_c_19 main_v116 (broadcastInDim S3300000 ![] bcast_S_S3300000 : (⟨S_, .i32⟩ : BufTy).Contents (Elt F) → (⟨S3300000, .i32⟩ : BufTy).Contents (Elt F)),
    binary main_v51 main_v116 main_v117 (addi : (⟨S3300000, .i32⟩ : BufTy).Contents (Elt F) → (⟨S3300000, .i32⟩ : BufTy).Contents (Elt F) → (⟨S3300000, .i32⟩ : BufTy).Contents (Elt F)),
    ternary main_v115 main_v117 main_v51 main_v118 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v118 main_v119 (broadcastInDim S3300000x1 ![0] bcast_S3300000_S3300000x1_0 : (⟨S3300000, .i32⟩ : BufTy).Contents (Elt F) → (⟨S3300000x1, .i32⟩ : BufTy).Contents (Elt F)),
    binary main_v113 main_v119 main_v120 ((fun x i => Host.gather gather_S100000x3_S3300000x1_S3300000x3_1_0_n_n_0_1_13 x i) : (⟨S100000x3, .f32⟩ : BufTy).Contents (Elt F) → (⟨S3300000x1, .i32⟩ : BufTy).Contents (Elt F) → (⟨S3300000x3, .f32⟩ : BufTy).Contents (Elt F)),
    unary main_v77 main_v121 (broadcastInDim S3300000x1 ![0] bcast_S3300000_S3300000x1_0 : (⟨S3300000, .f32⟩ : BufTy).Contents (Elt F) → (⟨S3300000x1, .f32⟩ : BufTy).Contents (Elt F)),
    unary main_v121 main_v122 (broadcastInDim S3300000x3 ![0, 1] bcast_S3300000x1_S3300000x3_0_1 : (⟨S3300000x1, .f32⟩ : BufTy).Contents (Elt F) → (⟨S3300000x3, .f32⟩ : BufTy).Contents (Elt F)),
    binary main_v120 main_v122 main_v123 (mulf : (⟨S3300000x3, .f32⟩ : BufTy).Contents (Elt F) → (⟨S3300000x3, .f32⟩ : BufTy).Contents (Elt F) → (⟨S3300000x3, .f32⟩ : BufTy).Contents (Elt F)),
    nullary main_cst_20 (constant S_ .f32 0x00000000#32),
    unary main_cst_20 main_v124 (broadcastInDim S100000x3 ![] bcast_S_S100000x3 : (⟨S_, .f32⟩ : BufTy).Contents (Elt F) → (⟨S100000x3, .f32⟩ : BufTy).Contents (Elt F)),
    unary main_v54 main_v125 (broadcastInDim S3300000x1 ![0] bcast_S3300000_S3300000x1_0 : (⟨S3300000, .i32⟩ : BufTy).Contents (Elt F) → (⟨S3300000x1, .i32⟩ : BufTy).Contents (Elt F)),
    ternary main_v124 main_v125 main_v123 main_v126 ((fun x i u => Host.scatterAdd scatter_S100000x3_S3300000x1_S3300000x3_1_0_0_1 x i u) : (⟨S100000x3, .f32⟩ : BufTy).Contents (Elt F) → (⟨S3300000x1, .i32⟩ : BufTy).Contents (Elt F) → (⟨S3300000x3, .f32⟩ : BufTy).Contents (Elt F) → (⟨S100000x3, .f32⟩ : BufTy).Contents (Elt F)),
    nullary main_cst_21 (constant S_ .f32 0x3F666666#32),
    unary main_cst_21 main_v127 (broadcastInDim S100000x3 ![] bcast_S_S100000x3 : (⟨S_, .f32⟩ : BufTy).Contents (Elt F) → (⟨S100000x3, .f32⟩ : BufTy).Contents (Elt F)),
    binary main_v127 main_v126 main_v128 (mulf : (⟨S100000x3, .f32⟩ : BufTy).Contents (Elt F) → (⟨S100000x3, .f32⟩ : BufTy).Contents (Elt F) → (⟨S100000x3, .f32⟩ : BufTy).Contents (Elt F)),
    nullary main_cst_22 (constant S_ .f32 0x3DCCCCCD#32),
    unary main_cst_22 main_v129 (broadcastInDim S100000x3 ![] bcast_S_S100000x3 : (⟨S_, .f32⟩ : BufTy).Contents (Elt F) → (⟨S100000x3, .f32⟩ : BufTy).Contents (Elt F)),
    binary main_v129 main_v47 main_v130 (mulf : (⟨S100000x3, .f32⟩ : BufTy).Contents (Elt F) → (⟨S100000x3, .f32⟩ : BufTy).Contents (Elt F) → (⟨S100000x3, .f32⟩ : BufTy).Contents (Elt F)),
    binary main_v128 main_v130 main_v131 (addf : (⟨S100000x3, .f32⟩ : BufTy).Contents (Elt F) → (⟨S100000x3, .f32⟩ : BufTy).Contents (Elt F) → (⟨S100000x3, .f32⟩ : BufTy).Contents (Elt F)),
    nullary main_c_23 (constantI S_ 32 0#32),
    unary main_c_23 main_v132 (broadcastInDim S3300000 ![] bcast_S_S3300000 : (⟨S_, .i32⟩ : BufTy).Contents (Elt F) → (⟨S3300000, .i32⟩ : BufTy).Contents (Elt F)),
    binary main_v51 main_v132 main_v133 (cmpi .slt : (⟨S3300000, .i32⟩ : BufTy).Contents (Elt F) → (⟨S3300000, .i32⟩ : BufTy).Contents (Elt F) → (⟨S3300000, .i1⟩ : BufTy).Contents (Elt F)),
    nullary main_c_24 (constantI S_ 32 100000#32),
    unary main_c_24 main_v134 (broadcastInDim S3300000 ![] bcast_S_S3300000 : (⟨S_, .i32⟩ : BufTy).Contents (Elt F) → (⟨S3300000, .i32⟩ : BufTy).Contents (Elt F)),
    binary main_v51 main_v134 main_v135 (addi : (⟨S3300000, .i32⟩ : BufTy).Contents (Elt F) → (⟨S3300000, .i32⟩ : BufTy).Contents (Elt F) → (⟨S3300000, .i32⟩ : BufTy).Contents (Elt F)),
    ternary main_v133 main_v135 main_v51 main_v136 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v136 main_v137 (broadcastInDim S3300000x1 ![0] bcast_S3300000_S3300000x1_0 : (⟨S3300000, .i32⟩ : BufTy).Contents (Elt F) → (⟨S3300000x1, .i32⟩ : BufTy).Contents (Elt F)),
    binary main_v131 main_v137 main_v138 ((fun x i => Host.gather gather_S100000x3_S3300000x1_S3300000x3_1_0_n_n_0_1_13 x i) : (⟨S100000x3, .f32⟩ : BufTy).Contents (Elt F) → (⟨S3300000x1, .i32⟩ : BufTy).Contents (Elt F) → (⟨S3300000x3, .f32⟩ : BufTy).Contents (Elt F)),
    unary main_v77 main_v139 (broadcastInDim S3300000x1 ![0] bcast_S3300000_S3300000x1_0 : (⟨S3300000, .f32⟩ : BufTy).Contents (Elt F) → (⟨S3300000x1, .f32⟩ : BufTy).Contents (Elt F)),
    unary main_v139 main_v140 (broadcastInDim S3300000x3 ![0, 1] bcast_S3300000x1_S3300000x3_0_1 : (⟨S3300000x1, .f32⟩ : BufTy).Contents (Elt F) → (⟨S3300000x3, .f32⟩ : BufTy).Contents (Elt F)),
    binary main_v138 main_v140 main_v141 (mulf : (⟨S3300000x3, .f32⟩ : BufTy).Contents (Elt F) → (⟨S3300000x3, .f32⟩ : BufTy).Contents (Elt F) → (⟨S3300000x3, .f32⟩ : BufTy).Contents (Elt F)),
    nullary main_cst_25 (constant S_ .f32 0x00000000#32),
    unary main_cst_25 main_v142 (broadcastInDim S100000x3 ![] bcast_S_S100000x3 : (⟨S_, .f32⟩ : BufTy).Contents (Elt F) → (⟨S100000x3, .f32⟩ : BufTy).Contents (Elt F)),
    unary main_v54 main_v143 (broadcastInDim S3300000x1 ![0] bcast_S3300000_S3300000x1_0 : (⟨S3300000, .i32⟩ : BufTy).Contents (Elt F) → (⟨S3300000x1, .i32⟩ : BufTy).Contents (Elt F)),
    ternary main_v142 main_v143 main_v141 main_v144 ((fun x i u => Host.scatterAdd scatter_S100000x3_S3300000x1_S3300000x3_1_0_0_1 x i u) : (⟨S100000x3, .f32⟩ : BufTy).Contents (Elt F) → (⟨S3300000x1, .i32⟩ : BufTy).Contents (Elt F) → (⟨S3300000x3, .f32⟩ : BufTy).Contents (Elt F) → (⟨S100000x3, .f32⟩ : BufTy).Contents (Elt F)),
    nullary main_cst_26 (constant S_ .f32 0x3F666666#32),
    unary main_cst_26 main_v145 (broadcastInDim S100000x3 ![] bcast_S_S100000x3 : (⟨S_, .f32⟩ : BufTy).Contents (Elt F) → (⟨S100000x3, .f32⟩ : BufTy).Contents (Elt F)),
    binary main_v145 main_v144 main_v146 (mulf : (⟨S100000x3, .f32⟩ : BufTy).Contents (Elt F) → (⟨S100000x3, .f32⟩ : BufTy).Contents (Elt F) → (⟨S100000x3, .f32⟩ : BufTy).Contents (Elt F)),
    nullary main_cst_27 (constant S_ .f32 0x3DCCCCCD#32),
    unary main_cst_27 main_v147 (broadcastInDim S100000x3 ![] bcast_S_S100000x3 : (⟨S_, .f32⟩ : BufTy).Contents (Elt F) → (⟨S100000x3, .f32⟩ : BufTy).Contents (Elt F)),
    binary main_v147 main_v47 main_v148 (mulf : (⟨S100000x3, .f32⟩ : BufTy).Contents (Elt F) → (⟨S100000x3, .f32⟩ : BufTy).Contents (Elt F) → (⟨S100000x3, .f32⟩ : BufTy).Contents (Elt F)),
    binary main_v146 main_v148 main_v149 (addf : (⟨S100000x3, .f32⟩ : BufTy).Contents (Elt F) → (⟨S100000x3, .f32⟩ : BufTy).Contents (Elt F) → (⟨S100000x3, .f32⟩ : BufTy).Contents (Elt F)),
    nullary main_c_28 (constantI S_ 32 0#32),
    unary main_c_28 main_v150 (broadcastInDim S3300000 ![] bcast_S_S3300000 : (⟨S_, .i32⟩ : BufTy).Contents (Elt F) → (⟨S3300000, .i32⟩ : BufTy).Contents (Elt F)),
    binary main_v51 main_v150 main_v151 (cmpi .slt : (⟨S3300000, .i32⟩ : BufTy).Contents (Elt F) → (⟨S3300000, .i32⟩ : BufTy).Contents (Elt F) → (⟨S3300000, .i1⟩ : BufTy).Contents (Elt F)),
    nullary main_c_29 (constantI S_ 32 100000#32),
    unary main_c_29 main_v152 (broadcastInDim S3300000 ![] bcast_S_S3300000 : (⟨S_, .i32⟩ : BufTy).Contents (Elt F) → (⟨S3300000, .i32⟩ : BufTy).Contents (Elt F)),
    binary main_v51 main_v152 main_v153 (addi : (⟨S3300000, .i32⟩ : BufTy).Contents (Elt F) → (⟨S3300000, .i32⟩ : BufTy).Contents (Elt F) → (⟨S3300000, .i32⟩ : BufTy).Contents (Elt F)),
    ternary main_v151 main_v153 main_v51 main_v154 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v154 main_v155 (broadcastInDim S3300000x1 ![0] bcast_S3300000_S3300000x1_0 : (⟨S3300000, .i32⟩ : BufTy).Contents (Elt F) → (⟨S3300000x1, .i32⟩ : BufTy).Contents (Elt F)),
    binary main_v149 main_v155 main_v156 ((fun x i => Host.gather gather_S100000x3_S3300000x1_S3300000x3_1_0_n_n_0_1_13 x i) : (⟨S100000x3, .f32⟩ : BufTy).Contents (Elt F) → (⟨S3300000x1, .i32⟩ : BufTy).Contents (Elt F) → (⟨S3300000x3, .f32⟩ : BufTy).Contents (Elt F)),
    unary main_v77 main_v157 (broadcastInDim S3300000x1 ![0] bcast_S3300000_S3300000x1_0 : (⟨S3300000, .f32⟩ : BufTy).Contents (Elt F) → (⟨S3300000x1, .f32⟩ : BufTy).Contents (Elt F)),
    unary main_v157 main_v158 (broadcastInDim S3300000x3 ![0, 1] bcast_S3300000x1_S3300000x3_0_1 : (⟨S3300000x1, .f32⟩ : BufTy).Contents (Elt F) → (⟨S3300000x3, .f32⟩ : BufTy).Contents (Elt F)),
    binary main_v156 main_v158 main_v159 (mulf : (⟨S3300000x3, .f32⟩ : BufTy).Contents (Elt F) → (⟨S3300000x3, .f32⟩ : BufTy).Contents (Elt F) → (⟨S3300000x3, .f32⟩ : BufTy).Contents (Elt F)),
    nullary main_cst_30 (constant S_ .f32 0x00000000#32),
    unary main_cst_30 main_v160 (broadcastInDim S100000x3 ![] bcast_S_S100000x3 : (⟨S_, .f32⟩ : BufTy).Contents (Elt F) → (⟨S100000x3, .f32⟩ : BufTy).Contents (Elt F)),
    unary main_v54 main_v161 (broadcastInDim S3300000x1 ![0] bcast_S3300000_S3300000x1_0 : (⟨S3300000, .i32⟩ : BufTy).Contents (Elt F) → (⟨S3300000x1, .i32⟩ : BufTy).Contents (Elt F)),
    ternary main_v160 main_v161 main_v159 main_v162 ((fun x i u => Host.scatterAdd scatter_S100000x3_S3300000x1_S3300000x3_1_0_0_1 x i u) : (⟨S100000x3, .f32⟩ : BufTy).Contents (Elt F) → (⟨S3300000x1, .i32⟩ : BufTy).Contents (Elt F) → (⟨S3300000x3, .f32⟩ : BufTy).Contents (Elt F) → (⟨S100000x3, .f32⟩ : BufTy).Contents (Elt F)),
    nullary main_cst_31 (constant S_ .f32 0x3F666666#32),
    unary main_cst_31 main_v163 (broadcastInDim S100000x3 ![] bcast_S_S100000x3 : (⟨S_, .f32⟩ : BufTy).Contents (Elt F) → (⟨S100000x3, .f32⟩ : BufTy).Contents (Elt F)),
    binary main_v163 main_v162 main_v164 (mulf : (⟨S100000x3, .f32⟩ : BufTy).Contents (Elt F) → (⟨S100000x3, .f32⟩ : BufTy).Contents (Elt F) → (⟨S100000x3, .f32⟩ : BufTy).Contents (Elt F)),
    nullary main_cst_32 (constant S_ .f32 0x3DCCCCCD#32),
    unary main_cst_32 main_v165 (broadcastInDim S100000x3 ![] bcast_S_S100000x3 : (⟨S_, .f32⟩ : BufTy).Contents (Elt F) → (⟨S100000x3, .f32⟩ : BufTy).Contents (Elt F)),
    binary main_v165 main_v47 main_v166 (mulf : (⟨S100000x3, .f32⟩ : BufTy).Contents (Elt F) → (⟨S100000x3, .f32⟩ : BufTy).Contents (Elt F) → (⟨S100000x3, .f32⟩ : BufTy).Contents (Elt F)),
    binary main_v164 main_v166 main_v167 (addf : (⟨S100000x3, .f32⟩ : BufTy).Contents (Elt F) → (⟨S100000x3, .f32⟩ : BufTy).Contents (Elt F) → (⟨S100000x3, .f32⟩ : BufTy).Contents (Elt F)),
    nullary main_c_33 (constantI S_ 32 0#32),
    unary main_c_33 main_v168 (broadcastInDim S3300000 ![] bcast_S_S3300000 : (⟨S_, .i32⟩ : BufTy).Contents (Elt F) → (⟨S3300000, .i32⟩ : BufTy).Contents (Elt F)),
    binary main_v51 main_v168 main_v169 (cmpi .slt : (⟨S3300000, .i32⟩ : BufTy).Contents (Elt F) → (⟨S3300000, .i32⟩ : BufTy).Contents (Elt F) → (⟨S3300000, .i1⟩ : BufTy).Contents (Elt F)),
    nullary main_c_34 (constantI S_ 32 100000#32),
    unary main_c_34 main_v170 (broadcastInDim S3300000 ![] bcast_S_S3300000 : (⟨S_, .i32⟩ : BufTy).Contents (Elt F) → (⟨S3300000, .i32⟩ : BufTy).Contents (Elt F)),
    binary main_v51 main_v170 main_v171 (addi : (⟨S3300000, .i32⟩ : BufTy).Contents (Elt F) → (⟨S3300000, .i32⟩ : BufTy).Contents (Elt F) → (⟨S3300000, .i32⟩ : BufTy).Contents (Elt F)),
    ternary main_v169 main_v171 main_v51 main_v172 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v172 main_v173 (broadcastInDim S3300000x1 ![0] bcast_S3300000_S3300000x1_0 : (⟨S3300000, .i32⟩ : BufTy).Contents (Elt F) → (⟨S3300000x1, .i32⟩ : BufTy).Contents (Elt F)),
    binary main_v167 main_v173 main_v174 ((fun x i => Host.gather gather_S100000x3_S3300000x1_S3300000x3_1_0_n_n_0_1_13 x i) : (⟨S100000x3, .f32⟩ : BufTy).Contents (Elt F) → (⟨S3300000x1, .i32⟩ : BufTy).Contents (Elt F) → (⟨S3300000x3, .f32⟩ : BufTy).Contents (Elt F)),
    unary main_v77 main_v175 (broadcastInDim S3300000x1 ![0] bcast_S3300000_S3300000x1_0 : (⟨S3300000, .f32⟩ : BufTy).Contents (Elt F) → (⟨S3300000x1, .f32⟩ : BufTy).Contents (Elt F)),
    unary main_v175 main_v176 (broadcastInDim S3300000x3 ![0, 1] bcast_S3300000x1_S3300000x3_0_1 : (⟨S3300000x1, .f32⟩ : BufTy).Contents (Elt F) → (⟨S3300000x3, .f32⟩ : BufTy).Contents (Elt F)),
    binary main_v174 main_v176 main_v177 (mulf : (⟨S3300000x3, .f32⟩ : BufTy).Contents (Elt F) → (⟨S3300000x3, .f32⟩ : BufTy).Contents (Elt F) → (⟨S3300000x3, .f32⟩ : BufTy).Contents (Elt F)),
    nullary main_cst_35 (constant S_ .f32 0x00000000#32),
    unary main_cst_35 main_v178 (broadcastInDim S100000x3 ![] bcast_S_S100000x3 : (⟨S_, .f32⟩ : BufTy).Contents (Elt F) → (⟨S100000x3, .f32⟩ : BufTy).Contents (Elt F)),
    unary main_v54 main_v179 (broadcastInDim S3300000x1 ![0] bcast_S3300000_S3300000x1_0 : (⟨S3300000, .i32⟩ : BufTy).Contents (Elt F) → (⟨S3300000x1, .i32⟩ : BufTy).Contents (Elt F)),
    ternary main_v178 main_v179 main_v177 main_v180 ((fun x i u => Host.scatterAdd scatter_S100000x3_S3300000x1_S3300000x3_1_0_0_1 x i u) : (⟨S100000x3, .f32⟩ : BufTy).Contents (Elt F) → (⟨S3300000x1, .i32⟩ : BufTy).Contents (Elt F) → (⟨S3300000x3, .f32⟩ : BufTy).Contents (Elt F) → (⟨S100000x3, .f32⟩ : BufTy).Contents (Elt F)),
    nullary main_cst_36 (constant S_ .f32 0x3F666666#32),
    unary main_cst_36 main_v181 (broadcastInDim S100000x3 ![] bcast_S_S100000x3 : (⟨S_, .f32⟩ : BufTy).Contents (Elt F) → (⟨S100000x3, .f32⟩ : BufTy).Contents (Elt F)),
    binary main_v181 main_v180 main_v182 (mulf : (⟨S100000x3, .f32⟩ : BufTy).Contents (Elt F) → (⟨S100000x3, .f32⟩ : BufTy).Contents (Elt F) → (⟨S100000x3, .f32⟩ : BufTy).Contents (Elt F)),
    nullary main_cst_37 (constant S_ .f32 0x3DCCCCCD#32),
    unary main_cst_37 main_v183 (broadcastInDim S100000x3 ![] bcast_S_S100000x3 : (⟨S_, .f32⟩ : BufTy).Contents (Elt F) → (⟨S100000x3, .f32⟩ : BufTy).Contents (Elt F)),
    binary main_v183 main_v47 main_v184 (mulf : (⟨S100000x3, .f32⟩ : BufTy).Contents (Elt F) → (⟨S100000x3, .f32⟩ : BufTy).Contents (Elt F) → (⟨S100000x3, .f32⟩ : BufTy).Contents (Elt F)),
    binary main_v182 main_v184 main_v185 (addf : (⟨S100000x3, .f32⟩ : BufTy).Contents (Elt F) → (⟨S100000x3, .f32⟩ : BufTy).Contents (Elt F) → (⟨S100000x3, .f32⟩ : BufTy).Contents (Elt F)),
    nullary main_c_38 (constantI S_ 32 0#32),
    unary main_c_38 main_v186 (broadcastInDim S3300000 ![] bcast_S_S3300000 : (⟨S_, .i32⟩ : BufTy).Contents (Elt F) → (⟨S3300000, .i32⟩ : BufTy).Contents (Elt F)),
    binary main_v51 main_v186 main_v187 (cmpi .slt : (⟨S3300000, .i32⟩ : BufTy).Contents (Elt F) → (⟨S3300000, .i32⟩ : BufTy).Contents (Elt F) → (⟨S3300000, .i1⟩ : BufTy).Contents (Elt F)),
    nullary main_c_39 (constantI S_ 32 100000#32),
    unary main_c_39 main_v188 (broadcastInDim S3300000 ![] bcast_S_S3300000 : (⟨S_, .i32⟩ : BufTy).Contents (Elt F) → (⟨S3300000, .i32⟩ : BufTy).Contents (Elt F)),
    binary main_v51 main_v188 main_v189 (addi : (⟨S3300000, .i32⟩ : BufTy).Contents (Elt F) → (⟨S3300000, .i32⟩ : BufTy).Contents (Elt F) → (⟨S3300000, .i32⟩ : BufTy).Contents (Elt F)),
    ternary main_v187 main_v189 main_v51 main_v190 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v190 main_v191 (broadcastInDim S3300000x1 ![0] bcast_S3300000_S3300000x1_0 : (⟨S3300000, .i32⟩ : BufTy).Contents (Elt F) → (⟨S3300000x1, .i32⟩ : BufTy).Contents (Elt F)),
    binary main_v185 main_v191 main_v192 ((fun x i => Host.gather gather_S100000x3_S3300000x1_S3300000x3_1_0_n_n_0_1_13 x i) : (⟨S100000x3, .f32⟩ : BufTy).Contents (Elt F) → (⟨S3300000x1, .i32⟩ : BufTy).Contents (Elt F) → (⟨S3300000x3, .f32⟩ : BufTy).Contents (Elt F)),
    unary main_v77 main_v193 (broadcastInDim S3300000x1 ![0] bcast_S3300000_S3300000x1_0 : (⟨S3300000, .f32⟩ : BufTy).Contents (Elt F) → (⟨S3300000x1, .f32⟩ : BufTy).Contents (Elt F)),
    unary main_v193 main_v194 (broadcastInDim S3300000x3 ![0, 1] bcast_S3300000x1_S3300000x3_0_1 : (⟨S3300000x1, .f32⟩ : BufTy).Contents (Elt F) → (⟨S3300000x3, .f32⟩ : BufTy).Contents (Elt F)),
    binary main_v192 main_v194 main_v195 (mulf : (⟨S3300000x3, .f32⟩ : BufTy).Contents (Elt F) → (⟨S3300000x3, .f32⟩ : BufTy).Contents (Elt F) → (⟨S3300000x3, .f32⟩ : BufTy).Contents (Elt F)),
    nullary main_cst_40 (constant S_ .f32 0x00000000#32),
    unary main_cst_40 main_v196 (broadcastInDim S100000x3 ![] bcast_S_S100000x3 : (⟨S_, .f32⟩ : BufTy).Contents (Elt F) → (⟨S100000x3, .f32⟩ : BufTy).Contents (Elt F)),
    unary main_v54 main_v197 (broadcastInDim S3300000x1 ![0] bcast_S3300000_S3300000x1_0 : (⟨S3300000, .i32⟩ : BufTy).Contents (Elt F) → (⟨S3300000x1, .i32⟩ : BufTy).Contents (Elt F)),
    ternary main_v196 main_v197 main_v195 main_v198 ((fun x i u => Host.scatterAdd scatter_S100000x3_S3300000x1_S3300000x3_1_0_0_1 x i u) : (⟨S100000x3, .f32⟩ : BufTy).Contents (Elt F) → (⟨S3300000x1, .i32⟩ : BufTy).Contents (Elt F) → (⟨S3300000x3, .f32⟩ : BufTy).Contents (Elt F) → (⟨S100000x3, .f32⟩ : BufTy).Contents (Elt F)),
    nullary main_cst_41 (constant S_ .f32 0x3F666666#32),
    unary main_cst_41 main_v199 (broadcastInDim S100000x3 ![] bcast_S_S100000x3 : (⟨S_, .f32⟩ : BufTy).Contents (Elt F) → (⟨S100000x3, .f32⟩ : BufTy).Contents (Elt F)),
    binary main_v199 main_v198 main_v200 (mulf : (⟨S100000x3, .f32⟩ : BufTy).Contents (Elt F) → (⟨S100000x3, .f32⟩ : BufTy).Contents (Elt F) → (⟨S100000x3, .f32⟩ : BufTy).Contents (Elt F)),
    nullary main_cst_42 (constant S_ .f32 0x3DCCCCCD#32),
    unary main_cst_42 main_v201 (broadcastInDim S100000x3 ![] bcast_S_S100000x3 : (⟨S_, .f32⟩ : BufTy).Contents (Elt F) → (⟨S100000x3, .f32⟩ : BufTy).Contents (Elt F)),
    binary main_v201 main_v47 main_v202 (mulf : (⟨S100000x3, .f32⟩ : BufTy).Contents (Elt F) → (⟨S100000x3, .f32⟩ : BufTy).Contents (Elt F) → (⟨S100000x3, .f32⟩ : BufTy).Contents (Elt F)),
    binary main_v200 main_v202 main_v203 (addf : (⟨S100000x3, .f32⟩ : BufTy).Contents (Elt F) → (⟨S100000x3, .f32⟩ : BufTy).Contents (Elt F) → (⟨S100000x3, .f32⟩ : BufTy).Contents (Elt F)),
    nullary main_c_43 (constantI S_ 32 0#32),
    unary main_c_43 main_v204 (broadcastInDim S3300000 ![] bcast_S_S3300000 : (⟨S_, .i32⟩ : BufTy).Contents (Elt F) → (⟨S3300000, .i32⟩ : BufTy).Contents (Elt F)),
    binary main_v51 main_v204 main_v205 (cmpi .slt : (⟨S3300000, .i32⟩ : BufTy).Contents (Elt F) → (⟨S3300000, .i32⟩ : BufTy).Contents (Elt F) → (⟨S3300000, .i1⟩ : BufTy).Contents (Elt F)),
    nullary main_c_44 (constantI S_ 32 100000#32),
    unary main_c_44 main_v206 (broadcastInDim S3300000 ![] bcast_S_S3300000 : (⟨S_, .i32⟩ : BufTy).Contents (Elt F) → (⟨S3300000, .i32⟩ : BufTy).Contents (Elt F)),
    binary main_v51 main_v206 main_v207 (addi : (⟨S3300000, .i32⟩ : BufTy).Contents (Elt F) → (⟨S3300000, .i32⟩ : BufTy).Contents (Elt F) → (⟨S3300000, .i32⟩ : BufTy).Contents (Elt F)),
    ternary main_v205 main_v207 main_v51 main_v208 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v208 main_v209 (broadcastInDim S3300000x1 ![0] bcast_S3300000_S3300000x1_0 : (⟨S3300000, .i32⟩ : BufTy).Contents (Elt F) → (⟨S3300000x1, .i32⟩ : BufTy).Contents (Elt F)),
    binary main_v203 main_v209 main_v210 ((fun x i => Host.gather gather_S100000x3_S3300000x1_S3300000x3_1_0_n_n_0_1_13 x i) : (⟨S100000x3, .f32⟩ : BufTy).Contents (Elt F) → (⟨S3300000x1, .i32⟩ : BufTy).Contents (Elt F) → (⟨S3300000x3, .f32⟩ : BufTy).Contents (Elt F)),
    unary main_v77 main_v211 (broadcastInDim S3300000x1 ![0] bcast_S3300000_S3300000x1_0 : (⟨S3300000, .f32⟩ : BufTy).Contents (Elt F) → (⟨S3300000x1, .f32⟩ : BufTy).Contents (Elt F)),
    unary main_v211 main_v212 (broadcastInDim S3300000x3 ![0, 1] bcast_S3300000x1_S3300000x3_0_1 : (⟨S3300000x1, .f32⟩ : BufTy).Contents (Elt F) → (⟨S3300000x3, .f32⟩ : BufTy).Contents (Elt F)),
    binary main_v210 main_v212 main_v213 (mulf : (⟨S3300000x3, .f32⟩ : BufTy).Contents (Elt F) → (⟨S3300000x3, .f32⟩ : BufTy).Contents (Elt F) → (⟨S3300000x3, .f32⟩ : BufTy).Contents (Elt F)),
    nullary main_cst_45 (constant S_ .f32 0x00000000#32),
    unary main_cst_45 main_v214 (broadcastInDim S100000x3 ![] bcast_S_S100000x3 : (⟨S_, .f32⟩ : BufTy).Contents (Elt F) → (⟨S100000x3, .f32⟩ : BufTy).Contents (Elt F)),
    unary main_v54 main_v215 (broadcastInDim S3300000x1 ![0] bcast_S3300000_S3300000x1_0 : (⟨S3300000, .i32⟩ : BufTy).Contents (Elt F) → (⟨S3300000x1, .i32⟩ : BufTy).Contents (Elt F)),
    ternary main_v214 main_v215 main_v213 main_v216 ((fun x i u => Host.scatterAdd scatter_S100000x3_S3300000x1_S3300000x3_1_0_0_1 x i u) : (⟨S100000x3, .f32⟩ : BufTy).Contents (Elt F) → (⟨S3300000x1, .i32⟩ : BufTy).Contents (Elt F) → (⟨S3300000x3, .f32⟩ : BufTy).Contents (Elt F) → (⟨S100000x3, .f32⟩ : BufTy).Contents (Elt F)),
    nullary main_cst_46 (constant S_ .f32 0x3F666666#32),
    unary main_cst_46 main_v217 (broadcastInDim S100000x3 ![] bcast_S_S100000x3 : (⟨S_, .f32⟩ : BufTy).Contents (Elt F) → (⟨S100000x3, .f32⟩ : BufTy).Contents (Elt F)),
    binary main_v217 main_v216 main_v218 (mulf : (⟨S100000x3, .f32⟩ : BufTy).Contents (Elt F) → (⟨S100000x3, .f32⟩ : BufTy).Contents (Elt F) → (⟨S100000x3, .f32⟩ : BufTy).Contents (Elt F)),
    nullary main_cst_47 (constant S_ .f32 0x3DCCCCCD#32),
    unary main_cst_47 main_v219 (broadcastInDim S100000x3 ![] bcast_S_S100000x3 : (⟨S_, .f32⟩ : BufTy).Contents (Elt F) → (⟨S100000x3, .f32⟩ : BufTy).Contents (Elt F)),
    binary main_v219 main_v47 main_v220 (mulf : (⟨S100000x3, .f32⟩ : BufTy).Contents (Elt F) → (⟨S100000x3, .f32⟩ : BufTy).Contents (Elt F) → (⟨S100000x3, .f32⟩ : BufTy).Contents (Elt F)),
    binary main_v218 main_v220 main_v221 (addf : (⟨S100000x3, .f32⟩ : BufTy).Contents (Elt F) → (⟨S100000x3, .f32⟩ : BufTy).Contents (Elt F) → (⟨S100000x3, .f32⟩ : BufTy).Contents (Elt F)),
    nullary main_c_48 (constantI S_ 32 0#32),
    unary main_c_48 main_v222 (broadcastInDim S3300000 ![] bcast_S_S3300000 : (⟨S_, .i32⟩ : BufTy).Contents (Elt F) → (⟨S3300000, .i32⟩ : BufTy).Contents (Elt F)),
    binary main_v51 main_v222 main_v223 (cmpi .slt : (⟨S3300000, .i32⟩ : BufTy).Contents (Elt F) → (⟨S3300000, .i32⟩ : BufTy).Contents (Elt F) → (⟨S3300000, .i1⟩ : BufTy).Contents (Elt F)),
    nullary main_c_49 (constantI S_ 32 100000#32),
    unary main_c_49 main_v224 (broadcastInDim S3300000 ![] bcast_S_S3300000 : (⟨S_, .i32⟩ : BufTy).Contents (Elt F) → (⟨S3300000, .i32⟩ : BufTy).Contents (Elt F)),
    binary main_v51 main_v224 main_v225 (addi : (⟨S3300000, .i32⟩ : BufTy).Contents (Elt F) → (⟨S3300000, .i32⟩ : BufTy).Contents (Elt F) → (⟨S3300000, .i32⟩ : BufTy).Contents (Elt F)),
    ternary main_v223 main_v225 main_v51 main_v226 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v226 main_v227 (broadcastInDim S3300000x1 ![0] bcast_S3300000_S3300000x1_0 : (⟨S3300000, .i32⟩ : BufTy).Contents (Elt F) → (⟨S3300000x1, .i32⟩ : BufTy).Contents (Elt F)),
    binary main_v221 main_v227 main_v228 ((fun x i => Host.gather gather_S100000x3_S3300000x1_S3300000x3_1_0_n_n_0_1_13 x i) : (⟨S100000x3, .f32⟩ : BufTy).Contents (Elt F) → (⟨S3300000x1, .i32⟩ : BufTy).Contents (Elt F) → (⟨S3300000x3, .f32⟩ : BufTy).Contents (Elt F)),
    unary main_v77 main_v229 (broadcastInDim S3300000x1 ![0] bcast_S3300000_S3300000x1_0 : (⟨S3300000, .f32⟩ : BufTy).Contents (Elt F) → (⟨S3300000x1, .f32⟩ : BufTy).Contents (Elt F)),
    unary main_v229 main_v230 (broadcastInDim S3300000x3 ![0, 1] bcast_S3300000x1_S3300000x3_0_1 : (⟨S3300000x1, .f32⟩ : BufTy).Contents (Elt F) → (⟨S3300000x3, .f32⟩ : BufTy).Contents (Elt F)),
    binary main_v228 main_v230 main_v231 (mulf : (⟨S3300000x3, .f32⟩ : BufTy).Contents (Elt F) → (⟨S3300000x3, .f32⟩ : BufTy).Contents (Elt F) → (⟨S3300000x3, .f32⟩ : BufTy).Contents (Elt F)),
    nullary main_cst_50 (constant S_ .f32 0x00000000#32),
    unary main_cst_50 main_v232 (broadcastInDim S100000x3 ![] bcast_S_S100000x3 : (⟨S_, .f32⟩ : BufTy).Contents (Elt F) → (⟨S100000x3, .f32⟩ : BufTy).Contents (Elt F)),
    unary main_v54 main_v233 (broadcastInDim S3300000x1 ![0] bcast_S3300000_S3300000x1_0 : (⟨S3300000, .i32⟩ : BufTy).Contents (Elt F) → (⟨S3300000x1, .i32⟩ : BufTy).Contents (Elt F)),
    ternary main_v232 main_v233 main_v231 main_v234 ((fun x i u => Host.scatterAdd scatter_S100000x3_S3300000x1_S3300000x3_1_0_0_1 x i u) : (⟨S100000x3, .f32⟩ : BufTy).Contents (Elt F) → (⟨S3300000x1, .i32⟩ : BufTy).Contents (Elt F) → (⟨S3300000x3, .f32⟩ : BufTy).Contents (Elt F) → (⟨S100000x3, .f32⟩ : BufTy).Contents (Elt F)),
    nullary main_cst_51 (constant S_ .f32 0x3F666666#32),
    unary main_cst_51 main_v235 (broadcastInDim S100000x3 ![] bcast_S_S100000x3 : (⟨S_, .f32⟩ : BufTy).Contents (Elt F) → (⟨S100000x3, .f32⟩ : BufTy).Contents (Elt F)),
    binary main_v235 main_v234 main_v236 (mulf : (⟨S100000x3, .f32⟩ : BufTy).Contents (Elt F) → (⟨S100000x3, .f32⟩ : BufTy).Contents (Elt F) → (⟨S100000x3, .f32⟩ : BufTy).Contents (Elt F)),
    nullary main_cst_52 (constant S_ .f32 0x3DCCCCCD#32),
    unary main_cst_52 main_v237 (broadcastInDim S100000x3 ![] bcast_S_S100000x3 : (⟨S_, .f32⟩ : BufTy).Contents (Elt F) → (⟨S100000x3, .f32⟩ : BufTy).Contents (Elt F)),
    binary main_v237 main_v47 main_v238 (mulf : (⟨S100000x3, .f32⟩ : BufTy).Contents (Elt F) → (⟨S100000x3, .f32⟩ : BufTy).Contents (Elt F) → (⟨S100000x3, .f32⟩ : BufTy).Contents (Elt F)),
    binary main_v236 main_v238 main_v239 (addf : (⟨S100000x3, .f32⟩ : BufTy).Contents (Elt F) → (⟨S100000x3, .f32⟩ : BufTy).Contents (Elt F) → (⟨S100000x3, .f32⟩ : BufTy).Contents (Elt F)),
    nullary main_c_53 (constantI S_ 32 0#32),
    unary main_c_53 main_v240 (broadcastInDim S3300000 ![] bcast_S_S3300000 : (⟨S_, .i32⟩ : BufTy).Contents (Elt F) → (⟨S3300000, .i32⟩ : BufTy).Contents (Elt F)),
    binary main_v51 main_v240 main_v241 (cmpi .slt : (⟨S3300000, .i32⟩ : BufTy).Contents (Elt F) → (⟨S3300000, .i32⟩ : BufTy).Contents (Elt F) → (⟨S3300000, .i1⟩ : BufTy).Contents (Elt F)),
    nullary main_c_54 (constantI S_ 32 100000#32),
    unary main_c_54 main_v242 (broadcastInDim S3300000 ![] bcast_S_S3300000 : (⟨S_, .i32⟩ : BufTy).Contents (Elt F) → (⟨S3300000, .i32⟩ : BufTy).Contents (Elt F)),
    binary main_v51 main_v242 main_v243 (addi : (⟨S3300000, .i32⟩ : BufTy).Contents (Elt F) → (⟨S3300000, .i32⟩ : BufTy).Contents (Elt F) → (⟨S3300000, .i32⟩ : BufTy).Contents (Elt F)),
    ternary main_v241 main_v243 main_v51 main_v244 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v244 main_v245 (broadcastInDim S3300000x1 ![0] bcast_S3300000_S3300000x1_0 : (⟨S3300000, .i32⟩ : BufTy).Contents (Elt F) → (⟨S3300000x1, .i32⟩ : BufTy).Contents (Elt F)),
    binary main_v239 main_v245 main_v246 ((fun x i => Host.gather gather_S100000x3_S3300000x1_S3300000x3_1_0_n_n_0_1_13 x i) : (⟨S100000x3, .f32⟩ : BufTy).Contents (Elt F) → (⟨S3300000x1, .i32⟩ : BufTy).Contents (Elt F) → (⟨S3300000x3, .f32⟩ : BufTy).Contents (Elt F)),
    unary main_v77 main_v247 (broadcastInDim S3300000x1 ![0] bcast_S3300000_S3300000x1_0 : (⟨S3300000, .f32⟩ : BufTy).Contents (Elt F) → (⟨S3300000x1, .f32⟩ : BufTy).Contents (Elt F)),
    unary main_v247 main_v248 (broadcastInDim S3300000x3 ![0, 1] bcast_S3300000x1_S3300000x3_0_1 : (⟨S3300000x1, .f32⟩ : BufTy).Contents (Elt F) → (⟨S3300000x3, .f32⟩ : BufTy).Contents (Elt F)),
    binary main_v246 main_v248 main_v249 (mulf : (⟨S3300000x3, .f32⟩ : BufTy).Contents (Elt F) → (⟨S3300000x3, .f32⟩ : BufTy).Contents (Elt F) → (⟨S3300000x3, .f32⟩ : BufTy).Contents (Elt F)),
    nullary main_cst_55 (constant S_ .f32 0x00000000#32),
    unary main_cst_55 main_v250 (broadcastInDim S100000x3 ![] bcast_S_S100000x3 : (⟨S_, .f32⟩ : BufTy).Contents (Elt F) → (⟨S100000x3, .f32⟩ : BufTy).Contents (Elt F)),
    unary main_v54 main_v251 (broadcastInDim S3300000x1 ![0] bcast_S3300000_S3300000x1_0 : (⟨S3300000, .i32⟩ : BufTy).Contents (Elt F) → (⟨S3300000x1, .i32⟩ : BufTy).Contents (Elt F)),
    ternary main_v250 main_v251 main_v249 main_v252 ((fun x i u => Host.scatterAdd scatter_S100000x3_S3300000x1_S3300000x3_1_0_0_1 x i u) : (⟨S100000x3, .f32⟩ : BufTy).Contents (Elt F) → (⟨S3300000x1, .i32⟩ : BufTy).Contents (Elt F) → (⟨S3300000x3, .f32⟩ : BufTy).Contents (Elt F) → (⟨S100000x3, .f32⟩ : BufTy).Contents (Elt F)),
    nullary main_cst_56 (constant S_ .f32 0x3F666666#32),
    unary main_cst_56 main_v253 (broadcastInDim S100000x3 ![] bcast_S_S100000x3 : (⟨S_, .f32⟩ : BufTy).Contents (Elt F) → (⟨S100000x3, .f32⟩ : BufTy).Contents (Elt F)),
    binary main_v253 main_v252 main_v254 (mulf : (⟨S100000x3, .f32⟩ : BufTy).Contents (Elt F) → (⟨S100000x3, .f32⟩ : BufTy).Contents (Elt F) → (⟨S100000x3, .f32⟩ : BufTy).Contents (Elt F)),
    nullary main_cst_57 (constant S_ .f32 0x3DCCCCCD#32),
    unary main_cst_57 main_v255 (broadcastInDim S100000x3 ![] bcast_S_S100000x3 : (⟨S_, .f32⟩ : BufTy).Contents (Elt F) → (⟨S100000x3, .f32⟩ : BufTy).Contents (Elt F)),
    binary main_v255 main_v47 main_v256 (mulf : (⟨S100000x3, .f32⟩ : BufTy).Contents (Elt F) → (⟨S100000x3, .f32⟩ : BufTy).Contents (Elt F) → (⟨S100000x3, .f32⟩ : BufTy).Contents (Elt F)),
    binary main_v254 main_v256 main_v257 (addf : (⟨S100000x3, .f32⟩ : BufTy).Contents (Elt F) → (⟨S100000x3, .f32⟩ : BufTy).Contents (Elt F) → (⟨S100000x3, .f32⟩ : BufTy).Contents (Elt F)),
    TRef.nullary (TRef.of (T := ⟨S_, .f32⟩) main_call3_cst) (constant S_ .f32 0xFF800000#32),
    TRef.binary (TRef.of (T := ⟨S100000x3, .f32⟩) main_v257) (TRef.of (T := ⟨S_, .f32⟩) main_call3_cst) (TRef.of (T := ⟨S100000, .f32⟩) main_call3_v0) (fun x v => Host.reduce FloatOps.maximumf x v reducesTo_S100000x3_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x3, .f32⟩) main_call3_v4) (broadcastInDim S100000x3 ![0, 1] bcast_S100000x1_S100000x3_0_1),
    TRef.binary (TRef.of (T := ⟨S100000x3, .f32⟩) main_v257) (TRef.of (T := ⟨S100000x3, .f32⟩) main_call3_v4) (TRef.of (T := ⟨S100000x3, .f32⟩) main_call3_v5) subf,
    TRef.unary (TRef.of (T := ⟨S100000x3, .f32⟩) main_call3_v5) (TRef.of (T := ⟨S100000x3, .f32⟩) main_call3_v6) Host.exp,
    TRef.nullary (TRef.of (T := ⟨S_, .f32⟩) main_call3_cst_1) (constant S_ .f32 0x00000000#32),
    TRef.binary (TRef.of (T := ⟨S100000x3, .f32⟩) main_call3_v6) (TRef.of (T := ⟨S_, .f32⟩) main_call3_cst_1) (TRef.of (T := ⟨S100000, .f32⟩) main_call3_v7) (fun x v => Host.reduceAdd x v reducesTo_S100000x3_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x3, .f32⟩) main_call3_v10) (broadcastInDim S100000x3 ![0, 1] bcast_S100000x1_S100000x3_0_1),
    TRef.binary (TRef.of (T := ⟨S100000x3, .f32⟩) main_call3_v5) (TRef.of (T := ⟨S100000x3, .f32⟩) main_call3_v10) (TRef.of (T := ⟨S100000x3, .f32⟩) main_v258) subf ]

/-- The whole program's 339 operations. -/
abbrev ops : List (HloOp τ sig (Elt F)) := mlpOps ++ tailOps

set_option maxRecDepth 8192 in
set_option maxHeartbeats 40000000 in
/-- The entry function is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines what it writes -/

set_option maxRecDepth 8192 in
set_option maxHeartbeats 40000000 in
theorem mlpOps_sub : (mlpOps : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub ..,
   nullary_bufs_sub .., unary_bufs_sub .., binary_bufs_sub .., unary_bufs_sub .., unary_bufs_sub .., unary_bufs_sub .., binary_bufs_sub .., unary_bufs_sub ..,
   unary_bufs_sub .., binary_bufs_sub .., unary_bufs_sub .., unary_bufs_sub .., binary_bufs_sub .., nullary_bufs_sub .., unary_bufs_sub .., binary_bufs_sub ..,
   unary_bufs_sub .., binary_bufs_sub .., unary_bufs_sub .., unary_bufs_sub .., binary_bufs_sub .., unary_bufs_sub .., unary_bufs_sub .., binary_bufs_sub ..,
   nullary_bufs_sub .., unary_bufs_sub .., binary_bufs_sub .., unary_bufs_sub .., unary_bufs_sub .., unary_bufs_sub .., binary_bufs_sub .., unary_bufs_sub ..,
   unary_bufs_sub .., binary_bufs_sub .., unary_bufs_sub .., unary_bufs_sub .., binary_bufs_sub .., nullary_bufs_sub .., unary_bufs_sub .., binary_bufs_sub ..,
   binary_bufs_sub .., unary_bufs_sub .., binary_bufs_sub .., unary_bufs_sub .., unary_bufs_sub .., binary_bufs_sub ..⟩

set_option maxRecDepth 8192 in
set_option maxHeartbeats 40000000 in
theorem tailOps_sub : (tailOps : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub ..,
   unary_bufs_sub .., nullary_bufs_sub .., unary_bufs_sub .., unary_bufs_sub .., ternary_bufs_sub .., nullary_bufs_sub .., unary_bufs_sub .., binary_bufs_sub ..,
   unary_bufs_sub .., nullary_bufs_sub .., unary_bufs_sub .., unary_bufs_sub .., ternary_bufs_sub .., nullary_bufs_sub .., unary_bufs_sub .., binary_bufs_sub ..,
   nullary_bufs_sub .., unary_bufs_sub .., binary_bufs_sub .., ternary_bufs_sub .., unary_bufs_sub .., binary_bufs_sub .., nullary_bufs_sub .., unary_bufs_sub ..,
   binary_bufs_sub .., nullary_bufs_sub .., unary_bufs_sub .., binary_bufs_sub .., ternary_bufs_sub .., unary_bufs_sub .., binary_bufs_sub .., binary_bufs_sub ..,
   nullary_bufs_sub .., unary_bufs_sub .., binary_bufs_sub .., nullary_bufs_sub .., unary_bufs_sub .., binary_bufs_sub .., ternary_bufs_sub .., unary_bufs_sub ..,
   binary_bufs_sub .., unary_bufs_sub .., unary_bufs_sub .., binary_bufs_sub .., nullary_bufs_sub .., unary_bufs_sub .., unary_bufs_sub .., ternary_bufs_sub ..,
   nullary_bufs_sub .., unary_bufs_sub .., binary_bufs_sub .., nullary_bufs_sub .., unary_bufs_sub .., binary_bufs_sub .., binary_bufs_sub .., nullary_bufs_sub ..,
   unary_bufs_sub .., binary_bufs_sub .., nullary_bufs_sub .., unary_bufs_sub .., binary_bufs_sub .., ternary_bufs_sub .., unary_bufs_sub .., binary_bufs_sub ..,
   unary_bufs_sub .., unary_bufs_sub .., binary_bufs_sub .., nullary_bufs_sub .., unary_bufs_sub .., unary_bufs_sub .., ternary_bufs_sub .., nullary_bufs_sub ..,
   unary_bufs_sub .., binary_bufs_sub .., nullary_bufs_sub .., unary_bufs_sub .., binary_bufs_sub .., binary_bufs_sub .., nullary_bufs_sub .., unary_bufs_sub ..,
   binary_bufs_sub .., nullary_bufs_sub .., unary_bufs_sub .., binary_bufs_sub .., ternary_bufs_sub .., unary_bufs_sub .., binary_bufs_sub .., unary_bufs_sub ..,
   unary_bufs_sub .., binary_bufs_sub .., nullary_bufs_sub .., unary_bufs_sub .., unary_bufs_sub .., ternary_bufs_sub .., nullary_bufs_sub .., unary_bufs_sub ..,
   binary_bufs_sub .., nullary_bufs_sub .., unary_bufs_sub .., binary_bufs_sub .., binary_bufs_sub .., nullary_bufs_sub .., unary_bufs_sub .., binary_bufs_sub ..,
   nullary_bufs_sub .., unary_bufs_sub .., binary_bufs_sub .., ternary_bufs_sub .., unary_bufs_sub .., binary_bufs_sub .., unary_bufs_sub .., unary_bufs_sub ..,
   binary_bufs_sub .., nullary_bufs_sub .., unary_bufs_sub .., unary_bufs_sub .., ternary_bufs_sub .., nullary_bufs_sub .., unary_bufs_sub .., binary_bufs_sub ..,
   nullary_bufs_sub .., unary_bufs_sub .., binary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., unary_bufs_sub .., unary_bufs_sub .., binary_bufs_sub ..,
   nullary_bufs_sub .., unary_bufs_sub .., unary_bufs_sub .., ternary_bufs_sub .., nullary_bufs_sub .., unary_bufs_sub .., binary_bufs_sub .., nullary_bufs_sub ..,
   unary_bufs_sub .., binary_bufs_sub .., binary_bufs_sub .., nullary_bufs_sub .., unary_bufs_sub .., binary_bufs_sub .., nullary_bufs_sub .., unary_bufs_sub ..,
   binary_bufs_sub .., ternary_bufs_sub .., unary_bufs_sub .., binary_bufs_sub .., unary_bufs_sub .., unary_bufs_sub .., binary_bufs_sub .., nullary_bufs_sub ..,
   unary_bufs_sub .., unary_bufs_sub .., ternary_bufs_sub .., nullary_bufs_sub .., unary_bufs_sub .., binary_bufs_sub .., nullary_bufs_sub .., unary_bufs_sub ..,
   binary_bufs_sub .., binary_bufs_sub .., nullary_bufs_sub .., unary_bufs_sub .., binary_bufs_sub .., nullary_bufs_sub .., unary_bufs_sub .., binary_bufs_sub ..,
   ternary_bufs_sub .., unary_bufs_sub .., binary_bufs_sub .., unary_bufs_sub .., unary_bufs_sub .., binary_bufs_sub .., nullary_bufs_sub .., unary_bufs_sub ..,
   unary_bufs_sub .., ternary_bufs_sub .., nullary_bufs_sub .., unary_bufs_sub .., binary_bufs_sub .., nullary_bufs_sub .., unary_bufs_sub .., binary_bufs_sub ..,
   binary_bufs_sub .., nullary_bufs_sub .., unary_bufs_sub .., binary_bufs_sub .., nullary_bufs_sub .., unary_bufs_sub .., binary_bufs_sub .., ternary_bufs_sub ..,
   unary_bufs_sub .., binary_bufs_sub .., unary_bufs_sub .., unary_bufs_sub .., binary_bufs_sub .., nullary_bufs_sub .., unary_bufs_sub .., unary_bufs_sub ..,
   ternary_bufs_sub .., nullary_bufs_sub .., unary_bufs_sub .., binary_bufs_sub .., nullary_bufs_sub .., unary_bufs_sub .., binary_bufs_sub .., binary_bufs_sub ..,
   nullary_bufs_sub .., unary_bufs_sub .., binary_bufs_sub .., nullary_bufs_sub .., unary_bufs_sub .., binary_bufs_sub .., ternary_bufs_sub .., unary_bufs_sub ..,
   binary_bufs_sub .., unary_bufs_sub .., unary_bufs_sub .., binary_bufs_sub .., nullary_bufs_sub .., unary_bufs_sub .., unary_bufs_sub .., ternary_bufs_sub ..,
   nullary_bufs_sub .., unary_bufs_sub .., binary_bufs_sub .., nullary_bufs_sub .., unary_bufs_sub .., binary_bufs_sub .., binary_bufs_sub .., nullary_bufs_sub ..,
   unary_bufs_sub .., binary_bufs_sub .., nullary_bufs_sub .., unary_bufs_sub .., binary_bufs_sub .., ternary_bufs_sub .., unary_bufs_sub .., binary_bufs_sub ..,
   unary_bufs_sub .., unary_bufs_sub .., binary_bufs_sub .., nullary_bufs_sub .., unary_bufs_sub .., unary_bufs_sub .., ternary_bufs_sub .., nullary_bufs_sub ..,
   unary_bufs_sub .., binary_bufs_sub .., nullary_bufs_sub .., unary_bufs_sub .., binary_bufs_sub .., binary_bufs_sub .., nullary_bufs_sub .., binary_bufs_sub ..,
   nullary_bufs_sub .., unary_bufs_sub .., binary_bufs_sub .., unary_bufs_sub .., unary_bufs_sub .., binary_bufs_sub .., unary_bufs_sub .., nullary_bufs_sub ..,
   binary_bufs_sub .., unary_bufs_sub .., unary_bufs_sub .., unary_bufs_sub .., binary_bufs_sub ..⟩

theorem ops_sub : (ops : List (HloOp τ sig (Elt F))).Forall fun op => op.bufs ⊆ tcRefs τ sig :=
  forall_append mlpOps_sub tailOps_sub

set_option maxRecDepth 8192 in
set_option maxHeartbeats 40000000 in
theorem mlpOps_fresh : (mlpOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in
theorem tailOps_fresh : (tailOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl⟩

theorem ops_fresh : ∀ op ∈ (ops : List (HloOp τ sig (Elt F))), op.fresh = ∅ :=
  List.forall_iff_forall_mem.mp (forall_append mlpOps_fresh tailOps_fresh)

/-! ## The buffers the program writes -/

/-- The 339 result buffers, in program order. -/
abbrev refW : List (Ref sig .tc) :=
  [ main_v0, main_v1, main_v2, main_v3, main_v4, main_v5, main_v6, main_v7, main_cst, main_v8,
    main_v9, main_v10, main_v11, main_v12, main_v13, main_v14, main_v15, main_v16, main_v17, main_v18,
    main_v19, main_call0_cst, main_call0_v0, main_v20, main_v21, main_v22, main_v23, main_v24, main_v25, main_v26,
    main_v27, main_v28, main_cst_0, main_v29, main_v30, main_v31, main_v32, main_v33, main_v34, main_v35,
    main_v36, main_v37, main_v38, main_v39, main_v40, main_call1_cst, main_call1_v0, main_v41, main_v42, main_v43,
    main_v44, main_v45, main_v46, main_v47, main_v48, main_v49, main_v50, main_v51, main_v52, main_v53,
    main_v54, main_cst_1, main_v55, main_cst_2, main_v56, main_v57, main_v58, main_cst_3, main_v59, main_v60,
    main_v61, main_cst_4, main_call2_v0, main_call2_v1, main_v62, main_c, main_v63, main_v64, main_c_5, main_v65,
    main_v66, main_v67, main_v68, main_v69, main_c_6, main_v70, main_v71, main_c_7, main_v72, main_v73,
    main_v74, main_v75, main_v76, main_v77, main_c_8, main_v78, main_v79, main_c_9, main_v80, main_v81,
    main_v82, main_v83, main_v84, main_v85, main_v86, main_v87, main_cst_10, main_v88, main_v89, main_v90,
    main_cst_11, main_v91, main_v92, main_cst_12, main_v93, main_v94, main_v95, main_c_13, main_v96, main_v97,
    main_c_14, main_v98, main_v99, main_v100, main_v101, main_v102, main_v103, main_v104, main_v105, main_cst_15,
    main_v106, main_v107, main_v108, main_cst_16, main_v109, main_v110, main_cst_17, main_v111, main_v112, main_v113,
    main_c_18, main_v114, main_v115, main_c_19, main_v116, main_v117, main_v118, main_v119, main_v120, main_v121,
    main_v122, main_v123, main_cst_20, main_v124, main_v125, main_v126, main_cst_21, main_v127, main_v128, main_cst_22,
    main_v129, main_v130, main_v131, main_c_23, main_v132, main_v133, main_c_24, main_v134, main_v135, main_v136,
    main_v137, main_v138, main_v139, main_v140, main_v141, main_cst_25, main_v142, main_v143, main_v144, main_cst_26,
    main_v145, main_v146, main_cst_27, main_v147, main_v148, main_v149, main_c_28, main_v150, main_v151, main_c_29,
    main_v152, main_v153, main_v154, main_v155, main_v156, main_v157, main_v158, main_v159, main_cst_30, main_v160,
    main_v161, main_v162, main_cst_31, main_v163, main_v164, main_cst_32, main_v165, main_v166, main_v167, main_c_33,
    main_v168, main_v169, main_c_34, main_v170, main_v171, main_v172, main_v173, main_v174, main_v175, main_v176,
    main_v177, main_cst_35, main_v178, main_v179, main_v180, main_cst_36, main_v181, main_v182, main_cst_37, main_v183,
    main_v184, main_v185, main_c_38, main_v186, main_v187, main_c_39, main_v188, main_v189, main_v190, main_v191,
    main_v192, main_v193, main_v194, main_v195, main_cst_40, main_v196, main_v197, main_v198, main_cst_41, main_v199,
    main_v200, main_cst_42, main_v201, main_v202, main_v203, main_c_43, main_v204, main_v205, main_c_44, main_v206,
    main_v207, main_v208, main_v209, main_v210, main_v211, main_v212, main_v213, main_cst_45, main_v214, main_v215,
    main_v216, main_cst_46, main_v217, main_v218, main_cst_47, main_v219, main_v220, main_v221, main_c_48, main_v222,
    main_v223, main_c_49, main_v224, main_v225, main_v226, main_v227, main_v228, main_v229, main_v230, main_v231,
    main_cst_50, main_v232, main_v233, main_v234, main_cst_51, main_v235, main_v236, main_cst_52, main_v237, main_v238,
    main_v239, main_c_53, main_v240, main_v241, main_c_54, main_v242, main_v243, main_v244, main_v245, main_v246,
    main_v247, main_v248, main_v249, main_cst_55, main_v250, main_v251, main_v252, main_cst_56, main_v253, main_v254,
    main_cst_57, main_v255, main_v256, main_v257, main_call3_cst, main_call3_v0, main_call3_cst_0, main_call3_v1, main_call3_v2, main_call3_v3,
    main_call3_v4, main_call3_v5, main_call3_v6, main_call3_cst_1, main_call3_v7, main_call3_v8, main_call3_v9, main_call3_v10, main_v258 ]

set_option maxRecDepth 8192 in
set_option maxHeartbeats 40000000 in
theorem mlpOps_writes : (mlpOps : List (HloOp τ sig (Elt F))).Forall fun op =>
    op.writes ⊆ (refW.map (Proc.devRef (τ := τ) .tc)).toFinset :=
  ⟨writes_sub_of_mem main_v0 rfl (by decide), writes_sub_of_mem main_v1 rfl (by decide), writes_sub_of_mem main_v2 rfl (by decide),
   writes_sub_of_mem main_v3 rfl (by decide), writes_sub_of_mem main_v4 rfl (by decide), writes_sub_of_mem main_v5 rfl (by decide),
   writes_sub_of_mem main_v6 rfl (by decide), writes_sub_of_mem main_v7 rfl (by decide), writes_sub_of_mem main_cst rfl (by decide),
   writes_sub_of_mem main_v8 rfl (by decide), writes_sub_of_mem main_v9 rfl (by decide), writes_sub_of_mem main_v10 rfl (by decide),
   writes_sub_of_mem main_v11 rfl (by decide), writes_sub_of_mem main_v12 rfl (by decide), writes_sub_of_mem main_v13 rfl (by decide),
   writes_sub_of_mem main_v14 rfl (by decide), writes_sub_of_mem main_v15 rfl (by decide), writes_sub_of_mem main_v16 rfl (by decide),
   writes_sub_of_mem main_v17 rfl (by decide), writes_sub_of_mem main_v18 rfl (by decide), writes_sub_of_mem main_v19 rfl (by decide),
   writes_sub_of_mem main_call0_cst rfl (by decide), writes_sub_of_mem main_call0_v0 rfl (by decide), writes_sub_of_mem main_v20 rfl (by decide),
   writes_sub_of_mem main_v21 rfl (by decide), writes_sub_of_mem main_v22 rfl (by decide), writes_sub_of_mem main_v23 rfl (by decide),
   writes_sub_of_mem main_v24 rfl (by decide), writes_sub_of_mem main_v25 rfl (by decide), writes_sub_of_mem main_v26 rfl (by decide),
   writes_sub_of_mem main_v27 rfl (by decide), writes_sub_of_mem main_v28 rfl (by decide), writes_sub_of_mem main_cst_0 rfl (by decide),
   writes_sub_of_mem main_v29 rfl (by decide), writes_sub_of_mem main_v30 rfl (by decide), writes_sub_of_mem main_v31 rfl (by decide),
   writes_sub_of_mem main_v32 rfl (by decide), writes_sub_of_mem main_v33 rfl (by decide), writes_sub_of_mem main_v34 rfl (by decide),
   writes_sub_of_mem main_v35 rfl (by decide), writes_sub_of_mem main_v36 rfl (by decide), writes_sub_of_mem main_v37 rfl (by decide),
   writes_sub_of_mem main_v38 rfl (by decide), writes_sub_of_mem main_v39 rfl (by decide), writes_sub_of_mem main_v40 rfl (by decide),
   writes_sub_of_mem main_call1_cst rfl (by decide), writes_sub_of_mem main_call1_v0 rfl (by decide), writes_sub_of_mem main_v41 rfl (by decide),
   writes_sub_of_mem main_v42 rfl (by decide), writes_sub_of_mem main_v43 rfl (by decide), writes_sub_of_mem main_v44 rfl (by decide),
   writes_sub_of_mem main_v45 rfl (by decide), writes_sub_of_mem main_v46 rfl (by decide), writes_sub_of_mem main_v47 rfl (by decide)⟩

set_option maxRecDepth 8192 in
set_option maxHeartbeats 40000000 in
theorem tailOps_writes : (tailOps : List (HloOp τ sig (Elt F))).Forall fun op =>
    op.writes ⊆ (refW.map (Proc.devRef (τ := τ) .tc)).toFinset :=
  ⟨writes_sub_of_mem main_v48 rfl (by decide), writes_sub_of_mem main_v49 rfl (by decide), writes_sub_of_mem main_v50 rfl (by decide),
   writes_sub_of_mem main_v51 rfl (by decide), writes_sub_of_mem main_v52 rfl (by decide), writes_sub_of_mem main_v53 rfl (by decide),
   writes_sub_of_mem main_v54 rfl (by decide), writes_sub_of_mem main_cst_1 rfl (by decide), writes_sub_of_mem main_v55 rfl (by decide),
   writes_sub_of_mem main_cst_2 rfl (by decide), writes_sub_of_mem main_v56 rfl (by decide), writes_sub_of_mem main_v57 rfl (by decide),
   writes_sub_of_mem main_v58 rfl (by decide), writes_sub_of_mem main_cst_3 rfl (by decide), writes_sub_of_mem main_v59 rfl (by decide),
   writes_sub_of_mem main_v60 rfl (by decide), writes_sub_of_mem main_v61 rfl (by decide), writes_sub_of_mem main_cst_4 rfl (by decide),
   writes_sub_of_mem main_call2_v0 rfl (by decide), writes_sub_of_mem main_call2_v1 rfl (by decide), writes_sub_of_mem main_v62 rfl (by decide),
   writes_sub_of_mem main_c rfl (by decide), writes_sub_of_mem main_v63 rfl (by decide), writes_sub_of_mem main_v64 rfl (by decide),
   writes_sub_of_mem main_c_5 rfl (by decide), writes_sub_of_mem main_v65 rfl (by decide), writes_sub_of_mem main_v66 rfl (by decide),
   writes_sub_of_mem main_v67 rfl (by decide), writes_sub_of_mem main_v68 rfl (by decide), writes_sub_of_mem main_v69 rfl (by decide),
   writes_sub_of_mem main_c_6 rfl (by decide), writes_sub_of_mem main_v70 rfl (by decide), writes_sub_of_mem main_v71 rfl (by decide),
   writes_sub_of_mem main_c_7 rfl (by decide), writes_sub_of_mem main_v72 rfl (by decide), writes_sub_of_mem main_v73 rfl (by decide),
   writes_sub_of_mem main_v74 rfl (by decide), writes_sub_of_mem main_v75 rfl (by decide), writes_sub_of_mem main_v76 rfl (by decide),
   writes_sub_of_mem main_v77 rfl (by decide), writes_sub_of_mem main_c_8 rfl (by decide), writes_sub_of_mem main_v78 rfl (by decide),
   writes_sub_of_mem main_v79 rfl (by decide), writes_sub_of_mem main_c_9 rfl (by decide), writes_sub_of_mem main_v80 rfl (by decide),
   writes_sub_of_mem main_v81 rfl (by decide), writes_sub_of_mem main_v82 rfl (by decide), writes_sub_of_mem main_v83 rfl (by decide),
   writes_sub_of_mem main_v84 rfl (by decide), writes_sub_of_mem main_v85 rfl (by decide), writes_sub_of_mem main_v86 rfl (by decide),
   writes_sub_of_mem main_v87 rfl (by decide), writes_sub_of_mem main_cst_10 rfl (by decide), writes_sub_of_mem main_v88 rfl (by decide),
   writes_sub_of_mem main_v89 rfl (by decide), writes_sub_of_mem main_v90 rfl (by decide), writes_sub_of_mem main_cst_11 rfl (by decide),
   writes_sub_of_mem main_v91 rfl (by decide), writes_sub_of_mem main_v92 rfl (by decide), writes_sub_of_mem main_cst_12 rfl (by decide),
   writes_sub_of_mem main_v93 rfl (by decide), writes_sub_of_mem main_v94 rfl (by decide), writes_sub_of_mem main_v95 rfl (by decide),
   writes_sub_of_mem main_c_13 rfl (by decide), writes_sub_of_mem main_v96 rfl (by decide), writes_sub_of_mem main_v97 rfl (by decide),
   writes_sub_of_mem main_c_14 rfl (by decide), writes_sub_of_mem main_v98 rfl (by decide), writes_sub_of_mem main_v99 rfl (by decide),
   writes_sub_of_mem main_v100 rfl (by decide), writes_sub_of_mem main_v101 rfl (by decide), writes_sub_of_mem main_v102 rfl (by decide),
   writes_sub_of_mem main_v103 rfl (by decide), writes_sub_of_mem main_v104 rfl (by decide), writes_sub_of_mem main_v105 rfl (by decide),
   writes_sub_of_mem main_cst_15 rfl (by decide), writes_sub_of_mem main_v106 rfl (by decide), writes_sub_of_mem main_v107 rfl (by decide),
   writes_sub_of_mem main_v108 rfl (by decide), writes_sub_of_mem main_cst_16 rfl (by decide), writes_sub_of_mem main_v109 rfl (by decide),
   writes_sub_of_mem main_v110 rfl (by decide), writes_sub_of_mem main_cst_17 rfl (by decide), writes_sub_of_mem main_v111 rfl (by decide),
   writes_sub_of_mem main_v112 rfl (by decide), writes_sub_of_mem main_v113 rfl (by decide), writes_sub_of_mem main_c_18 rfl (by decide),
   writes_sub_of_mem main_v114 rfl (by decide), writes_sub_of_mem main_v115 rfl (by decide), writes_sub_of_mem main_c_19 rfl (by decide),
   writes_sub_of_mem main_v116 rfl (by decide), writes_sub_of_mem main_v117 rfl (by decide), writes_sub_of_mem main_v118 rfl (by decide),
   writes_sub_of_mem main_v119 rfl (by decide), writes_sub_of_mem main_v120 rfl (by decide), writes_sub_of_mem main_v121 rfl (by decide),
   writes_sub_of_mem main_v122 rfl (by decide), writes_sub_of_mem main_v123 rfl (by decide), writes_sub_of_mem main_cst_20 rfl (by decide),
   writes_sub_of_mem main_v124 rfl (by decide), writes_sub_of_mem main_v125 rfl (by decide), writes_sub_of_mem main_v126 rfl (by decide),
   writes_sub_of_mem main_cst_21 rfl (by decide), writes_sub_of_mem main_v127 rfl (by decide), writes_sub_of_mem main_v128 rfl (by decide),
   writes_sub_of_mem main_cst_22 rfl (by decide), writes_sub_of_mem main_v129 rfl (by decide), writes_sub_of_mem main_v130 rfl (by decide),
   writes_sub_of_mem main_v131 rfl (by decide), writes_sub_of_mem main_c_23 rfl (by decide), writes_sub_of_mem main_v132 rfl (by decide),
   writes_sub_of_mem main_v133 rfl (by decide), writes_sub_of_mem main_c_24 rfl (by decide), writes_sub_of_mem main_v134 rfl (by decide),
   writes_sub_of_mem main_v135 rfl (by decide), writes_sub_of_mem main_v136 rfl (by decide), writes_sub_of_mem main_v137 rfl (by decide),
   writes_sub_of_mem main_v138 rfl (by decide), writes_sub_of_mem main_v139 rfl (by decide), writes_sub_of_mem main_v140 rfl (by decide),
   writes_sub_of_mem main_v141 rfl (by decide), writes_sub_of_mem main_cst_25 rfl (by decide), writes_sub_of_mem main_v142 rfl (by decide),
   writes_sub_of_mem main_v143 rfl (by decide), writes_sub_of_mem main_v144 rfl (by decide), writes_sub_of_mem main_cst_26 rfl (by decide),
   writes_sub_of_mem main_v145 rfl (by decide), writes_sub_of_mem main_v146 rfl (by decide), writes_sub_of_mem main_cst_27 rfl (by decide),
   writes_sub_of_mem main_v147 rfl (by decide), writes_sub_of_mem main_v148 rfl (by decide), writes_sub_of_mem main_v149 rfl (by decide),
   writes_sub_of_mem main_c_28 rfl (by decide), writes_sub_of_mem main_v150 rfl (by decide), writes_sub_of_mem main_v151 rfl (by decide),
   writes_sub_of_mem main_c_29 rfl (by decide), writes_sub_of_mem main_v152 rfl (by decide), writes_sub_of_mem main_v153 rfl (by decide),
   writes_sub_of_mem main_v154 rfl (by decide), writes_sub_of_mem main_v155 rfl (by decide), writes_sub_of_mem main_v156 rfl (by decide),
   writes_sub_of_mem main_v157 rfl (by decide), writes_sub_of_mem main_v158 rfl (by decide), writes_sub_of_mem main_v159 rfl (by decide),
   writes_sub_of_mem main_cst_30 rfl (by decide), writes_sub_of_mem main_v160 rfl (by decide), writes_sub_of_mem main_v161 rfl (by decide),
   writes_sub_of_mem main_v162 rfl (by decide), writes_sub_of_mem main_cst_31 rfl (by decide), writes_sub_of_mem main_v163 rfl (by decide),
   writes_sub_of_mem main_v164 rfl (by decide), writes_sub_of_mem main_cst_32 rfl (by decide), writes_sub_of_mem main_v165 rfl (by decide),
   writes_sub_of_mem main_v166 rfl (by decide), writes_sub_of_mem main_v167 rfl (by decide), writes_sub_of_mem main_c_33 rfl (by decide),
   writes_sub_of_mem main_v168 rfl (by decide), writes_sub_of_mem main_v169 rfl (by decide), writes_sub_of_mem main_c_34 rfl (by decide),
   writes_sub_of_mem main_v170 rfl (by decide), writes_sub_of_mem main_v171 rfl (by decide), writes_sub_of_mem main_v172 rfl (by decide),
   writes_sub_of_mem main_v173 rfl (by decide), writes_sub_of_mem main_v174 rfl (by decide), writes_sub_of_mem main_v175 rfl (by decide),
   writes_sub_of_mem main_v176 rfl (by decide), writes_sub_of_mem main_v177 rfl (by decide), writes_sub_of_mem main_cst_35 rfl (by decide),
   writes_sub_of_mem main_v178 rfl (by decide), writes_sub_of_mem main_v179 rfl (by decide), writes_sub_of_mem main_v180 rfl (by decide),
   writes_sub_of_mem main_cst_36 rfl (by decide), writes_sub_of_mem main_v181 rfl (by decide), writes_sub_of_mem main_v182 rfl (by decide),
   writes_sub_of_mem main_cst_37 rfl (by decide), writes_sub_of_mem main_v183 rfl (by decide), writes_sub_of_mem main_v184 rfl (by decide),
   writes_sub_of_mem main_v185 rfl (by decide), writes_sub_of_mem main_c_38 rfl (by decide), writes_sub_of_mem main_v186 rfl (by decide),
   writes_sub_of_mem main_v187 rfl (by decide), writes_sub_of_mem main_c_39 rfl (by decide), writes_sub_of_mem main_v188 rfl (by decide),
   writes_sub_of_mem main_v189 rfl (by decide), writes_sub_of_mem main_v190 rfl (by decide), writes_sub_of_mem main_v191 rfl (by decide),
   writes_sub_of_mem main_v192 rfl (by decide), writes_sub_of_mem main_v193 rfl (by decide), writes_sub_of_mem main_v194 rfl (by decide),
   writes_sub_of_mem main_v195 rfl (by decide), writes_sub_of_mem main_cst_40 rfl (by decide), writes_sub_of_mem main_v196 rfl (by decide),
   writes_sub_of_mem main_v197 rfl (by decide), writes_sub_of_mem main_v198 rfl (by decide), writes_sub_of_mem main_cst_41 rfl (by decide),
   writes_sub_of_mem main_v199 rfl (by decide), writes_sub_of_mem main_v200 rfl (by decide), writes_sub_of_mem main_cst_42 rfl (by decide),
   writes_sub_of_mem main_v201 rfl (by decide), writes_sub_of_mem main_v202 rfl (by decide), writes_sub_of_mem main_v203 rfl (by decide),
   writes_sub_of_mem main_c_43 rfl (by decide), writes_sub_of_mem main_v204 rfl (by decide), writes_sub_of_mem main_v205 rfl (by decide),
   writes_sub_of_mem main_c_44 rfl (by decide), writes_sub_of_mem main_v206 rfl (by decide), writes_sub_of_mem main_v207 rfl (by decide),
   writes_sub_of_mem main_v208 rfl (by decide), writes_sub_of_mem main_v209 rfl (by decide), writes_sub_of_mem main_v210 rfl (by decide),
   writes_sub_of_mem main_v211 rfl (by decide), writes_sub_of_mem main_v212 rfl (by decide), writes_sub_of_mem main_v213 rfl (by decide),
   writes_sub_of_mem main_cst_45 rfl (by decide), writes_sub_of_mem main_v214 rfl (by decide), writes_sub_of_mem main_v215 rfl (by decide),
   writes_sub_of_mem main_v216 rfl (by decide), writes_sub_of_mem main_cst_46 rfl (by decide), writes_sub_of_mem main_v217 rfl (by decide),
   writes_sub_of_mem main_v218 rfl (by decide), writes_sub_of_mem main_cst_47 rfl (by decide), writes_sub_of_mem main_v219 rfl (by decide),
   writes_sub_of_mem main_v220 rfl (by decide), writes_sub_of_mem main_v221 rfl (by decide), writes_sub_of_mem main_c_48 rfl (by decide),
   writes_sub_of_mem main_v222 rfl (by decide), writes_sub_of_mem main_v223 rfl (by decide), writes_sub_of_mem main_c_49 rfl (by decide),
   writes_sub_of_mem main_v224 rfl (by decide), writes_sub_of_mem main_v225 rfl (by decide), writes_sub_of_mem main_v226 rfl (by decide),
   writes_sub_of_mem main_v227 rfl (by decide), writes_sub_of_mem main_v228 rfl (by decide), writes_sub_of_mem main_v229 rfl (by decide),
   writes_sub_of_mem main_v230 rfl (by decide), writes_sub_of_mem main_v231 rfl (by decide), writes_sub_of_mem main_cst_50 rfl (by decide),
   writes_sub_of_mem main_v232 rfl (by decide), writes_sub_of_mem main_v233 rfl (by decide), writes_sub_of_mem main_v234 rfl (by decide),
   writes_sub_of_mem main_cst_51 rfl (by decide), writes_sub_of_mem main_v235 rfl (by decide), writes_sub_of_mem main_v236 rfl (by decide),
   writes_sub_of_mem main_cst_52 rfl (by decide), writes_sub_of_mem main_v237 rfl (by decide), writes_sub_of_mem main_v238 rfl (by decide),
   writes_sub_of_mem main_v239 rfl (by decide), writes_sub_of_mem main_c_53 rfl (by decide), writes_sub_of_mem main_v240 rfl (by decide),
   writes_sub_of_mem main_v241 rfl (by decide), writes_sub_of_mem main_c_54 rfl (by decide), writes_sub_of_mem main_v242 rfl (by decide),
   writes_sub_of_mem main_v243 rfl (by decide), writes_sub_of_mem main_v244 rfl (by decide), writes_sub_of_mem main_v245 rfl (by decide),
   writes_sub_of_mem main_v246 rfl (by decide), writes_sub_of_mem main_v247 rfl (by decide), writes_sub_of_mem main_v248 rfl (by decide),
   writes_sub_of_mem main_v249 rfl (by decide), writes_sub_of_mem main_cst_55 rfl (by decide), writes_sub_of_mem main_v250 rfl (by decide),
   writes_sub_of_mem main_v251 rfl (by decide), writes_sub_of_mem main_v252 rfl (by decide), writes_sub_of_mem main_cst_56 rfl (by decide),
   writes_sub_of_mem main_v253 rfl (by decide), writes_sub_of_mem main_v254 rfl (by decide), writes_sub_of_mem main_cst_57 rfl (by decide),
   writes_sub_of_mem main_v255 rfl (by decide), writes_sub_of_mem main_v256 rfl (by decide), writes_sub_of_mem main_v257 rfl (by decide),
   writes_sub_of_mem main_call3_cst rfl (by decide), writes_sub_of_mem main_call3_v0 rfl (by decide), writes_sub_of_mem main_call3_cst_0 rfl (by decide),
   writes_sub_of_mem main_call3_v1 rfl (by decide), writes_sub_of_mem main_call3_v2 rfl (by decide), writes_sub_of_mem main_call3_v3 rfl (by decide),
   writes_sub_of_mem main_call3_v4 rfl (by decide), writes_sub_of_mem main_call3_v5 rfl (by decide), writes_sub_of_mem main_call3_v6 rfl (by decide),
   writes_sub_of_mem main_call3_cst_1 rfl (by decide), writes_sub_of_mem main_call3_v7 rfl (by decide), writes_sub_of_mem main_call3_v8 rfl (by decide),
   writes_sub_of_mem main_call3_v9 rfl (by decide), writes_sub_of_mem main_call3_v10 rfl (by decide), writes_sub_of_mem main_v258 rfl (by decide)⟩

/-- Every operation writes inside the list of result buffers. -/
theorem ops_writes : (ops : List (HloOp τ sig (Elt F))).Forall fun op =>
    op.writes ⊆ (refW.map (Proc.devRef (τ := τ) .tc)).toFinset :=
  forall_append mlpOps_writes tailOps_writes

/-- A buffer that is not a result buffer holds after the run what it held at launch. -/
theorem kept (m : (ℓ : Loc nD τ sig) → Buf (Elt F) ℓ) (c : Dev nD) (r : Ref sig .tc) (hr : r ∉ refW) :
    after (ops (F := F)) (fun b => m (c, b)) (Proc.devRef .tc r) = m ((c.tc : Thread nD τ).loc r) :=
  after_of_writes_sub (W := refW) ops _ ops_writes hr

/-! ## The run -/

/-- On every device, for any float values, from any memory with zero counters: every weakly fair execution of the
    entry function terminates with the returned buffer at the operations' fold over the launch contents and each of
    the sixteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v258) = after (ops (F := F)) (fun b => m (c, b)) (Proc.devRef .tc main_v258)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨h c main_v258,
      (h c main_arg0).trans (kept m c main_arg0 (by decide)),
      (h c main_arg1).trans (kept m c main_arg1 (by decide)),
      (h c main_arg2).trans (kept m c main_arg2 (by decide)),
      (h c main_arg3).trans (kept m c main_arg3 (by decide)),
      (h c main_arg4).trans (kept m c main_arg4 (by decide)),
      (h c main_arg5).trans (kept m c main_arg5 (by decide)),
      (h c main_arg6).trans (kept m c main_arg6 (by decide)),
      (h c main_arg7).trans (kept m c main_arg7 (by decide)),
      (h c main_arg8).trans (kept m c main_arg8 (by decide)),
      (h c main_arg9).trans (kept m c main_arg9 (by decide)),
      (h c main_arg10).trans (kept m c main_arg10 (by decide)),
      (h c main_arg11).trans (kept m c main_arg11 (by decide)),
      (h c main_arg12).trans (kept m c main_arg12 (by decide)),
      (h c main_arg13).trans (kept m c main_arg13 (by decide)),
      (h c main_arg14).trans (kept m c main_arg14 (by decide)),
      (h c main_arg15).trans (kept m c main_arg15 (by decide))⟩)
    (run_seq scopedRefs_eq scopedSems_eq defs main (fun _ => ops) main_eq (fun _ => ops_sub) m ρ (fun _ => ops_fresh))

/-- The run with the returned buffer's value dropped: each argument is unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => (h c).2) (run m ρ)

end Cert.ReferenceIdeal.HandRun

end
-- ==== Proof.BnMlp.lean ====
/-
  One row of a three-layer perceptron with batch normalisation, on the extended reals.

  For a row `x` of 512 features and weights given as functions of (input feature, output feature):
    y₁ j = (∑ k, x k · W₁ k j) + b₁ j,        a₁ j = max (bn (y₁ j)) 0,
    y₂ j = (∑ k, a₁ k · W₂ k j) + b₂ j,       a₂ j = a₁ j + max (bn (y₂ j)) 0,
    out q = (∑ k, a₂ k · W₃ k q) + b₃ q,
  where the normalisation of one feature is  bn y = ((y − μ) · rsqrt (σ² + ε)) · γ + β, the factors taken in exactly
  that order (on the extended reals the order of a product matters at the infinities, so it is part of the definition).
  The offset ε and the zero of the rectifier are kept as the binary words the programs print; the same word on both
  sides of an equation is never evaluated.
-/
import Idealize.ShloMosaic.PureOps.Ideal
import Idealize.ShloMosaic.Lib.ValueIdx

noncomputable section

open scoped BigOperators

namespace Cert.Layer.BnMlp

open Idealize.ShloMosaic

/-- The variance offset, as the word both programs print (the float nearest 1e-5). -/
abbrev eps : EReal := Ideal.ofBits .f32 0x3727C5AC#32
/-- The rectifier's floor, as the zero word both programs print. -/
abbrev floor0 : EReal := Ideal.ofBits .f32 0x00000000#32

/-- Batch normalisation of one feature: centre, scale by the inverse deviation, then the learned gain and shift. -/
def bn (y μ σ2 γ β : EReal) : EReal := (y - μ) * Ideal.rsqrt (σ2 + eps) * γ + β

/-- First hidden layer of a row. -/
def a₁ {D H : Nat} (x : Fin D → EReal) (W₁ : Fin D → Fin H → EReal) (b₁ μ₁ σ₁ γ₁ β₁ : Fin H → EReal) (j : Fin H) : EReal :=
  max (bn ((∑ k : Fin D, x k * W₁ k j) + b₁ j) (μ₁ j) (σ₁ j) (γ₁ j) (β₁ j)) floor0

/-- Second hidden layer of a row, with its residual connection. -/
def a₂ {H : Nat} (h : Fin H → EReal) (W₂ : Fin H → Fin H → EReal) (b₂ μ₂ σ₂ γ₂ β₂ : Fin H → EReal) (j : Fin H) : EReal :=
  h j + max (bn ((∑ k : Fin H, h k * W₂ k j) + b₂ j) (μ₂ j) (σ₂ j) (γ₂ j) (β₂ j)) floor0

/-- The output projection of a row. -/
def proj {H C : Nat} (h : Fin H → EReal) (W₃ : Fin H → Fin C → EReal) (b₃ : Fin C → EReal) (q : Fin C) : EReal :=
  (∑ k : Fin H, h k * W₃ k q) + b₃ q

/-- The whole row map. -/
def row {D H C : Nat} (x : Fin D → EReal) (W₁ : Fin D → Fin H → EReal) (b₁ μ₁ σ₁ γ₁ β₁ : Fin H → EReal)
    (W₂ : Fin H → Fin H → EReal) (b₂ μ₂ σ₂ γ₂ β₂ : Fin H → EReal) (W₃ : Fin H → Fin C → EReal) (b₃ : Fin C → EReal)
    (q : Fin C) : EReal :=
  proj (a₂ (a₁ x W₁ b₁ μ₁ σ₁ γ₁ β₁) W₂ b₂ μ₂ σ₂ γ₂ β₂) W₃ b₃ q

end Cert.Layer.BnMlp

end
-- ==== Proof.LibMatmul.lean ====
/-
  A plain matrix product's contraction as a sum over the shared axis.

  For dimension numbers that contract the left operand's axis 1 with the right operand's axis 0, with no batch axis
  (rows × shared axis times shared axis × columns), the contraction index is one coordinate `k` below the shared
  extent; the left factor of the product at the output index (r, c) is the left operand at (r, k) and the right factor
  the right operand at (k, c).  So the sum over the contraction index is `∑ k, l (r, k) * r' (k, c)`.
  Both a matrix unit's product into a zero accumulator and a host `dot_general` are, on the extended reals, that sum
  over their own dimension numbers; this file reads both as the same `Fin`-indexed sum.
-/
import Idealize.ShloMosaic.Lib.ValueIdx
import Idealize.ShloMosaic.PureOps.Ideal.Laws

noncomputable section

open scoped BigOperators

namespace Cert.Layer.Matmul

open Idealize.ShloMosaic Idealize.ShloMosaic.ValueIdx

/-- The sum over a plain product's contraction index is the sum over the shared axis' coordinate of the left operand
    at (row, k) times the right operand at (k, column). -/
theorem plain_contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (n0 := M) (n1 := K) (j 0) k) * r (ix2 (n0 := K) (n1 := N) k (j 1)) := by
  obtain ⟨lc, rc, ln, rn, lb, rb, wf⟩ := d
  dsimp only at hlc hrc hln hrn hlb hrb
  subst hlc hrc hln hrn hlb hrb
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  have hlc : D.lhsContracting = [1] := by subst hD; rfl
  have hrc : D.rhsContracting = [0] := by subst hD; rfl
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (n0 := M) (n1 := K) (j 0) k := funext fun a => Fin.ext (by
    match a with
    | ⟨0, _⟩ =>
      subst hD
      show (DotDims.lhsIdx _ j _ ⟨0, _⟩).val = (j 0).val
      unfold DotDims.lhsIdx
      split
      · rename_i hb; exact absurd hb List.not_mem_nil
      · split
        · rfl
        · rename_i hn; exact absurd (List.mem_singleton.mpr rfl) hn
    | ⟨1, _⟩ => exact (D.lhsIdx_val_of_single hlc j _).trans hk)
  have er : D.rhsIdx j ((contrEquiv1 D K hr hs).symm k) = ix2 (n0 := K) (n1 := N) k (j 1) := funext fun a => Fin.ext (by
    match a with
    | ⟨0, _⟩ => exact (D.rhsIdx_val_of_single hrc j _).trans hk
    | ⟨1, _⟩ =>
      subst hD
      show (DotDims.rhsIdx _ j _ ⟨1, _⟩).val = (j 1).val
      unfold DotDims.rhsIdx
      split
      · rename_i hb; exact absurd hb List.not_mem_nil
      · split
        · rfl
        · rename_i hn; exact absurd (List.mem_singleton.mpr rfl) hn)
  exact congrArg₂ (· * ·) (congrArg l el) (congrArg r er)

end Cert.Layer.Matmul

end
-- ==== Proof.KernelBlock.lean ====
/-
  The block a grid point computes, read one entry at a time.

  A block takes 2000 rows of 512 features. Its first hidden layer multiplies the rows by the 512 × 128 weights, adds the
  bias, and normalises every feature — subtract the running mean, multiply by the inverse square root of the running
  variance plus the offset, then by the gain, add the shift — before the rectifier. The second layer does the same with
  the 128 × 128 weights and adds its rectified result to the first layer's; the output layer multiplies by the 128 × 3
  weights and adds its bias. Each per-feature vector comes as a one-row block repeated down the 2000 rows, and every
  matrix product runs into a zero accumulator on operands narrowed to bf16, which changes nothing on extended reals.

  Read at row `p` and class `q` the block is therefore the three-layer row map `Cert.Layer.BnMlp.row` applied to row `p` of
  the input alone: a repeated row reads its own entry (`row_bcast_apply`), a product reads the sum over the shared axis
  (`matmul_plain_apply`), a normalised and rectified block reads `max (bn …) 0` entrywise (`bn_relu_apply`), and the
  three printed terms compose these (`pay2_apply`, `pay3_apply`, `pay1_apply`, `block_apply`). No law of arithmetic is
  used: both sides take the same sums and products in the same order, so nothing here depends on the entries being finite.
-/
import proofs.«117862_j74251394613578_1_alg».proof.Proof.Gen.KernelIdeal.Skeleton
import proofs.«117862_j74251394613578_1_alg».proof.Proof.BnMlp
import proofs.«117862_j74251394613578_1_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Idealize.ShloMosaic Idealize.ShloMosaic.ValueIdx Cert.KernelIdeal Cert.KernelIdeal.Gen Cert.Layer

/-- An inverse square root of a block reads, at an index, the inverse square root of the element there. -/
theorem rsqrt_apply {s : Shape} {φ : FTy} (a : FVec Ideal s φ) (i : s.Idx) : rsqrt a i = Ideal.rsqrt (a i) := rfl

/-- A per-feature row `[1, b]`, cast to its own shape and repeated down `a` rows, reads at `(p, c)` the row's entry `c`. -/
theorem row_bcast_apply {a b : ℕ} (v : (⟨2, ![1, b]⟩ : Shape).Idx → EReal)
    (hc : (⟨2, ![1, b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix2 (0 : Fin 1) c) := by
  rw [shapeCast_self]
  exact broadcastTo_1b_ab_apply v hb p c

/-- A plain product of an `[M, K]` block with a `[K, N]` block (the second cast to its own shape, both narrowed to
    bf16 — the identity on extended reals) into a zero accumulator reads, at `(p, c)`, the sum over the shared axis. -/
theorem matmul_plain_apply {M K N : ℕ} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : FVec Ideal ⟨2, ![M, K]⟩ .f32) (r : FVec Ideal ⟨2, ![K, N]⟩ .f32)
    (hc : (⟨2, ![K, N]⟩ : Shape).ShapeCasts ⟨2, ![K, N]⟩) (hbits : FTy.bits .bf16 < FTy.bits .f32)
    (p : Fin M) (c : Fin N) :
    matmul (F := Ideal) d none (truncf .bf16 l hbits) (truncf .bf16 (shapeCast ⟨2, ![K, N]⟩ r hc) hbits)
        (constant ⟨2, ![M, N]⟩ .f32 0x00000000#32) (ix2 p c)
      = ∑ k : Fin K, l (ix2 p k) * r (ix2 k c) := by
  rw [shapeCast_self]
  refine (Ideal.matmul_constant_zero_apply d none _ _ (ix2 p c)).trans ?_
  exact Matmul.plain_contr_sum d hlc hrc hln hrn hlb hrb l r (ix2 p c)

/-- A block normalised feature by feature and rectified, read at `(p, c)`. -/
theorem bn_relu_apply {a b : ℕ} (y : FVec Ideal ⟨2, ![a, b]⟩ .f32) (m v g be : Vec Ideal ⟨2, ![1, b]⟩ .f32)
    (hc : (⟨2, ![1, b]⟩ : Shape).ShapeCasts ⟨2, ![1, b]⟩) (hb : (⟨2, ![1, b]⟩ : Shape).Broadcasts ⟨2, ![a, b]⟩)
    (p : Fin a) (c : Fin b) :
    maximumf (addf (mulf (mulf (subf y (broadcastTo ⟨2, ![a, b]⟩ (shapeCast ⟨2, ![1, b]⟩ m hc) hb))
        (broadcastTo ⟨2, ![a, b]⟩ (rsqrt (addf (shapeCast ⟨2, ![1, b]⟩ v hc) (broadcast ⟨2, ![1, b]⟩ (Scalar.ofBits (F := Ideal) .f32 0x3727C5AC#32)))) hb))
        (broadcastTo ⟨2, ![a, b]⟩ (shapeCast ⟨2, ![1, b]⟩ g hc) hb)) (broadcastTo ⟨2, ![a, b]⟩ (shapeCast ⟨2, ![1, b]⟩ be hc) hb))
        (broadcast ⟨2, ![a, b]⟩ (Scalar.ofBits (F := Ideal) .f32 0x00000000#32)) (ix2 p c)
      = max (BnMlp.bn (y (ix2 p c)) (m (ix2 (0 : Fin 1) c)) (v (ix2 (0 : Fin 1) c)) (g (ix2 (0 : Fin 1) c)) (be (ix2 (0 : Fin 1) c))) BnMlp.floor0 := by
  simp only [maximumf_apply, addf_apply, mulf_apply, subf_apply, row_bcast_apply, broadcastTo_1b_ab_apply, rsqrt_apply,
    broadcast_apply, shapeCast_self]
  rfl

/-- The first hidden layer of the block, read at row `p` and feature `j`: the first layer of row `p`. -/
theorem pay2_apply (x : Vec Ideal S2000x512 .f32) (w1T : Vec Ideal S512x128 .f32) (b1 m1 v1 g1 be1 : Vec Ideal S1x128 .f32)
    (p : Fin 2000) (j : Fin 128) :
    k0_pay2 (F := Ideal) x w1T b1 m1 v1 g1 be1 (ix2 p j)
      = BnMlp.a₁ (fun k : Fin 512 => x (ix2 p k)) (fun (k : Fin 512) (j : Fin 128) => w1T (ix2 k j))
          (fun j => b1 (ix2 (0 : Fin 1) j)) (fun j => m1 (ix2 (0 : Fin 1) j)) (fun j => v1 (ix2 (0 : Fin 1) j))
          (fun j => g1 (ix2 (0 : Fin 1) j)) (fun j => be1 (ix2 (0 : Fin 1) j)) j := by
  unfold k0_pay2
  refine (bn_relu_apply (a := 2000) (b := 128) _ m1 v1 g1 be1 _ _ p j).trans ?_
  unfold BnMlp.a₁
  refine congrArg (fun y => max (BnMlp.bn y _ _ _ _) BnMlp.floor0) ?_
  refine (addf_apply _ _ _).trans ?_
  refine congrArg₂ (· + ·) ?_ ?_
  · exact matmul_plain_apply dot_S2000x512_S512x128_S2000x128_1_0_0_1_n_n rfl rfl rfl rfl rfl rfl x w1T _ _ p j
  · exact row_bcast_apply b1 _ _ p j

/-- The second layer's product, read at row `p` and feature `j`: the first layer of row `p` against column `j`. -/
theorem pay3_apply (x : Vec Ideal S2000x512 .f32) (w1T : Vec Ideal S512x128 .f32) (b1 m1 v1 g1 be1 : Vec Ideal S1x128 .f32)
    (w2T : Vec Ideal S128x128 .f32) (p : Fin 2000) (j : Fin 128) :
    k0_pay3 (F := Ideal) x w1T b1 m1 v1 g1 be1 w2T (ix2 p j)
      = ∑ k : Fin 128, BnMlp.a₁ (fun k : Fin 512 => x (ix2 p k)) (fun (k : Fin 512) (j : Fin 128) => w1T (ix2 k j))
          (fun j => b1 (ix2 (0 : Fin 1) j)) (fun j => m1 (ix2 (0 : Fin 1) j)) (fun j => v1 (ix2 (0 : Fin 1) j))
          (fun j => g1 (ix2 (0 : Fin 1) j)) (fun j => be1 (ix2 (0 : Fin 1) j)) k * w2T (ix2 k j) := by
  unfold k0_pay3
  refine (matmul_plain_apply dot_S2000x128_S128x128_S2000x128_1_0_0_1_n_n rfl rfl rfl rfl rfl rfl
    (k0_pay2 x w1T b1 m1 v1 g1 be1) w2T _ _ p j).trans ?_
  exact Finset.sum_congr rfl fun k _ => congrArg (· * w2T (ix2 k j)) (pay2_apply x w1T b1 m1 v1 g1 be1 p k)

/-- The rest of the block over any first-layer block `h` and second-layer product `y`, read at row `p` and class `q`. -/
theorem pay1_apply (h y : FVec Ideal S2000x128 .f32) (b2 m2 v2 g2 be2 : Vec Ideal S1x128 .f32) (w3T : Vec Ideal S128x3 .f32)
    (b3 : Vec Ideal S1x3 .f32) (p : Fin 2000) (q : Fin 3) :
    k0_pay1 (F := Ideal) h y b2 m2 v2 g2 be2 w3T b3 (ix2 p q)
      = (∑ k : Fin 128, (h (ix2 p k) + max (BnMlp.bn (y (ix2 p k) + b2 (ix2 (0 : Fin 1) k)) (m2 (ix2 (0 : Fin 1) k))
            (v2 (ix2 (0 : Fin 1) k)) (g2 (ix2 (0 : Fin 1) k)) (be2 (ix2 (0 : Fin 1) k))) BnMlp.floor0) * w3T (ix2 k q))
          + b3 (ix2 (0 : Fin 1) q) := by
  unfold k0_pay1
  refine (addf_apply _ _ _).trans ?_
  refine congrArg₂ (· + ·) ?_ (row_bcast_apply b3 _ _ p q)
  refine (matmul_plain_apply dot_S2000x128_S128x3_S2000x3_1_0_0_1_n_n rfl rfl rfl rfl rfl rfl _ w3T _ _ p q).trans ?_
  refine Finset.sum_congr rfl fun k _ => congrArg (· * w3T (ix2 k q)) ?_
  refine (addf_apply _ _ _).trans ?_
  refine congrArg (h (ix2 p k) + ·) ?_
  refine (bn_relu_apply (a := 2000) (b := 128) _ m2 v2 g2 be2 _ _ p k).trans ?_
  refine congrArg (fun t => max (BnMlp.bn t _ _ _ _) BnMlp.floor0) ?_
  exact (addf_apply _ _ _).trans (congrArg (y (ix2 p k) + ·) (row_bcast_apply b2 _ _ p k))

/-- The kernel's block, read at row `p` and class `q`, is the three-layer row map of row `p` of the input block. -/
theorem block_apply (x : Vec Ideal S2000x512 .f32) (w1T : Vec Ideal S512x128 .f32) (b1 g1 be1 m1 v1 : Vec Ideal S1x128 .f32)
    (w2T : Vec Ideal S128x128 .f32) (b2 g2 be2 m2 v2 : Vec Ideal S1x128 .f32) (w3T : Vec Ideal S128x3 .f32) (b3 : Vec Ideal S1x3 .f32)
    (p : Fin 2000) (q : Fin 3) :
    k0_pay1 (F := Ideal) (k0_pay2 x w1T b1 m1 v1 g1 be1) (k0_pay3 x w1T b1 m1 v1 g1 be1 w2T) b2 m2 v2 g2 be2 w3T b3 (ValueIdx.ix2 p q)
      = Cert.Layer.BnMlp.row (fun k : Fin 512 => x (ValueIdx.ix2 p k)) (fun (k : Fin 512) (j : Fin 128) => w1T (ValueIdx.ix2 k j))
          (fun j => b1 (ValueIdx.ix2 (0 : Fin 1) j)) (fun j => m1 (ValueIdx.ix2 (0 : Fin 1) j)) (fun j => v1 (ValueIdx.ix2 (0 : Fin 1) j)) (fun j => g1 (ValueIdx.ix2 (0 : Fin 1) j)) (fun j => be1 (ValueIdx.ix2 (0 : Fin 1) j))
          (fun (k j : Fin 128) => w2T (ValueIdx.ix2 k j))
          (fun j => b2 (ValueIdx.ix2 (0 : Fin 1) j)) (fun j => m2 (ValueIdx.ix2 (0 : Fin 1) j)) (fun j => v2 (ValueIdx.ix2 (0 : Fin 1) j)) (fun j => g2 (ValueIdx.ix2 (0 : Fin 1) j)) (fun j => be2 (ValueIdx.ix2 (0 : Fin 1) j))
          (fun (k : Fin 128) (c : Fin 3) => w3T (ValueIdx.ix2 k c)) (fun c => b3 (ValueIdx.ix2 (0 : Fin 1) c)) q := by
  refine (pay1_apply _ _ b2 m2 v2 g2 be2 w3T b3 p q).trans ?_
  unfold BnMlp.row BnMlp.proj BnMlp.a₂
  refine congrArg (· + b3 (ix2 (0 : Fin 1) q)) ?_
  refine Finset.sum_congr rfl fun k _ => congrArg (· * w3T (ix2 k q)) ?_
  rw [pay2_apply, pay3_apply]

end Cert.KernelIdeal.BlockValue

end
-- ==== Proof.KernelValue.lean ====
/-
  From the blocks to the whole output array.

  The region visits fifty grid points. At point `t` it reads rows `2000 t … 2000 t + 1999` of the first argument and the
  fourteen weight blocks — each the whole of its array, which the host laid out before the region: every weight matrix
  transposed to input-feature-first order, every per-feature vector as a one-row matrix — and writes rows
  `2000 t … 2000 t + 1999` of the output. Entry `(p, q)` of the block written is the three-layer row map of row `p` of
  the rows' block (`BlockValue.block_apply`), and a row of the block at point `t` is row `2000 t + p` of the argument. So
  what point `t` writes back is block `t` of ONE function `acts` of the argument arrays: row `r` of the result is the row
  map of row `r` of the first argument under the weights as stored. The fifty blocks tile the 100000 rows (row `r` lies
  in the block of point `r / 2000`), so the output array ends holding `acts` everywhere.
-/
import proofs.«117862_j74251394613578_1_alg».proof.Proof.KernelIdealFrame
import proofs.«117862_j74251394613578_1_alg».proof.Proof.KernelBlock
import proofs.«117862_j74251394613578_1_alg».proof.Proof.BnMlp
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.Layer

variable (m : (ℓ : Loc nD τ sig) → Buf (Elt Ideal) ℓ)

/-- The output array as one function of the sixteen argument arrays: row `i 0` of the result is the three-layer row map of
    row `i 0` of the first argument, under the weights as the arguments hold them (each weight matrix is stored output
    feature first, so the row map reads it transposed). -/
def acts (c : Dev nD) : Buf (Elt Ideal) ((c.tc : Thread nD τ).loc main_v0) := fun i =>
  BnMlp.row (fun k : Fin 512 => (m ((c.tc : Thread nD τ).loc main_arg0) : S100000x512.Idx → EReal) (ix2 (i 0) k))
    (fun (k : Fin 512) (j : Fin 128) => (m ((c.tc : Thread nD τ).loc main_arg2) : S128x512.Idx → EReal) (ix2 j k))
    (fun j => (m ((c.tc : Thread nD τ).loc main_arg3) : S128.Idx → EReal) (ix1 j))
    (fun j => (m ((c.tc : Thread nD τ).loc main_arg6) : S128.Idx → EReal) (ix1 j))
    (fun j => (m ((c.tc : Thread nD τ).loc main_arg7) : S128.Idx → EReal) (ix1 j))
    (fun j => (m ((c.tc : Thread nD τ).loc main_arg4) : S128.Idx → EReal) (ix1 j))
    (fun j => (m ((c.tc : Thread nD τ).loc main_arg5) : S128.Idx → EReal) (ix1 j))
    (fun (k j : Fin 128) => (m ((c.tc : Thread nD τ).loc main_arg8) : S128x128.Idx → EReal) (ix2 j k))
    (fun j => (m ((c.tc : Thread nD τ).loc main_arg9) : S128.Idx → EReal) (ix1 j))
    (fun j => (m ((c.tc : Thread nD τ).loc main_arg12) : S128.Idx → EReal) (ix1 j))
    (fun j => (m ((c.tc : Thread nD τ).loc main_arg13) : S128.Idx → EReal) (ix1 j))
    (fun j => (m ((c.tc : Thread nD τ).loc main_arg10) : S128.Idx → EReal) (ix1 j))
    (fun j => (m ((c.tc : Thread nD τ).loc main_arg11) : S128.Idx → EReal) (ix1 j))
    (fun (k : Fin 128) (q : Fin 3) => (m ((c.tc : Thread nD τ).loc main_arg14) : S3x128.Idx → EReal) (ix2 q k))
    (fun q => (m ((c.tc : Thread nD τ).loc main_arg15) : S3.Idx → EReal) (ix1 q)) (i 1)

/-! ## The weight arrays as the region finds them

  Before the region the host lays each weight matrix out input feature first (a transpose) and each per-feature
  vector as a one-row matrix (a reshape). -/

theorem V_w1 (c : Dev nD) : (V m c main_call0_v0 : S512x128.Idx → EReal) = transpose S512x128 [1, 0] (m ((c : Thread nD τ).loc main_arg2) : S128x512.Idx → EReal) transposes_S128x512_S512x128_1_0 := by
  dsimp only [V, V0]
  simp only [hostOps0, List.flatten_cons, List.flatten_nil, List.append_nil]
  after_results
  rfl

theorem V_w7 (c : Dev nD) : (V m c main_call0_v1 : S128x128.Idx → EReal) = transpose S128x128 [1, 0] (m ((c : Thread nD τ).loc main_arg8) : S128x128.Idx → EReal) transposes_S128x128_S128x128_1_0 := by
  dsimp only [V, V0]
  simp only [hostOps0, List.flatten_cons, List.flatten_nil, List.append_nil]
  after_results
  rfl

theorem V_w13 (c : Dev nD) : (V m c main_call0_v2 : S128x3.Idx → EReal) = transpose S128x3 [1, 0] (m ((c : Thread nD τ).loc main_arg14) : S3x128.Idx → EReal) transposes_S3x128_S128x3_1_0 := by
  dsimp only [V, V0]
  simp only [hostOps0, List.flatten_cons, List.flatten_nil, List.append_nil]
  after_results
  rfl

theorem V_w2 (c : Dev nD) : (V m c main_call0_v3 : S1x128.Idx → EReal) = shapeCast S1x128 (m ((c : Thread nD τ).loc main_arg3) : S128.Idx → EReal) shapeCasts_S128_S1x128 := by
  dsimp only [V, V0]
  simp only [hostOps0, List.flatten_cons, List.flatten_nil, List.append_nil]
  after_results
  rfl

theorem V_w3 (c : Dev nD) : (V m c main_call0_v4 : S1x128.Idx → EReal) = shapeCast S1x128 (m ((c : Thread nD τ).loc main_arg4) : S128.Idx → EReal) shapeCasts_S128_S1x128 := by
  dsimp only [V, V0]
  simp only [hostOps0, List.flatten_cons, List.flatten_nil, List.append_nil]
  after_results
  rfl

theorem V_w4 (c : Dev nD) : (V m c main_call0_v5 : S1x128.Idx → EReal) = shapeCast S1x128 (m ((c : Thread nD τ).loc main_arg5) : S128.Idx → EReal) shapeCasts_S128_S1x128 := by
  dsimp only [V, V0]
  simp only [hostOps0, List.flatten_cons, List.flatten_nil, List.append_nil]
  after_results
  rfl

theorem V_w5 (c : Dev nD) : (V m c main_call0_v6 : S1x128.Idx → EReal) = shapeCast S1x128 (m ((c : Thread nD τ).loc main_arg6) : S128.Idx → EReal) shapeCasts_S128_S1x128 := by
  dsimp only [V, V0]
  simp only [hostOps0, List.flatten_cons, List.flatten_nil, List.append_nil]
  after_results
  rfl

theorem V_w6 (c : Dev nD) : (V m c main_call0_v7 : S1x128.Idx → EReal) = shapeCast S1x128 (m ((c : Thread nD τ).loc main_arg7) : S128.Idx → EReal) shapeCasts_S128_S1x128 := by
  dsimp only [V, V0]
  simp only [hostOps0, List.flatten_cons, List.flatten_nil, List.append_nil]
  after_results
  rfl

theorem V_w8 (c : Dev nD) : (V m c main_call0_v8 : S1x128.Idx → EReal) = shapeCast S1x128 (m ((c : Thread nD τ).loc main_arg9) : S128.Idx → EReal) shapeCasts_S128_S1x128 := by
  dsimp only [V, V0]
  simp only [hostOps0, List.flatten_cons, List.flatten_nil, List.append_nil]
  after_results
  rfl

theorem V_w9 (c : Dev nD) : (V m c main_call0_v9 : S1x128.Idx → EReal) = shapeCast S1x128 (m ((c : Thread nD τ).loc main_arg10) : S128.Idx → EReal) shapeCasts_S128_S1x128 := by
  dsimp only [V, V0]
  simp only [hostOps0, List.flatten_cons, List.flatten_nil, List.append_nil]
  after_results
  rfl

theorem V_w10 (c : Dev nD) : (V m c main_call0_v10 : S1x128.Idx → EReal) = shapeCast S1x128 (m ((c : Thread nD τ).loc main_arg11) : S128.Idx → EReal) shapeCasts_S128_S1x128 := by
  dsimp only [V, V0]
  simp only [hostOps0, List.flatten_cons, List.flatten_nil, List.append_nil]
  after_results
  rfl

theorem V_w11 (c : Dev nD) : (V m c main_call0_v11 : S1x128.Idx → EReal) = shapeCast S1x128 (m ((c : Thread nD τ).loc main_arg12) : S128.Idx → EReal) shapeCasts_S128_S1x128 := by
  dsimp only [V, V0]
  simp only [hostOps0, List.flatten_cons, List.flatten_nil, List.append_nil]
  after_results
  rfl

theorem V_w12 (c : Dev nD) : (V m c main_call0_v12 : S1x128.Idx → EReal) = shapeCast S1x128 (m ((c : Thread nD τ).loc main_arg13) : S128.Idx → EReal) shapeCasts_S128_S1x128 := by
  dsimp only [V, V0]
  simp only [hostOps0, List.flatten_cons, List.flatten_nil, List.append_nil]
  after_results
  rfl

theorem V_w14 (c : Dev nD) : (V m c main_call0_v13 : S1x3.Idx → EReal) = shapeCast S1x3 (m ((c : Thread nD τ).loc main_arg15) : S3.Idx → EReal) shapeCasts_S3_S1x3 := by
  dsimp only [V, V0]
  simp only [hostOps0, List.flatten_cons, List.flatten_nil, List.append_nil]
  after_results
  rfl

/-! ## The printed index maps, decided once over the fifty grid points

  The rows' block and the output's block move together, one block of 2000 rows per point; every weight block is the
  whole array at every point. -/

theorem idx_rows : ∀ t : Fin cfg0.N, win0_0.index t (0 : Fin 2) = t.val ∧ win0_0.index t (1 : Fin 2) = 0
    ∧ win0_15.index t (0 : Fin 2) = t.val ∧ win0_15.index t (1 : Fin 2) = 0 :=
  (by decide +kernel : ∀ t : Fin grid0.N, _)
theorem idx_zero1 : ∀ t : Fin cfg0.N, win0_1.index t (0 : Fin 2) = 0 ∧ win0_1.index t (1 : Fin 2) = 0 :=
  (by decide +kernel : ∀ t : Fin grid0.N, _)
theorem idx_zero2 : ∀ t : Fin cfg0.N, win0_2.index t (0 : Fin 2) = 0 ∧ win0_2.index t (1 : Fin 2) = 0 :=
  (by decide +kernel : ∀ t : Fin grid0.N, _)
theorem idx_zero3 : ∀ t : Fin cfg0.N, win0_3.index t (0 : Fin 2) = 0 ∧ win0_3.index t (1 : Fin 2) = 0 :=
  (by decide +kernel : ∀ t : Fin grid0.N, _)
theorem idx_zero4 : ∀ t : Fin cfg0.N, win0_4.index t (0 : Fin 2) = 0 ∧ win0_4.index t (1 : Fin 2) = 0 :=
  (by decide +kernel : ∀ t : Fin grid0.N, _)
theorem idx_zero5 : ∀ t : Fin cfg0.N, win0_5.index t (0 : Fin 2) = 0 ∧ win0_5.index t (1 : Fin 2) = 0 :=
  (by decide +kernel : ∀ t : Fin grid0.N, _)
theorem idx_zero6 : ∀ t : Fin cfg0.N, win0_6.index t (0 : Fin 2) = 0 ∧ win0_6.index t (1 : Fin 2) = 0 :=
  (by decide +kernel : ∀ t : Fin grid0.N, _)
theorem idx_zero7 : ∀ t : Fin cfg0.N, win0_7.index t (0 : Fin 2) = 0 ∧ win0_7.index t (1 : Fin 2) = 0 :=
  (by decide +kernel : ∀ t : Fin grid0.N, _)
theorem idx_zero8 : ∀ t : Fin cfg0.N, win0_8.index t (0 : Fin 2) = 0 ∧ win0_8.index t (1 : Fin 2) = 0 :=
  (by decide +kernel : ∀ t : Fin grid0.N, _)
theorem idx_zero9 : ∀ t : Fin cfg0.N, win0_9.index t (0 : Fin 2) = 0 ∧ win0_9.index t (1 : Fin 2) = 0 :=
  (by decide +kernel : ∀ t : Fin grid0.N, _)
theorem idx_zero10 : ∀ t : Fin cfg0.N, win0_10.index t (0 : Fin 2) = 0 ∧ win0_10.index t (1 : Fin 2) = 0 :=
  (by decide +kernel : ∀ t : Fin grid0.N, _)
theorem idx_zero11 : ∀ t : Fin cfg0.N, win0_11.index t (0 : Fin 2) = 0 ∧ win0_11.index t (1 : Fin 2) = 0 :=
  (by decide +kernel : ∀ t : Fin grid0.N, _)
theorem idx_zero12 : ∀ t : Fin cfg0.N, win0_12.index t (0 : Fin 2) = 0 ∧ win0_12.index t (1 : Fin 2) = 0 :=
  (by decide +kernel : ∀ t : Fin grid0.N, _)
theorem idx_zero13 : ∀ t : Fin cfg0.N, win0_13.index t (0 : Fin 2) = 0 ∧ win0_13.index t (1 : Fin 2) = 0 :=
  (by decide +kernel : ∀ t : Fin grid0.N, _)
theorem idx_zero14 : ∀ t : Fin cfg0.N, win0_14.index t (0 : Fin 2) = 0 ∧ win0_14.index t (1 : Fin 2) = 0 :=
  (by decide +kernel : ∀ t : Fin grid0.N, _)

theorem hz : (![0, 0] : Fin 2 → Nat) = fun _ => 0 := funext fun a => by fin_cases a <;> rfl

/-! ## Each input block at a point, read where the output's row says -/

/-- The rows' block at point `t` holds rows `2000 t … 2000 t + 1999` of the first argument. -/
theorem blk0_apply (c : Dev nD) (t : Fin cfg0.N) (p : Fin 2000) (k : Fin 512) (r : Fin 100000) (hr : r.val = t.val * 2000 + p.val) :
    iblk m c 0 t (ix2 p k) = (m ((c : Thread nD τ).loc main_arg0) : S100000x512.Idx → EReal) (ix2 r k) := by
  obtain ⟨e0, e1, -, -⟩ := idx_rows t
  show (V m c main_arg0 : S100000x512.Idx → EReal) (((cfg0.win 0).blk t).view.emb (ix2 p k)) = _
  rw [V_main_arg0]
  refine congrArg (m ((c : Thread nD τ).loc main_arg0) : S100000x512.Idx → EReal) (funext fun a => Fin.ext ?_)
  match a with
  | ⟨0, _⟩ => show win0_0.index t (0 : Fin 2) * 2000 + 1 * p.val = r.val; omega
  | ⟨1, _⟩ => show win0_0.index t (1 : Fin 2) * 512 + 1 * k.val = k.val; omega

/-- The first layer's weight block is the whole transposed weight matrix. -/
theorem blk1_apply (c : Dev nD) (t : Fin cfg0.N) (k : Fin 512) (j : Fin 128) :
    iblk m c 1 t (ix2 k j) = (m ((c : Thread nD τ).loc main_arg2) : S128x512.Idx → EReal) (ix2 j k) := by
  obtain ⟨e0, e1⟩ := idx_zero1 t
  have he : ((cfg0.win 1).blk t).view.emb (ix2 k j) = (ix2 k j : S512x128.Idx) := funext fun a => Fin.ext (by
    match a with
    | ⟨0, _⟩ => show win0_1.index t (0 : Fin 2) * 512 + 1 * k.val = k.val; omega
    | ⟨1, _⟩ => show win0_1.index t (1 : Fin 2) * 128 + 1 * j.val = j.val; omega)
  show (V m c main_call0_v0 : S512x128.Idx → EReal) (((cfg0.win 1).blk t).view.emb (ix2 k j)) = _
  rw [he, V_w1]
  exact transpose_ix2_apply _ _ k j

/-- The second layer's weight block is the whole transposed weight matrix. -/
theorem blk7_apply (c : Dev nD) (t : Fin cfg0.N) (k j : Fin 128) :
    iblk m c 7 t (ix2 k j) = (m ((c : Thread nD τ).loc main_arg8) : S128x128.Idx → EReal) (ix2 j k) := by
  obtain ⟨e0, e1⟩ := idx_zero7 t
  have he : ((cfg0.win 7).blk t).view.emb (ix2 k j) = (ix2 k j : S128x128.Idx) := funext fun a => Fin.ext (by
    match a with
    | ⟨0, _⟩ => show win0_7.index t (0 : Fin 2) * 128 + 1 * k.val = k.val; omega
    | ⟨1, _⟩ => show win0_7.index t (1 : Fin 2) * 128 + 1 * j.val = j.val; omega)
  show (V m c main_call0_v1 : S128x128.Idx → EReal) (((cfg0.win 7).blk t).view.emb (ix2 k j)) = _
  rw [he, V_w7]
  exact transpose_ix2_apply _ _ k j

/-- The output layer's weight block is the whole transposed weight matrix. -/
theorem blk13_apply (c : Dev nD) (t : Fin cfg0.N) (k : Fin 128) (q : Fin 3) :
    iblk m c 13 t (ix2 k q) = (m ((c : Thread nD τ).loc main_arg14) : S3x128.Idx → EReal) (ix2 q k) := by
  obtain ⟨e0, e1⟩ := idx_zero13 t
  have he : ((cfg0.win 13).blk t).view.emb (ix2 k q) = (ix2 k q : S128x3.Idx) := funext fun a => Fin.ext (by
    match a with
    | ⟨0, _⟩ => show win0_13.index t (0 : Fin 2) * 128 + 1 * k.val = k.val; omega
    | ⟨1, _⟩ => show win0_13.index t (1 : Fin 2) * 3 + 1 * q.val = q.val; omega)
  show (V m c main_call0_v2 : S128x3.Idx → EReal) (((cfg0.win 13).blk t).view.emb (ix2 k q)) = _
  rw [he, V_w13]
  exact transpose_ix2_apply _ _ k q

/-- The output layer's bias block is the whole bias, as one row. -/
theorem blk14_apply (c : Dev nD) (t : Fin cfg0.N) (q : Fin 3) :
    iblk m c 14 t (ix2 (0 : Fin 1) q) = (m ((c : Thread nD τ).loc main_arg15) : S3.Idx → EReal) (ix1 q) := by
  obtain ⟨e0, e1⟩ := idx_zero14 t
  have he : ((cfg0.win 14).blk t).view.emb (ix2 (0 : Fin 1) q) = (ix2 (0 : Fin 1) q : S1x3.Idx) := funext fun a => Fin.ext (by
    match a with
    | ⟨0, _⟩ => show win0_14.index t (0 : Fin 2) * 1 + 1 * 0 = 0; omega
    | ⟨1, _⟩ => show win0_14.index t (1 : Fin 2) * 3 + 1 * q.val = q.val; omega)
  show (V m c main_call0_v13 : S1x3.Idx → EReal) (((cfg0.win 14).blk t).view.emb (ix2 (0 : Fin 1) q)) = _
  rw [he, V_w14]
  exact shapeCast_a_1a_apply _ _ 0 q

/-! Each per-feature vector's block is the whole vector, as one row. -/

theorem blk2_apply (c : Dev nD) (t : Fin cfg0.N) (j : Fin 128) :
    iblk m c 2 t (ix2 (0 : Fin 1) j) = (m ((c : Thread nD τ).loc main_arg3) : S128.Idx → EReal) (ix1 j) := by
  obtain ⟨e0, e1⟩ := idx_zero2 t
  have he : ((cfg0.win 2).blk t).view.emb (ix2 (0 : Fin 1) j) = (ix2 (0 : Fin 1) j : S1x128.Idx) := funext fun a => Fin.ext (by
    match a with
    | ⟨0, _⟩ => show win0_2.index t (0 : Fin 2) * 1 + 1 * 0 = 0; omega
    | ⟨1, _⟩ => show win0_2.index t (1 : Fin 2) * 128 + 1 * j.val = j.val; omega)
  show (V m c main_call0_v3 : S1x128.Idx → EReal) (((cfg0.win 2).blk t).view.emb (ix2 (0 : Fin 1) j)) = _
  rw [he, V_w2]
  exact shapeCast_a_1a_apply _ _ 0 j

theorem blk3_apply (c : Dev nD) (t : Fin cfg0.N) (j : Fin 128) :
    iblk m c 3 t (ix2 (0 : Fin 1) j) = (m ((c : Thread nD τ).loc main_arg4) : S128.Idx → EReal) (ix1 j) := by
  obtain ⟨e0, e1⟩ := idx_zero3 t
  have he : ((cfg0.win 3).blk t).view.emb (ix2 (0 : Fin 1) j) = (ix2 (0 : Fin 1) j : S1x128.Idx) := funext fun a => Fin.ext (by
    match a with
    | ⟨0, _⟩ => show win0_3.index t (0 : Fin 2) * 1 + 1 * 0 = 0; omega
    | ⟨1, _⟩ => show win0_3.index t (1 : Fin 2) * 128 + 1 * j.val = j.val; omega)
  show (V m c main_call0_v4 : S1x128.Idx → EReal) (((cfg0.win 3).blk t).view.emb (ix2 (0 : Fin 1) j)) = _
  rw [he, V_w3]
  exact shapeCast_a_1a_apply _ _ 0 j

theorem blk4_apply (c : Dev nD) (t : Fin cfg0.N) (j : Fin 128) :
    iblk m c 4 t (ix2 (0 : Fin 1) j) = (m ((c : Thread nD τ).loc main_arg5) : S128.Idx → EReal) (ix1 j) := by
  obtain ⟨e0, e1⟩ := idx_zero4 t
  have he : ((cfg0.win 4).blk t).view.emb (ix2 (0 : Fin 1) j) = (ix2 (0 : Fin 1) j : S1x128.Idx) := funext fun a => Fin.ext (by
    match a with
    | ⟨0, _⟩ => show win0_4.index t (0 : Fin 2) * 1 + 1 * 0 = 0; omega
    | ⟨1, _⟩ => show win0_4.index t (1 : Fin 2) * 128 + 1 * j.val = j.val; omega)
  show (V m c main_call0_v5 : S1x128.Idx → EReal) (((cfg0.win 4).blk t).view.emb (ix2 (0 : Fin 1) j)) = _
  rw [he, V_w4]
  exact shapeCast_a_1a_apply _ _ 0 j

theorem blk5_apply (c : Dev nD) (t : Fin cfg0.N) (j : Fin 128) :
    iblk m c 5 t (ix2 (0 : Fin 1) j) = (m ((c : Thread nD τ).loc main_arg6) : S128.Idx → EReal) (ix1 j) := by
  obtain ⟨e0, e1⟩ := idx_zero5 t
  have he : ((cfg0.win 5).blk t).view.emb (ix2 (0 : Fin 1) j) = (ix2 (0 : Fin 1) j : S1x128.Idx) := funext fun a => Fin.ext (by
    match a with
    | ⟨0, _⟩ => show win0_5.index t (0 : Fin 2) * 1 + 1 * 0 = 0; omega
    | ⟨1, _⟩ => show win0_5.index t (1 : Fin 2) * 128 + 1 * j.val = j.val; omega)
  show (V m c main_call0_v6 : S1x128.Idx → EReal) (((cfg0.win 5).blk t).view.emb (ix2 (0 : Fin 1) j)) = _
  rw [he, V_w5]
  exact shapeCast_a_1a_apply _ _ 0 j

theorem blk6_apply (c : Dev nD) (t : Fin cfg0.N) (j : Fin 128) :
    iblk m c 6 t (ix2 (0 : Fin 1) j) = (m ((c : Thread nD τ).loc main_arg7) : S128.Idx → EReal) (ix1 j) := by
  obtain ⟨e0, e1⟩ := idx_zero6 t
  have he : ((cfg0.win 6).blk t).view.emb (ix2 (0 : Fin 1) j) = (ix2 (0 : Fin 1) j : S1x128.Idx) := funext fun a => Fin.ext (by
    match a with
    | ⟨0, _⟩ => show win0_6.index t (0 : Fin 2) * 1 + 1 * 0 = 0; omega
    | ⟨1, _⟩ => show win0_6.index t (1 : Fin 2) * 128 + 1 * j.val = j.val; omega)
  show (V m c main_call0_v7 : S1x128.Idx → EReal) (((cfg0.win 6).blk t).view.emb (ix2 (0 : Fin 1) j)) = _
  rw [he, V_w6]
  exact shapeCast_a_1a_apply _ _ 0 j

theorem blk8_apply (c : Dev nD) (t : Fin cfg0.N) (j : Fin 128) :
    iblk m c 8 t (ix2 (0 : Fin 1) j) = (m ((c : Thread nD τ).loc main_arg9) : S128.Idx → EReal) (ix1 j) := by
  obtain ⟨e0, e1⟩ := idx_zero8 t
  have he : ((cfg0.win 8).blk t).view.emb (ix2 (0 : Fin 1) j) = (ix2 (0 : Fin 1) j : S1x128.Idx) := funext fun a => Fin.ext (by
    match a with
    | ⟨0, _⟩ => show win0_8.index t (0 : Fin 2) * 1 + 1 * 0 = 0; omega
    | ⟨1, _⟩ => show win0_8.index t (1 : Fin 2) * 128 + 1 * j.val = j.val; omega)
  show (V m c main_call0_v8 : S1x128.Idx → EReal) (((cfg0.win 8).blk t).view.emb (ix2 (0 : Fin 1) j)) = _
  rw [he, V_w8]
  exact shapeCast_a_1a_apply _ _ 0 j

theorem blk9_apply (c : Dev nD) (t : Fin cfg0.N) (j : Fin 128) :
    iblk m c 9 t (ix2 (0 : Fin 1) j) = (m ((c : Thread nD τ).loc main_arg10) : S128.Idx → EReal) (ix1 j) := by
  obtain ⟨e0, e1⟩ := idx_zero9 t
  have he : ((cfg0.win 9).blk t).view.emb (ix2 (0 : Fin 1) j) = (ix2 (0 : Fin 1) j : S1x128.Idx) := funext fun a => Fin.ext (by
    match a with
    | ⟨0, _⟩ => show win0_9.index t (0 : Fin 2) * 1 + 1 * 0 = 0; omega
    | ⟨1, _⟩ => show win0_9.index t (1 : Fin 2) * 128 + 1 * j.val = j.val; omega)
  show (V m c main_call0_v9 : S1x128.Idx → EReal) (((cfg0.win 9).blk t).view.emb (ix2 (0 : Fin 1) j)) = _
  rw [he, V_w9]
  exact shapeCast_a_1a_apply _ _ 0 j

theorem blk10_apply (c : Dev nD) (t : Fin cfg0.N) (j : Fin 128) :
    iblk m c 10 t (ix2 (0 : Fin 1) j) = (m ((c : Thread nD τ).loc main_arg11) : S128.Idx → EReal) (ix1 j) := by
  obtain ⟨e0, e1⟩ := idx_zero10 t
  have he : ((cfg0.win 10).blk t).view.emb (ix2 (0 : Fin 1) j) = (ix2 (0 : Fin 1) j : S1x128.Idx) := funext fun a => Fin.ext (by
    match a with
    | ⟨0, _⟩ => show win0_10.index t (0 : Fin 2) * 1 + 1 * 0 = 0; omega
    | ⟨1, _⟩ => show win0_10.index t (1 : Fin 2) * 128 + 1 * j.val = j.val; omega)
  show (V m c main_call0_v10 : S1x128.Idx → EReal) (((cfg0.win 10).blk t).view.emb (ix2 (0 : Fin 1) j)) = _
  rw [he, V_w10]
  exact shapeCast_a_1a_apply _ _ 0 j

theorem blk11_apply (c : Dev nD) (t : Fin cfg0.N) (j : Fin 128) :
    iblk m c 11 t (ix2 (0 : Fin 1) j) = (m ((c : Thread nD τ).loc main_arg12) : S128.Idx → EReal) (ix1 j) := by
  obtain ⟨e0, e1⟩ := idx_zero11 t
  have he : ((cfg0.win 11).blk t).view.emb (ix2 (0 : Fin 1) j) = (ix2 (0 : Fin 1) j : S1x128.Idx) := funext fun a => Fin.ext (by
    match a with
    | ⟨0, _⟩ => show win0_11.index t (0 : Fin 2) * 1 + 1 * 0 = 0; omega
    | ⟨1, _⟩ => show win0_11.index t (1 : Fin 2) * 128 + 1 * j.val = j.val; omega)
  show (V m c main_call0_v11 : S1x128.Idx → EReal) (((cfg0.win 11).blk t).view.emb (ix2 (0 : Fin 1) j)) = _
  rw [he, V_w11]
  exact shapeCast_a_1a_apply _ _ 0 j

theorem blk12_apply (c : Dev nD) (t : Fin cfg0.N) (j : Fin 128) :
    iblk m c 12 t (ix2 (0 : Fin 1) j) = (m ((c : Thread nD τ).loc main_arg13) : S128.Idx → EReal) (ix1 j) := by
  obtain ⟨e0, e1⟩ := idx_zero12 t
  have he : ((cfg0.win 12).blk t).view.emb (ix2 (0 : Fin 1) j) = (ix2 (0 : Fin 1) j : S1x128.Idx) := funext fun a => Fin.ext (by
    match a with
    | ⟨0, _⟩ => show win0_12.index t (0 : Fin 2) * 1 + 1 * 0 = 0; omega
    | ⟨1, _⟩ => show win0_12.index t (1 : Fin 2) * 128 + 1 * j.val = j.val; omega)
  show (V m c main_call0_v12 : S1x128.Idx → EReal) (((cfg0.win 12).blk t).view.emb (ix2 (0 : Fin 1) j)) = _
  rw [he, V_w12]
  exact shapeCast_a_1a_apply _ _ 0 j

/-! ## What a point writes back, and the whole array -/

/-- The row map takes equal arguments to equal values. -/
theorem row_congr {D H C : ℕ} {x x' : Fin D → EReal} {W₁ W₁' : Fin D → Fin H → EReal} {b₁ b₁' μ₁ μ₁' σ₁ σ₁' γ₁ γ₁' β₁ β₁' : Fin H → EReal}
    {W₂ W₂' : Fin H → Fin H → EReal} {b₂ b₂' μ₂ μ₂' σ₂ σ₂' γ₂ γ₂' β₂ β₂' : Fin H → EReal} {W₃ W₃' : Fin H → Fin C → EReal}
    {b₃ b₃' : Fin C → EReal} {q q' : Fin C}
    (hx : x = x') (hW₁ : W₁ = W₁') (hb₁ : b₁ = b₁') (hμ₁ : μ₁ = μ₁') (hσ₁ : σ₁ = σ₁') (hγ₁ : γ₁ = γ₁') (hβ₁ : β₁ = β₁')
    (hW₂ : W₂ = W₂') (hb₂ : b₂ = b₂') (hμ₂ : μ₂ = μ₂') (hσ₂ : σ₂ = σ₂') (hγ₂ : γ₂ = γ₂') (hβ₂ : β₂ = β₂')
    (hW₃ : W₃ = W₃') (hb₃ : b₃ = b₃') (hq : q = q') :
    BnMlp.row x W₁ b₁ μ₁ σ₁ γ₁ β₁ W₂ b₂ μ₂ σ₂ γ₂ β₂ W₃ b₃ q = BnMlp.row x' W₁' b₁' μ₁' σ₁' γ₁' β₁' W₂' b₂' μ₂' σ₂' γ₂' β₂' W₃' b₃' q' := by
  subst hx hW₁ hb₁ hμ₁ hσ₁ hγ₁ hβ₁ hW₂ hb₂ hμ₂ hσ₂ hγ₂ hβ₂ hW₃ hb₃ hq
  rfl

/-- What the body leaves in the output buffer at point `t`, cut to the block, is block `t` of `acts`. -/
theorem out_eq (c : Dev nD) (t : Fin cfg0.N) :
    (cfg0.win 15).cut (grid0.coords t) (outBlock (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t) (iblk m c 13 t) (iblk m c 14 t))
      = ((cfg0.win 15).blk t).view.read (Elt Ideal) (acts m c) := by
  unfold outBlock
  rw [View.canon_unit_zero hz]
  simp only [View.ld_unit_zero (S := S2000x512) hz, View.ld_unit_zero (S := S512x128) hz, View.ld_unit_zero (S := S1x128) hz,
    View.ld_unit_zero (S := S128x128) hz, View.ld_unit_zero (S := S128x3) hz, View.ld_unit_zero (S := S1x3) hz]
  obtain ⟨-, -, e0, e1⟩ := idx_rows t
  funext y
  obtain ⟨p, q, rfl⟩ : ∃ (p : Fin 2000) (q : Fin 3), y = ix2 p q := ⟨y 0, y 1, eq_ix2 y⟩
  have hr : ((((cfg0.win 15).blk t).view.emb (ix2 p q) : S100000x3.Idx) 0 : Fin 100000).val = t.val * 2000 + p.val := by
    show win0_15.index t (0 : Fin 2) * 2000 + 1 * p.val = _; omega
  have hq : ((((cfg0.win 15).blk t).view.emb (ix2 p q) : S100000x3.Idx) 1 : Fin 3) = q := Fin.ext (by
    show win0_15.index t (1 : Fin 2) * 3 + 1 * q.val = _; omega)
  refine (BlockValue.block_apply (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) (iblk m c 13 t) (iblk m c 14 t) p q).trans ?_
  show _ = acts m c (((cfg0.win 15).blk t).view.emb (ix2 p q))
  unfold acts
  exact row_congr (funext fun k => blk0_apply m c t p k _ hr) (funext fun k => funext fun j => blk1_apply m c t k j)
    (funext fun j => blk2_apply m c t j) (funext fun j => blk5_apply m c t j) (funext fun j => blk6_apply m c t j)
    (funext fun j => blk3_apply m c t j) (funext fun j => blk4_apply m c t j)
    (funext fun k => funext fun j => blk7_apply m c t k j)
    (funext fun j => blk8_apply m c t j) (funext fun j => blk11_apply m c t j) (funext fun j => blk12_apply m c t j)
    (funext fun j => blk9_apply m c t j) (funext fun j => blk10_apply m c t j)
    (funext fun k => funext fun q => blk13_apply m c t k q) (funext fun q => blk14_apply m c t q) hq.symm

/-- What point `t` writes back is block `t` of `acts`. -/
theorem flushed_eq (c : Dev nD) (t : Fin cfg0.N) :
    (dats (F := Ideal) m 0 c).flushed 15 t = ((cfg0.win 15).blk t).view.read (Elt Ideal) (acts m c) := by
  show (cfg0.win 15).cut (grid0.coords t) ((dats (F := Ideal) m 0 c).after 15 t) = _
  rw [after0_15]
  exact out_eq m c t

/-- An index of the output array is in point `t`'s block iff each coordinate is in the block's range on its axis. -/
theorem mem_blk (t : Fin cfg0.N) (i : S100000x3.Idx) :
    i ∈ ((cfg0.win 15).blk t).view.set ↔ ∀ a : Fin 2, win0_15.index t a * S2000x3.size a ≤ (i a).val ∧ (i a).val < win0_15.index t a * S2000x3.size a + S2000x3.size a := by
  show i ∈ ((View.whole main_v0).slice (win0_15.rect t)).set ↔ _
  rw [View.set_slice_whole, Rect.mem_set_unit]
  exact Iff.rfl

/-- Row `r` of the output is in the block of point `r / 2000`, which is written back. -/
theorem cover (i : S100000x3.Idx) : ∃ t : Fin cfg0.N, (cfg0.win 15).flush t = true ∧ i ∈ ((cfg0.win 15).blk t).view.set := by
  have hi0 : (i 0).val < 100000 := (i 0).isLt
  have hi1 : (i 1).val < 3 := (i 1).isLt
  have hN : cfg0.N = 50 := N_0
  refine ⟨⟨(i 0).val / 2000, by rw [hN]; omega⟩, flush0_15 _, ?_⟩
  rw [mem_blk]
  obtain ⟨-, -, e0, e1⟩ := idx_rows ⟨(i 0).val / 2000, by rw [hN]; omega⟩
  intro a
  match a with
  | ⟨0, _⟩ =>
    show win0_15.index _ (0 : Fin 2) * 2000 ≤ (i 0).val ∧ (i 0).val < win0_15.index _ (0 : Fin 2) * 2000 + 2000
    rw [e0]; show (i 0).val / 2000 * 2000 ≤ (i 0).val ∧ (i 0).val < (i 0).val / 2000 * 2000 + 2000; omega
  | ⟨1, _⟩ =>
    show win0_15.index _ (1 : Fin 2) * 3 ≤ (i 1).val ∧ (i 1).val < win0_15.index _ (1 : Fin 2) * 3 + 3
    rw [e1]; omega

/-- The output array after the run: `acts` of the argument arrays, everywhere. -/
theorem final (c : Dev nD) : (dats (F := Ideal) m 0 c).arrAt 15 cfg0.N = acts m c :=
  (dats (F := Ideal) m 0 c).arrAt_eq_of_cover 15 (acts m c) (fun t _ => flushed_eq m c t) (cover)

end Cert.KernelIdeal.HandValue

end
-- ==== Proof.RefMlpTerm.lean ====
/-
  The reference's perceptron stage as one term of its argument arrays: the composition of the host operations that
  produce the [100000, 3] activations the propagation starts from — three `dot_general`s against transposed weights,
  each followed by the bias, and for the two hidden layers the normalisation, the gain and shift and the rectifier,
  the second hidden layer added to the first.
-/
import proofs.«117862_j74251394613578_1_alg».proof.Proof.Gen.ReferenceIdeal

noncomputable section

namespace Cert.ReferenceIdeal.RefValue

open Cert.ReferenceIdeal Cert.ReferenceIdeal.Gen Idealize.ShloMosaic Idealize.ShloMosaic.TcCoe

variable {F : FTy → Type} [FloatOps F]

/-- The activations the propagation starts from, as the reference computes them from its arguments. -/
def mlp (x : (⟨S100000x512, .f32⟩ : BufTy).Contents (Elt F)) (w1 : (⟨S128x512, .f32⟩ : BufTy).Contents (Elt F))
    (b1 g1 be1 m1 v1 : (⟨S128, .f32⟩ : BufTy).Contents (Elt F)) (w2 : (⟨S128x128, .f32⟩ : BufTy).Contents (Elt F))
    (b2 g2 be2 m2 v2 : (⟨S128, .f32⟩ : BufTy).Contents (Elt F)) (w3 : (⟨S3x128, .f32⟩ : BufTy).Contents (Elt F))
    (b3 : (⟨S3, .f32⟩ : BufTy).Contents (Elt F)) : (⟨S100000x3, .f32⟩ : BufTy).Contents (Elt F) :=
  (addf (Host.dotGeneral dot_S100000x128_S128x3_S100000x3_1_0_0_1_n_n none (addf (maximumf (addf (mulf (mulf (subf (addf (Host.dotGeneral dot_S100000x512_S512x128_S100000x128_1_0_0_1_n_n none x (transpose S512x128 [1, 0] w1 transposes_S128x512_S512x128_1_0)) (broadcastInDim S100000x128 ![0, 1] bcast_S1x128_S100000x128_0_1 (broadcastInDim S1x128 ![1] bcast_S128_S1x128_1 b1))) (broadcastInDim S100000x128 ![0, 1] bcast_S1x128_S100000x128_0_1 (broadcastInDim S1x128 ![1] bcast_S128_S1x128_1 m1))) (broadcastInDim S100000x128 ![0, 1] bcast_S1x128_S100000x128_0_1 (broadcastInDim S1x128 ![1] bcast_S128_S1x128_1 (Host.rsqrt (addf v1 (broadcastInDim S128 ![] bcast_S_S128 (constant S_ .f32 0x3727C5AC#32))))))) (broadcastInDim S100000x128 ![0, 1] bcast_S1x128_S100000x128_0_1 (broadcastInDim S1x128 ![1] bcast_S128_S1x128_1 g1))) (broadcastInDim S100000x128 ![0, 1] bcast_S1x128_S100000x128_0_1 (broadcastInDim S1x128 ![1] bcast_S128_S1x128_1 be1))) (broadcastInDim S100000x128 ![] bcast_S_S100000x128 (constant S_ .f32 0x00000000#32))) (maximumf (addf (mulf (mulf (subf (addf (Host.dotGeneral dot_S100000x128_S128x128_S100000x128_1_0_0_1_n_n none (maximumf (addf (mulf (mulf (subf (addf (Host.dotGeneral dot_S100000x512_S512x128_S100000x128_1_0_0_1_n_n none x (transpose S512x128 [1, 0] w1 transposes_S128x512_S512x128_1_0)) (broadcastInDim S100000x128 ![0, 1] bcast_S1x128_S100000x128_0_1 (broadcastInDim S1x128 ![1] bcast_S128_S1x128_1 b1))) (broadcastInDim S100000x128 ![0, 1] bcast_S1x128_S100000x128_0_1 (broadcastInDim S1x128 ![1] bcast_S128_S1x128_1 m1))) (broadcastInDim S100000x128 ![0, 1] bcast_S1x128_S100000x128_0_1 (broadcastInDim S1x128 ![1] bcast_S128_S1x128_1 (Host.rsqrt (addf v1 (broadcastInDim S128 ![] bcast_S_S128 (constant S_ .f32 0x3727C5AC#32))))))) (broadcastInDim S100000x128 ![0, 1] bcast_S1x128_S100000x128_0_1 (broadcastInDim S1x128 ![1] bcast_S128_S1x128_1 g1))) (broadcastInDim S100000x128 ![0, 1] bcast_S1x128_S100000x128_0_1 (broadcastInDim S1x128 ![1] bcast_S128_S1x128_1 be1))) (broadcastInDim S100000x128 ![] bcast_S_S100000x128 (constant S_ .f32 0x00000000#32))) (transpose S128x128 [1, 0] w2 transposes_S128x128_S128x128_1_0)) (broadcastInDim S100000x128 ![0, 1] bcast_S1x128_S100000x128_0_1 (broadcastInDim S1x128 ![1] bcast_S128_S1x128_1 b2))) (broadcastInDim S100000x128 ![0, 1] bcast_S1x128_S100000x128_0_1 (broadcastInDim S1x128 ![1] bcast_S128_S1x128_1 m2))) (broadcastInDim S100000x128 ![0, 1] bcast_S1x128_S100000x128_0_1 (broadcastInDim S1x128 ![1] bcast_S128_S1x128_1 (Host.rsqrt (addf v2 (broadcastInDim S128 ![] bcast_S_S128 (constant S_ .f32 0x3727C5AC#32))))))) (broadcastInDim S100000x128 ![0, 1] bcast_S1x128_S100000x128_0_1 (broadcastInDim S1x128 ![1] bcast_S128_S1x128_1 g2))) (broadcastInDim S100000x128 ![0, 1] bcast_S1x128_S100000x128_0_1 (broadcastInDim S1x128 ![1] bcast_S128_S1x128_1 be2))) (broadcastInDim S100000x128 ![] bcast_S_S100000x128 (constant S_ .f32 0x00000000#32)))) (transpose S128x3 [1, 0] w3 transposes_S3x128_S128x3_1_0)) (broadcastInDim S100000x3 ![0, 1] bcast_S1x3_S100000x3_0_1 (broadcastInDim S1x3 ![1] bcast_S3_S1x3_1 b3)))

end Cert.ReferenceIdeal.RefValue

end
-- ==== Proof.RefMlp.lean ====
/-
  The reference's perceptron stage read at one output entry.

  At the extended reals every host operation of the stage is its textbook one, so the [100000, 3] array the stage
  produces is, at row r and column q, the row map of the batch-normed three-layer perceptron applied to row r of the
  input: a `dot_general` against a transposed weight matrix w is the sum over the shared axis of the left operand at
  (r, k) times w at (j, k); a per-feature vector broadcast first to one row and then down all rows reads the vector's
  entry of that feature; a scalar constant broadcast to any shape reads the extended real its word encodes; the
  inverse deviation is the reciprocal square root of the variance plus the offset, taken per feature before the
  broadcast.  The order of the factors of the normalisation, ((y − μ) · rsqrt (σ² + ε)) · γ + β, is the reference's own.
-/
import proofs.«117862_j74251394613578_1_alg».proof.Proof.RefMlpTerm
import proofs.«117862_j74251394613578_1_alg».proof.Proof.BnMlp
import proofs.«117862_j74251394613578_1_alg».proof.Proof.LibMatmul
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The layout operations of the stage, read at an index -/

/-- A vector of 128 features broadcast to one row and then down the 100000 rows reads, at (r, j), its entry j. -/
theorem bcast_rows128 (v : (⟨S128, .f32⟩ : BufTy).Contents (Elt Ideal)) (r : Fin 100000) (j : Fin 128) :
    broadcastInDim S100000x128 ![0, 1] bcast_S1x128_S100000x128_0_1 (broadcastInDim S1x128 ![1] bcast_S128_S1x128_1 v)
      (ix2 r j) = v (ix1 j) := by
  refine (broadcastInDim_apply _ _ _ (ix2 r j) (ix2 (0 : Fin 1) j) ?_).trans ?_
  · intro a
    match a with
    | ⟨0, _⟩ => rfl
    | ⟨1, _⟩ => rfl
  · refine broadcastInDim_apply _ _ _ (ix2 (0 : Fin 1) j) (ix1 j) ?_
    intro a
    match a with
    | ⟨0, _⟩ => rfl

/-- A vector of 3 columns broadcast to one row and then down the 100000 rows reads, at (r, q), its entry q. -/
theorem bcast_rows3 (v : (⟨S3, .f32⟩ : BufTy).Contents (Elt Ideal)) (r : Fin 100000) (q : Fin 3) :
    broadcastInDim S100000x3 ![0, 1] bcast_S1x3_S100000x3_0_1 (broadcastInDim S1x3 ![1] bcast_S3_S1x3_1 v)
      (ix2 r q) = v (ix1 q) := by
  refine (broadcastInDim_apply _ _ _ (ix2 r q) (ix2 (0 : Fin 1) q) ?_).trans ?_
  · intro a
    match a with
    | ⟨0, _⟩ => rfl
    | ⟨1, _⟩ => rfl
  · refine broadcastInDim_apply _ _ _ (ix2 (0 : Fin 1) q) (ix1 q) ?_
    intro a
    match a with
    | ⟨0, _⟩ => rfl

/-- A scalar constant broadcast to any shape reads, everywhere, the extended real its word encodes. -/
theorem bcast_const {t : Shape} (dims : Fin S_.rank → Fin t.rank) (h : S_.BroadcastsInDim t dims) (w : BitVec 32)
    (i : t.Idx) : broadcastInDim t dims h (constant (F := Ideal) S_ .f32 w) i = Ideal.ofBits .f32 w := rfl

/-- A host `dot_general` of a rows × shared-axis operand against the TRANSPOSE of a columns × shared-axis matrix reads,
    at (r, j), the sum over the shared axis of the operand at (r, k) times the matrix at (j, k). -/
theorem dot_transpose_apply {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : FVec Ideal ⟨2, ![M, K]⟩ .f32) (w : FVec Ideal ⟨2, ![N, K]⟩ .f32)
    (ht : (⟨2, ![N, K]⟩ : Shape).Transposes [1, 0] ⟨2, ![K, N]⟩) (r : Fin M) (j : Fin N) :
    Host.dotGeneral (F := Ideal) d none l (transpose ⟨2, ![K, N]⟩ [1, 0] w ht) (ix2 r j)
      = ∑ k : Fin K, l (ix2 r k) * w (ix2 j k) := by
  refine (Ideal.dotGeneral_apply d none .single l _ (ix2 r j)).trans ?_
  refine (Cert.Layer.Matmul.plain_contr_sum d hlc hrc hln hrn hlb hrb l _ (ix2 r j)).trans ?_
  refine Finset.sum_congr rfl fun k _ => ?_
  refine congrArg (fun z => l (ix2 r k) * z) ?_
  refine transpose_apply [1, 0] w ht (ix2 k j) (ix2 j k) ?_
  intro b
  match b with
  | ⟨0, _⟩ => rfl
  | ⟨1, _⟩ => rfl

/-! ## The two hidden layers as arrays, and the stage in terms of them -/

section Layers
variable {F : FTy → Type} [FloatOps F]

/-- The first hidden layer as the reference computes it: product against the transposed weights, bias, normalisation
    with gain and shift, rectifier. -/
def hidden₁ (x : (⟨S100000x512, .f32⟩ : BufTy).Contents (Elt F)) (w1 : (⟨S128x512, .f32⟩ : BufTy).Contents (Elt F))
    (b1 g1 be1 m1 v1 : (⟨S128, .f32⟩ : BufTy).Contents (Elt F)) : (⟨S100000x128, .f32⟩ : BufTy).Contents (Elt F) :=
  maximumf (addf (mulf (mulf (subf (addf (Host.dotGeneral dot_S100000x512_S512x128_S100000x128_1_0_0_1_n_n none x (transpose S512x128 [1, 0] w1 transposes_S128x512_S512x128_1_0)) (broadcastInDim S100000x128 ![0, 1] bcast_S1x128_S100000x128_0_1 (broadcastInDim S1x128 ![1] bcast_S128_S1x128_1 b1))) (broadcastInDim S100000x128 ![0, 1] bcast_S1x128_S100000x128_0_1 (broadcastInDim S1x128 ![1] bcast_S128_S1x128_1 m1))) (broadcastInDim S100000x128 ![0, 1] bcast_S1x128_S100000x128_0_1 (broadcastInDim S1x128 ![1] bcast_S128_S1x128_1 (Host.rsqrt (addf v1 (broadcastInDim S128 ![] bcast_S_S128 (constant S_ .f32 0x3727C5AC#32))))))) (broadcastInDim S100000x128 ![0, 1] bcast_S1x128_S100000x128_0_1 (broadcastInDim S1x128 ![1] bcast_S128_S1x128_1 g1))) (broadcastInDim S100000x128 ![0, 1] bcast_S1x128_S100000x128_0_1 (broadcastInDim S1x128 ![1] bcast_S128_S1x128_1 be1))) (broadcastInDim S100000x128 ![] bcast_S_S100000x128 (constant S_ .f32 0x00000000#32))

/-- The second hidden layer over an array `h` of first-layer activations: the same chain against the second weights,
    added to `h`. -/
def hidden₂ (h : (⟨S100000x128, .f32⟩ : BufTy).Contents (Elt F)) (w2 : (⟨S128x128, .f32⟩ : BufTy).Contents (Elt F))
    (b2 g2 be2 m2 v2 : (⟨S128, .f32⟩ : BufTy).Contents (Elt F)) : (⟨S100000x128, .f32⟩ : BufTy).Contents (Elt F) :=
  addf h (maximumf (addf (mulf (mulf (subf (addf (Host.dotGeneral dot_S100000x128_S128x128_S100000x128_1_0_0_1_n_n none h (transpose S128x128 [1, 0] w2 transposes_S128x128_S128x128_1_0)) (broadcastInDim S100000x128 ![0, 1] bcast_S1x128_S100000x128_0_1 (broadcastInDim S1x128 ![1] bcast_S128_S1x128_1 b2))) (broadcastInDim S100000x128 ![0, 1] bcast_S1x128_S100000x128_0_1 (broadcastInDim S1x128 ![1] bcast_S128_S1x128_1 m2))) (broadcastInDim S100000x128 ![0, 1] bcast_S1x128_S100000x128_0_1 (broadcastInDim S1x128 ![1] bcast_S128_S1x128_1 (Host.rsqrt (addf v2 (broadcastInDim S128 ![] bcast_S_S128 (constant S_ .f32 0x3727C5AC#32))))))) (broadcastInDim S100000x128 ![0, 1] bcast_S1x128_S100000x128_0_1 (broadcastInDim S1x128 ![1] bcast_S128_S1x128_1 g2))) (broadcastInDim S100000x128 ![0, 1] bcast_S1x128_S100000x128_0_1 (broadcastInDim S1x128 ![1] bcast_S128_S1x128_1 be2))) (broadcastInDim S100000x128 ![] bcast_S_S100000x128 (constant S_ .f32 0x00000000#32)))

/-- The stage is the projection of the second hidden layer of the first. -/
theorem mlp_eq_layers (x : (⟨S100000x512, .f32⟩ : BufTy).Contents (Elt F)) (w1 : (⟨S128x512, .f32⟩ : BufTy).Contents (Elt F))
    (b1 g1 be1 m1 v1 : (⟨S128, .f32⟩ : BufTy).Contents (Elt F)) (w2 : (⟨S128x128, .f32⟩ : BufTy).Contents (Elt F))
    (b2 g2 be2 m2 v2 : (⟨S128, .f32⟩ : BufTy).Contents (Elt F)) (w3 : (⟨S3x128, .f32⟩ : BufTy).Contents (Elt F))
    (b3 : (⟨S3, .f32⟩ : BufTy).Contents (Elt F)) :
    mlp x w1 b1 g1 be1 m1 v1 w2 b2 g2 be2 m2 v2 w3 b3
      = addf (Host.dotGeneral dot_S100000x128_S128x3_S100000x3_1_0_0_1_n_n none
            (hidden₂ (hidden₁ x w1 b1 g1 be1 m1 v1) w2 b2 g2 be2 m2 v2)
            (transpose S128x3 [1, 0] w3 transposes_S3x128_S128x3_1_0))
          (broadcastInDim S100000x3 ![0, 1] bcast_S1x3_S100000x3_0_1 (broadcastInDim S1x3 ![1] bcast_S3_S1x3_1 b3)) := rfl

end Layers

/-! ## Each layer at an entry, at the extended reals -/

open Cert.Layer.BnMlp in
/-- The first hidden layer at (r, j) is the row map's first layer of row r at feature j. -/
theorem hidden₁_apply (x : (⟨S100000x512, .f32⟩ : BufTy).Contents (Elt Ideal)) (w1 : (⟨S128x512, .f32⟩ : BufTy).Contents (Elt Ideal))
    (b1 g1 be1 m1 v1 : (⟨S128, .f32⟩ : BufTy).Contents (Elt Ideal)) (r : Fin 100000) (j : Fin 128) :
    hidden₁ (F := Ideal) x w1 b1 g1 be1 m1 v1 (ix2 r j)
      = a₁ (fun k : Fin 512 => x (ix2 r k)) (fun (k : Fin 512) (j : Fin 128) => w1 (ix2 j k))
          (fun j => b1 (ix1 j)) (fun j => m1 (ix1 j)) (fun j => v1 (ix1 j)) (fun j => g1 (ix1 j)) (fun j => be1 (ix1 j)) j := by
  have ed := dot_transpose_apply dot_S100000x512_S512x128_S100000x128_1_0_0_1_n_n rfl rfl rfl rfl rfl rfl x w1
    transposes_S128x512_S512x128_1_0 r j
  have eb := bcast_rows128 b1 r j
  have em := bcast_rows128 m1 r j
  have eg := bcast_rows128 g1 r j
  have ee := bcast_rows128 be1 r j
  have ev := bcast_rows128 (Host.rsqrt (F := Ideal) (addf v1 (broadcastInDim S128 ![] bcast_S_S128 (constant (F := Ideal) S_ .f32 0x3727C5AC#32)))) r j
  unfold hidden₁ a₁ bn
  show max ((((_ + _) - _) * _) * _ + _) _ = _
  rw [ed, eb, em, eg, ee, ev]
  rfl

open Cert.Layer.BnMlp in
/-- The second hidden layer over an array `h` at (r, j) is the row map's second layer of row r of `h` at feature j. -/
theorem hidden₂_apply (h : (⟨S100000x128, .f32⟩ : BufTy).Contents (Elt Ideal)) (w2 : (⟨S128x128, .f32⟩ : BufTy).Contents (Elt Ideal))
    (b2 g2 be2 m2 v2 : (⟨S128, .f32⟩ : BufTy).Contents (Elt Ideal)) (r : Fin 100000) (j : Fin 128) :
    hidden₂ (F := Ideal) h w2 b2 g2 be2 m2 v2 (ix2 r j)
      = a₂ (fun k : Fin 128 => h (ix2 r k)) (fun (k j : Fin 128) => w2 (ix2 j k))
          (fun j => b2 (ix1 j)) (fun j => m2 (ix1 j)) (fun j => v2 (ix1 j)) (fun j => g2 (ix1 j)) (fun j => be2 (ix1 j)) j := by
  have ed := dot_transpose_apply dot_S100000x128_S128x128_S100000x128_1_0_0_1_n_n rfl rfl rfl rfl rfl rfl h w2
    transposes_S128x128_S128x128_1_0 r j
  have eb := bcast_rows128 b2 r j
  have em := bcast_rows128 m2 r j
  have eg := bcast_rows128 g2 r j
  have ee := bcast_rows128 be2 r j
  have ev := bcast_rows128 (Host.rsqrt (F := Ideal) (addf v2 (broadcastInDim S128 ![] bcast_S_S128 (constant (F := Ideal) S_ .f32 0x3727C5AC#32)))) r j
  unfold hidden₂ a₂ bn
  show _ + max ((((_ + _) - _) * _) * _ + _) _ = _
  rw [ed, eb, em, eg, ee, ev]
  rfl

/-! ## The stage at an entry -/

/-- THE STAGE AT (r, q): the row map of the batch-normed perceptron applied to row r of the input, at column q, with
    each weight matrix read transposed (the weight from input feature k to output feature j is the matrix at (j, k)). -/
theorem mlp_apply (x : (⟨S100000x512, .f32⟩ : BufTy).Contents (Elt Ideal)) (w1 : (⟨S128x512, .f32⟩ : BufTy).Contents (Elt Ideal))
    (b1 g1 be1 m1 v1 : (⟨S128, .f32⟩ : BufTy).Contents (Elt Ideal)) (w2 : (⟨S128x128, .f32⟩ : BufTy).Contents (Elt Ideal))
    (b2 g2 be2 m2 v2 : (⟨S128, .f32⟩ : BufTy).Contents (Elt Ideal)) (w3 : (⟨S3x128, .f32⟩ : BufTy).Contents (Elt Ideal))
    (b3 : (⟨S3, .f32⟩ : BufTy).Contents (Elt Ideal)) (r : Fin 100000) (q : Fin 3) :
    mlp (F := Ideal) x w1 b1 g1 be1 m1 v1 w2 b2 g2 be2 m2 v2 w3 b3 (ValueIdx.ix2 r q)
      = Cert.Layer.BnMlp.row (fun k : Fin 512 => x (ValueIdx.ix2 r k)) (fun (k : Fin 512) (j : Fin 128) => w1 (ValueIdx.ix2 j k))
          (fun j => b1 (ValueIdx.ix1 j)) (fun j => m1 (ValueIdx.ix1 j)) (fun j => v1 (ValueIdx.ix1 j)) (fun j => g1 (ValueIdx.ix1 j)) (fun j => be1 (ValueIdx.ix1 j))
          (fun (k j : Fin 128) => w2 (ValueIdx.ix2 j k))
          (fun j => b2 (ValueIdx.ix1 j)) (fun j => m2 (ValueIdx.ix1 j)) (fun j => v2 (ValueIdx.ix1 j)) (fun j => g2 (ValueIdx.ix1 j)) (fun j => be2 (ValueIdx.ix1 j))
          (fun (k : Fin 128) (c : Fin 3) => w3 (ValueIdx.ix2 c k)) (fun c => b3 (ValueIdx.ix1 c)) q := by
  rw [mlp_eq_layers]
  have ed := dot_transpose_apply dot_S100000x128_S128x3_S100000x3_1_0_0_1_n_n rfl rfl rfl rfl rfl rfl
    (hidden₂ (F := Ideal) (hidden₁ (F := Ideal) x w1 b1 g1 be1 m1 v1) w2 b2 g2 be2 m2 v2) w3 transposes_S3x128_S128x3_1_0 r q
  have eb := bcast_rows3 b3 r q
  unfold Cert.Layer.BnMlp.row Cert.Layer.BnMlp.proj
  show _ + _ = _
  rw [ed, eb]
  refine congrArg (fun z => z + b3 (ix1 q)) (Finset.sum_congr rfl fun k _ => ?_)
  refine congrArg (fun z => z * w3 (ix2 q k)) ?_
  refine (hidden₂_apply _ w2 b2 g2 be2 m2 v2 r k).trans ?_
  refine congrArg (fun hrow : Fin 128 → EReal => Cert.Layer.BnMlp.a₂ hrow (fun (k j : Fin 128) => w2 (ix2 j k))
    (fun j => b2 (ix1 j)) (fun j => m2 (ix1 j)) (fun j => v2 (ix1 j)) (fun j => g2 (ix1 j)) (fun j => be2 (ix1 j)) k) ?_
  exact funext fun i => hidden₁_apply x w1 b1 g1 be1 m1 v1 r i

end Cert.ReferenceIdeal.RefValue

end
-- ==== Proof.RefStage.lean ====
/-
  The reference's perceptron stage inside its run.

  The first 54 host operations of the reference compute, from the input array, the three weight matrices and the
  per-feature vectors, the [100000, 3] activations the propagation starts from.  Their fold over the launch contents,
  read at the activations' buffer, is the stage's term of those arguments; read at row r and column q it is the row
  map of the batch-normed three-layer perceptron applied to row r of the input.  The edge list, an argument, is
  written by none of them.
-/
import proofs.«117862_j74251394613578_1_alg».proof.Proof.RefRun
import proofs.«117862_j74251394613578_1_alg».proof.Proof.RefMlp

noncomputable section

namespace Cert.ReferenceIdeal.HandRun

open Cert.ReferenceIdeal Cert.ReferenceIdeal.Gen Idealize.ShloMosaic Idealize.ShloMosaic.TcCoe Idealize.SL.Sem Idealize.ShloMosaic.StableHlo

/-- The activations the propagation starts from are the perceptron stage of the arguments: the first 54 operations'
    fold, read at the buffer of the [100000, 3] activations, is the stage's term of the input, the three weight
    matrices and the per-feature vectors. -/
theorem mlp_stage (m : (ℓ : Loc nD τ sig) → Buf (Elt Ideal) ℓ) (c : Dev nD) :
    after (mlpOps (F := Ideal)) (fun b => m (c, b)) (Proc.devRef .tc main_v47)
      = Cert.ReferenceIdeal.RefValue.mlp (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  after_results_simp
  rfl

/-- The edge list is not written by the stage. -/
theorem edges_kept (m : (ℓ : Loc nD τ sig) → Buf (Elt Ideal) ℓ) (c : Dev nD) :
    after (mlpOps (F := Ideal)) (fun b => m (c, b)) (Proc.devRef .tc main_arg1) = m ((c.tc : Thread nD τ).loc main_arg1) :=
  after_of_writes_sub (W := refW) mlpOps _ mlpOps_writes (by decide)

/-- The activations at row r and column q: the row map of the batch-normed perceptron applied to row r of the input. -/
theorem acts_apply (m : (ℓ : Loc nD τ sig) → Buf (Elt Ideal) ℓ) (c : Dev nD) (r : Fin 100000) (q : Fin 3) :
    after (mlpOps (F := Ideal)) (fun b => m (c, b)) (Proc.devRef .tc main_v47) (ValueIdx.ix2 r q)
      = Cert.Layer.BnMlp.row (fun k : Fin 512 => m ((c.tc : Thread nD τ).loc main_arg0) (ValueIdx.ix2 r k))
          (fun (k : Fin 512) (j : Fin 128) => m ((c.tc : Thread nD τ).loc main_arg2) (ValueIdx.ix2 j k))
          (fun j => m ((c.tc : Thread nD τ).loc main_arg3) (ValueIdx.ix1 j)) (fun j => m ((c.tc : Thread nD τ).loc main_arg6) (ValueIdx.ix1 j))
          (fun j => m ((c.tc : Thread nD τ).loc main_arg7) (ValueIdx.ix1 j)) (fun j => m ((c.tc : Thread nD τ).loc main_arg4) (ValueIdx.ix1 j))
          (fun j => m ((c.tc : Thread nD τ).loc main_arg5) (ValueIdx.ix1 j))
          (fun (k j : Fin 128) => m ((c.tc : Thread nD τ).loc main_arg8) (ValueIdx.ix2 j k))
          (fun j => m ((c.tc : Thread nD τ).loc main_arg9) (ValueIdx.ix1 j)) (fun j => m ((c.tc : Thread nD τ).loc main_arg12) (ValueIdx.ix1 j))
          (fun j => m ((c.tc : Thread nD τ).loc main_arg13) (ValueIdx.ix1 j)) (fun j => m ((c.tc : Thread nD τ).loc main_arg10) (ValueIdx.ix1 j))
          (fun j => m ((c.tc : Thread nD τ).loc main_arg11) (ValueIdx.ix1 j))
          (fun (k : Fin 128) (q' : Fin 3) => m ((c.tc : Thread nD τ).loc main_arg14) (ValueIdx.ix2 q' k))
          (fun q' => m ((c.tc : Thread nD τ).loc main_arg15) (ValueIdx.ix1 q')) q :=
  (congrFun (mlp_stage m c) (ValueIdx.ix2 r q)).trans
    (Cert.ReferenceIdeal.RefValue.mlp_apply (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) r q)

end Cert.ReferenceIdeal.HandRun

end
-- ==== Proof.Bridge.lean ====
/-
  The two programs agree on the extended reals.

  Both end with the same 285 host operations (ten rounds of normalised neighbourhood averaging over the edge list,
  then a row-wise log-softmax), applied to the [100000, 3] activations and to the edge list.  The kernel's region
  leaves in its output array the activations that the reference's first 54 host operations compute — row by row the
  same three-layer perceptron — so the two results are the same function of the arguments.  No law of arithmetic
  beyond reading both sides at an index is used, hence no finiteness of the inputs.
-/
import proofs.«117862_j74251394613578_1_alg».proof.Defs
import proofs.«117862_j74251394613578_1_alg».proof.Proof.KernelIdealFrame
import proofs.«117862_j74251394613578_1_alg».proof.Proof.KernelValue
import proofs.«117862_j74251394613578_1_alg».proof.Proof.RefRun
import proofs.«117862_j74251394613578_1_alg».proof.Proof.RefStage
import proofs.«117862_j74251394613578_1_alg».proof.Proof.Gen.Pre_finite_inputs
import Idealize.ShloMosaic.Lib.StableHlo.Run
import Idealize.ShloMosaic.PureOps.Ideal

set_option maxRecDepth 65536

noncomputable section

namespace Cert.Bridge

open Idealize.ShloMosaic Idealize.ShloMosaic.TcCoe Idealize.SL.Sem Idealize.ShloMosaic.StableHlo

/-! ## The common tail -/

/-- The concatenation of two arrays along an axis, the two arrays as plain arguments. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A concatenation of a literal pair of shape-tagged arrays is `cat2` of the two arrays. -/
theorem concatenate_pair {α : Type} (t : Shape) (a : Fin t.rank) (s₁ s₂ : Shape) (x : s₁.Idx → α) (y : s₂.Idx → α)
    (h : Shape.Concatenates (List.map (fun p : (s : Shape) × (s.Idx → α) => p.1) [⟨s₁, x⟩, ⟨s₂, y⟩]) t a) :
    concatenate t a [⟨s₁, x⟩, ⟨s₂, y⟩] h = cat2 t a s₁ s₂ (show Shape.Concatenates [s₁, s₂] t a from h) x y := rfl

set_option maxHeartbeats 400000000 in
/-- From buffer contents that agree on the activations and on the edge list, the two programs' last 285 operations
    compute the same result: they are the same operations in the same order, each reading what the one before wrote. -/
theorem tails_agree (VK : Valuation Cert.KernelIdeal.τ Cert.KernelIdeal.sig (Elt Ideal)) (VR : Valuation Cert.ReferenceIdeal.τ Cert.ReferenceIdeal.sig (Elt Ideal))
    (h0 : VK (Proc.devRef .tc Cert.KernelIdeal.main_v0) = VR (Proc.devRef .tc Cert.ReferenceIdeal.main_v47))
    (h1 : VK (Proc.devRef .tc Cert.KernelIdeal.main_arg1) = VR (Proc.devRef .tc Cert.ReferenceIdeal.main_arg1)) :
    StableHlo.after (List.flatten (Cert.KernelIdeal.Hand.tailOps (F := Ideal))) VK (Proc.devRef .tc Cert.KernelIdeal.main_v211)
      = StableHlo.after (Cert.ReferenceIdeal.HandRun.tailOps (F := Ideal)) VR (Proc.devRef .tc Cert.ReferenceIdeal.main_v258) := by
  simp only [Cert.KernelIdeal.Hand.tailOps, List.flatten_cons, List.flatten_nil, List.append_nil, List.cons_append, List.nil_append]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_pair]
  rw [h0, h1]
  rfl

/-! ## The kernel's run, its result named -/

/-- The idealized kernel program runs to the end with its result buffer at what the 285 operations after the region
    compute from the region's exit contents, and its arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v211)
          = Pipeline.afterTail₀ Cert.KernelIdeal.cfgs (Cert.KernelIdeal.Hand.dats m) 0 (Cert.KernelIdeal.Hand.V0 m) Cert.KernelIdeal.Hand.tailOps c Cert.KernelIdeal.main_v211
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) :=
  (θ_run Cert.KernelIdeal.defs _ _).mono (fun _ h c => ⟨(h c).2 Cert.KernelIdeal.main_v211 (Pipeline.mem_restRefs_of Cert.KernelIdeal.main_v211 (by decide) (by decide)),
      ((h c).1 0).trans (Cert.KernelIdeal.Hand.arr0_kept m c),
      ((h c).2 Cert.KernelIdeal.main_arg1 (Pipeline.mem_restRefs_of Cert.KernelIdeal.main_arg1 (by decide) (by decide))).trans (Cert.KernelIdeal.Hand.W_main_arg1 m (Cert.KernelIdeal.Hand.dats m) c),
      ((h c).2 Cert.KernelIdeal.main_arg2 (Pipeline.mem_restRefs_of Cert.KernelIdeal.main_arg2 (by decide) (by decide))).trans (Cert.KernelIdeal.Hand.W_main_arg2 m (Cert.KernelIdeal.Hand.dats m) c),
      ((h c).2 Cert.KernelIdeal.main_arg3 (Pipeline.mem_restRefs_of Cert.KernelIdeal.main_arg3 (by decide) (by decide))).trans (Cert.KernelIdeal.Hand.W_main_arg3 m (Cert.KernelIdeal.Hand.dats m) c),
      ((h c).2 Cert.KernelIdeal.main_arg4 (Pipeline.mem_restRefs_of Cert.KernelIdeal.main_arg4 (by decide) (by decide))).trans (Cert.KernelIdeal.Hand.W_main_arg4 m (Cert.KernelIdeal.Hand.dats m) c),
      ((h c).2 Cert.KernelIdeal.main_arg5 (Pipeline.mem_restRefs_of Cert.KernelIdeal.main_arg5 (by decide) (by decide))).trans (Cert.KernelIdeal.Hand.W_main_arg5 m (Cert.KernelIdeal.Hand.dats m) c),
      ((h c).2 Cert.KernelIdeal.main_arg6 (Pipeline.mem_restRefs_of Cert.KernelIdeal.main_arg6 (by decide) (by decide))).trans (Cert.KernelIdeal.Hand.W_main_arg6 m (Cert.KernelIdeal.Hand.dats m) c),
      ((h c).2 Cert.KernelIdeal.main_arg7 (Pipeline.mem_restRefs_of Cert.KernelIdeal.main_arg7 (by decide) (by decide))).trans (Cert.KernelIdeal.Hand.W_main_arg7 m (Cert.KernelIdeal.Hand.dats m) c),
      ((h c).2 Cert.KernelIdeal.main_arg8 (Pipeline.mem_restRefs_of Cert.KernelIdeal.main_arg8 (by decide) (by decide))).trans (Cert.KernelIdeal.Hand.W_main_arg8 m (Cert.KernelIdeal.Hand.dats m) c),
      ((h c).2 Cert.KernelIdeal.main_arg9 (Pipeline.mem_restRefs_of Cert.KernelIdeal.main_arg9 (by decide) (by decide))).trans (Cert.KernelIdeal.Hand.W_main_arg9 m (Cert.KernelIdeal.Hand.dats m) c),
      ((h c).2 Cert.KernelIdeal.main_arg10 (Pipeline.mem_restRefs_of Cert.KernelIdeal.main_arg10 (by decide) (by decide))).trans (Cert.KernelIdeal.Hand.W_main_arg10 m (Cert.KernelIdeal.Hand.dats m) c),
      ((h c).2 Cert.KernelIdeal.main_arg11 (Pipeline.mem_restRefs_of Cert.KernelIdeal.main_arg11 (by decide) (by decide))).trans (Cert.KernelIdeal.Hand.W_main_arg11 m (Cert.KernelIdeal.Hand.dats m) c),
      ((h c).2 Cert.KernelIdeal.main_arg12 (Pipeline.mem_restRefs_of Cert.KernelIdeal.main_arg12 (by decide) (by decide))).trans (Cert.KernelIdeal.Hand.W_main_arg12 m (Cert.KernelIdeal.Hand.dats m) c),
      ((h c).2 Cert.KernelIdeal.main_arg13 (Pipeline.mem_restRefs_of Cert.KernelIdeal.main_arg13 (by decide) (by decide))).trans (Cert.KernelIdeal.Hand.W_main_arg13 m (Cert.KernelIdeal.Hand.dats m) c),
      ((h c).2 Cert.KernelIdeal.main_arg14 (Pipeline.mem_restRefs_of Cert.KernelIdeal.main_arg14 (by decide) (by decide))).trans (Cert.KernelIdeal.Hand.W_main_arg14 m (Cert.KernelIdeal.Hand.dats m) c),
      ((h c).2 Cert.KernelIdeal.main_arg15 (Pipeline.mem_restRefs_of Cert.KernelIdeal.main_arg15 (by decide) (by decide))).trans (Cert.KernelIdeal.Hand.W_main_arg15 m (Cert.KernelIdeal.Hand.dats m) c)⟩) (Cert.KernelIdeal.Hand.run_main m ρ)

/-! ## The two results are one function of the arguments -/

set_option maxHeartbeats 4000000 in
/-- From memories agreeing on the arguments both programs run to the end, with equal results and unchanged arguments. -/
theorem algebraic : Cert.algebraic_KernelIdeal_ReferenceIdeal := by
  intro m ρ m' ρ' _ hagree
  refine ⟨fun c => StableHlo.after (Cert.ReferenceIdeal.HandRun.ops (F := Ideal)) (fun b => m' (c, b)) (Proc.devRef .tc Cert.ReferenceIdeal.main_v258), ?_, Cert.ReferenceIdeal.HandRun.run m' ρ'⟩
  refine (θ_run Cert.KernelIdeal.defs _ _).mono (fun _ h c => ⟨(h c).1.trans ?_, (h c).2⟩) (kernel_run m ρ)
  unfold Pipeline.afterTail₀
  refine (tails_agree _ (StableHlo.after (Cert.ReferenceIdeal.HandRun.mlpOps (F := Ideal)) (fun b => m' (c, b))) ?h0 ?h1).trans
    (congrFun (Cert.ReferenceIdeal.HandRun.after_append Cert.ReferenceIdeal.HandRun.mlpOps Cert.ReferenceIdeal.HandRun.tailOps _).symm _)
  case h0 =>
    -- the region's output array holds the activations; so does the reference's buffer after its first 54 operations
    refine ((Pipeline.withArrays_arr Cert.KernelIdeal.spec0 Cert.KernelIdeal.Gen.launch0.win.arr_inj c _ _ 15).trans (Cert.KernelIdeal.HandValue.final m c)).trans ?_
    funext i
    obtain ⟨r, q, rfl⟩ : ∃ (r : Fin 100000) (q : Fin 3), i = ValueIdx.ix2 r q := ⟨i 0, i 1, ValueIdx.eq_ix2 i⟩
    refine Eq.trans ?_ (Cert.ReferenceIdeal.HandRun.acts_apply m' c r q).symm
    unfold Cert.KernelIdeal.HandValue.acts
    simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
    rfl
  case h1 =>
    -- neither the operations before the region nor the reference's first 54 write the edge list
    refine ((Pipeline.withArrays_of_ne _ c (Cert.KernelIdeal.Hand.V0 m c) _ Cert.KernelIdeal.main_arg1 (by exact (by decide : ∀ w, Pipeline.arrRef Cert.KernelIdeal.spec0 w ≠ Cert.KernelIdeal.main_arg1))).trans (Cert.KernelIdeal.Hand.V_main_arg1 m c)).trans ?_
    exact ((Cert.ReferenceIdeal.HandRun.edges_kept m' c).trans (hagree c).2.1).symm

end Cert.Bridge

end
-- ==== Proof.lean ====
/-
  The kernel and its reference compute the same function on the extended reals.

  The program classifies the 100000 nodes of a graph: a three-layer perceptron with batch normalisation (512 → 128 → 128
  → 3, the second hidden layer added to the first) gives each node three scores; ten rounds of
  z ← 0.9 · Â z + 0.1 · h, with Â the symmetrically degree-normalised adjacency with self-loops read off the edge list,
  smooth them over the graph; a row-wise log-softmax ends it.  The kernel runs the perceptron in one region, block by
  block over fifty blocks of 2000 rows, on weights transposed and reshaped by fourteen host operations before it; the
  reference runs it as 54 host operations.  Everything after the perceptron is, operation for operation, the same 285
  host operations in both programs.

  * The three frames: each program runs to the end, faults nowhere and leaves its sixteen arguments as launched — for the
    two kernel programs from the run of the region between the host operations before and after it (no operation
    writes an argument or a window's array; the body reads its input blocks whole and stores its output block whole),
    for the reference from its run as a straight line of host operations none of which writes an argument.
  * The idealization rewrote nothing, so there is nothing to preserve.
  * Equality of the results: row by row the region's output array and the reference's activations are the same
    perceptron of the same arguments (each read at an index: three plain matrix products as sums over the shared axis,
    the per-feature vectors through their broadcasts, the same two words for the variance offset and the rectifier's
    floor), and from equal activations and the same edge list the common 285 operations give equal results.  Only the
    reading at an index is used — no law that would need the inputs finite.
-/
import proofs.«117862_j74251394613578_1_alg».proof.Defs
import proofs.«117862_j74251394613578_1_alg».proof.Proof.Gen.Kernel
import proofs.«117862_j74251394613578_1_alg».proof.Proof.Gen.KernelIdeal
import proofs.«117862_j74251394613578_1_alg».proof.Proof.Gen.ReferenceIdeal
import proofs.«117862_j74251394613578_1_alg».proof.Proof.Gen.Pre_finite_inputs
import proofs.«117862_j74251394613578_1_alg».proof.Proof.KernelFrame
import proofs.«117862_j74251394613578_1_alg».proof.Proof.KernelIdealFrame
import proofs.«117862_j74251394613578_1_alg».proof.Proof.RefRun
import proofs.«117862_j74251394613578_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ
theorem frame_kernelIdeal : Cert.frame_KernelIdeal := fun m ρ _ => Cert.KernelIdeal.Hand.frame m ρ
theorem frame_referenceIdeal : Cert.frame_ReferenceIdeal := fun m ρ _ => Cert.ReferenceIdeal.HandRun.frame m ρ

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Bridge.algebraic⟩

end Cert.Proof

end
